-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S4096x2048 : Shape := ⟨2, ![4096, 2048]⟩
abbrev S4096 : Shape := ⟨1, ![4096]⟩
abbrev S4096x4096 : Shape := ⟨2, ![4096, 4096]⟩
abbrev S32000x4096 : Shape := ⟨2, ![32000, 4096]⟩
abbrev S32000 : Shape := ⟨1, ![32000]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_

variable [Facts]

def fn_part3 {F : FTy → Type} [FloatOps F] (main_arg11 : FVec F S32000 .f32) (main_arg12 : FVec F S32000 .f32) (main_v48 : IVec S_ 1) (main_v49 : FVec F S32000x4096 .f32) (main_v50 : FVec F S32000x4096 .f32) : IVec S_ 1 :=
  let main_v51 : IVec S32000x4096 1 := cmpf .olt main_v49 main_v50
  let main_c_19 : IVec S_ 1 := constantI S_ 1 1#1
  let main_v52 : IVec S_ 1 := (fun x v => Host.reduce IntOp.andi x v reducesTo_S32000x4096_S_d0_1 h_S_) main_v51 main_c_19
  let main_v53 : IVec S_ 1 := andi main_v48 main_v52
  let main_v54 : FVec F S32000 .f32 := Host.absf main_arg11
  let main_cst_20 : FVec F S_ .f32 := constant S_ .f32 0x7F800000#32
  let main_v55 : FVec F S32000 .f32 := broadcastInDim S32000 ![] bcast_S_S32000 main_cst_20
  let main_v56 : IVec S32000 1 := cmpf .olt main_v54 main_v55
  let main_c_21 : IVec S_ 1 := constantI S_ 1 1#1
  let main_v57 : IVec S_ 1 := (fun x v => Host.reduce IntOp.andi x v reducesTo_S32000_S_d0 h_S_) main_v56 main_c_21
  let main_v58 : IVec S_ 1 := andi main_v53 main_v57
  let main_v59 : FVec F S32000 .f32 := Host.absf main_arg12
  let main_cst_22 : FVec F S_ .f32 := constant S_ .f32 0x7F800000#32
  let main_v60 : FVec F S32000 .f32 := broadcastInDim S32000 ![] bcast_S_S32000 main_cst_22
  let main_v61 : IVec S32000 1 := cmpf .olt main_v59 main_v60
  let main_c_23 : IVec S_ 1 := constantI S_ 1 1#1
  let main_v62 : IVec S_ 1 := (fun x v => Host.reduce IntOp.andi x v reducesTo_S32000_S_d0 h_S_) main_v61 main_c_23
  let main_v63 : IVec S_ 1 := andi main_v58 main_v62
  main_v63

def fn_part2 {F : FTy → Type} [FloatOps F] (main_arg7 : FVec F S4096x4096 .f32) (main_arg8 : FVec F S4096 .f32) (main_arg9 : FVec F S4096 .f32) (main_arg10 : FVec F S32000x4096 .f32) (main_arg11 : FVec F S32000 .f32) (main_arg12 : FVec F S32000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S32000x4096 .f32 := Host.absf main_arg10
  let main_cst_18 : FVec F S_ .f32 := constant S_ .f32 0x7F800000#32
  let main_v50 : FVec F S32000x4096 .f32 := broadcastInDim S32000x4096 ![] bcast_S_S32000x4096 main_cst_18
  fn_part3 (F := F) main_arg11 main_arg12 main_v48 main_v49 main_v50

def fn_part1 {F : FTy → Type} [FloatOps F] (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S32000x4096 .f32) (main_arg11 : FVec F S32000 .f32) (main_arg12 : FVec F S32000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x2048 .f32) (main_arg1 : FVec F S4096x2048 .f32) (main_arg2 : FVec F S4096 .f32) (main_arg3 : FVec F S4096 .f32) (main_arg4 : FVec F S4096x4096 .f32) (main_arg5 : FVec F S4096 .f32) (main_arg6 : FVec F S4096 .f32) (main_arg7 : FVec F S4096x4096 .f32) (main_arg8 : FVec F S4096 .f32) (main_arg9 : FVec F S4096 .f32) (main_arg10 : FVec F S32000x4096 .f32) (main_arg11 : FVec F S32000 .f32) (main_arg12 : FVec F S32000 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_v13 main_v16
-- ==== Kernel.lean ====
abbrev S2048x2048 : Shape := ⟨2, ![2048, 2048]⟩
abbrev S4096x2048 : Shape := ⟨2, ![4096, 2048]⟩
abbrev S4096 : Shape := ⟨1, ![4096]⟩
abbrev S4096x4096 : Shape := ⟨2, ![4096, 4096]⟩
abbrev S32000x4096 : Shape := ⟨2, ![32000, 4096]⟩
abbrev S32000 : Shape := ⟨1, ![32000]⟩
abbrev S_ : Shape := ⟨0, ![]⟩
abbrev S1x4096 : Shape := ⟨2, ![1, 4096]⟩
abbrev S2048x4096 : Shape := ⟨2, ![2048, 4096]⟩
abbrev S1024x2048 : Shape := ⟨2, ![1024, 2048]⟩
abbrev S1x1024 : Shape := ⟨2, ![1, 1024]⟩
abbrev S2048x1024 : Shape := ⟨2, ![2048, 1024]⟩
abbrev S1x32000 : Shape := ⟨2, ![1, 32000]⟩
abbrev S2048x32000 : Shape := ⟨2, ![2048, 32000]⟩
abbrev S1280x1024 : Shape := ⟨2, ![1280, 1024]⟩
abbrev S1x1280 : Shape := ⟨2, ![1, 1280]⟩
abbrev S2048x1280 : Shape := ⟨2, ![2048, 1280]⟩
abbrev S64x32000 : Shape := ⟨2, ![64, 32000]⟩
abbrev S64 : Shape := ⟨1, ![64]⟩
abbrev S64x1 : Shape := ⟨2, ![64, 1]⟩

abbrev nBuf : Space → Nat
  | .hbm => 51
  | .vmem => 47
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S32000x4096, .f32⟩
  | .hbm, ⟨11, _⟩ => ⟨S32000, .f32⟩
  | .hbm, ⟨12, _⟩ => ⟨S32000, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S32000x4096, .f32⟩
  | .hbm, ⟨29, _⟩ => ⟨S_, .f32⟩
  | .hbm, ⟨30, _⟩ => ⟨S32000, .f32⟩
  | .hbm, ⟨31, _⟩ => ⟨S32000, .f32⟩
  | .hbm, ⟨32, _⟩ => ⟨S32000, .f32⟩
  | .hbm, ⟨33, _⟩ => ⟨S4096x2048, .bf16⟩
  | .hbm, ⟨34, _⟩ => ⟨S4096x4096, .bf16⟩
  | .hbm, ⟨35, _⟩ => ⟨S4096x4096, .bf16⟩
  | .hbm, ⟨36, _⟩ => ⟨S32000x4096, .bf16⟩
  | .hbm, ⟨37, _⟩ => ⟨S2048x2048, .bf16⟩
  | .hbm, ⟨38, _⟩ => ⟨S1x4096, .f32⟩
  | .hbm, ⟨39, _⟩ => ⟨S1x4096, .f32⟩
  | .hbm, ⟨40, _⟩ => ⟨S2048x4096, .bf16⟩
  | .hbm, ⟨41, _⟩ => ⟨S1x4096, .f32⟩
  | .hbm, ⟨42, _⟩ => ⟨S1x4096, .f32⟩
  | .hbm, ⟨43, _⟩ => ⟨S2048x4096, .bf16⟩
  | .hbm, ⟨44, _⟩ => ⟨S1x4096, .f32⟩
  | .hbm, ⟨45, _⟩ => ⟨S1x4096, .f32⟩
  | .hbm, ⟨46, _⟩ => ⟨S2048x4096, .bf16⟩
  | .hbm, ⟨47, _⟩ => ⟨S1x32000, .f32⟩
  | .hbm, ⟨48, _⟩ => ⟨S1x32000, .f32⟩
  | .hbm, ⟨49, _⟩ => ⟨S2048x32000, .f32⟩
  | .hbm, ⟨50, _⟩ => ⟨S2048x32000, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .f32⟩
  | .local _ .vmem, ⟨10, _⟩ => ⟨S2048x2048, .bf16⟩
  | .local _ .vmem, ⟨11, _⟩ => ⟨S2048x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S2048x1024, .bf16⟩
  | .local _ .vmem, ⟨19, _⟩ => ⟨S2048x1024, .bf16⟩
  | .local _ .vmem, ⟨20, _⟩ => ⟨S2048x1024, .f32⟩
  | .local _ .vmem, ⟨21, _⟩ => ⟨S2048x2048, .bf16⟩
  | .local _ .vmem, ⟨22, _⟩ => ⟨S2048x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S2048x1024, .bf16⟩
  | .local _ .vmem, ⟨30, _⟩ => ⟨S2048x1024, .bf16⟩
  | .local _ .vmem, ⟨31, _⟩ => ⟨S2048x1024, .f32⟩
  | .local _ .vmem, ⟨32, _⟩ => ⟨S2048x1024, .bf16⟩
  | .local _ .vmem, ⟨33, _⟩ => ⟨S2048x1024, .bf16⟩
  | .local _ .vmem, ⟨34, _⟩ => ⟨S1280x1024, .bf16⟩
  | .local _ .vmem, ⟨35, _⟩ => ⟨S1280x1024, .bf16⟩
  | .local _ .vmem, ⟨36, _⟩ => ⟨S1x1280, .f32⟩
  | .local _ .vmem, ⟨37, _⟩ => ⟨S1x1280, .f32⟩
  | .local _ .vmem, ⟨38, _⟩ => ⟨S1x1280, .f32⟩
  | .local _ .vmem, ⟨39, _⟩ => ⟨S1x1280, .f32⟩
  | .local _ .vmem, ⟨40, _⟩ => ⟨S2048x1280, .f32⟩
  | .local _ .vmem, ⟨41, _⟩ => ⟨S2048x1280, .f32⟩
  | .local _ .vmem, ⟨42, _⟩ => ⟨S2048x1280, .f32⟩
  | .local _ .vmem, ⟨43, _⟩ => ⟨S64x32000, .f32⟩
  | .local _ .vmem, ⟨44, _⟩ => ⟨S64x32000, .f32⟩
  | .local _ .vmem, ⟨45, _⟩ => ⟨S64x32000, .f32⟩
  | .local _ .vmem, ⟨46, _⟩ => ⟨S64x32000, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_scratch0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc4_sem0_0 : DmaSem sig := 39
abbrev cc4_sem0_1 : DmaSem sig := 40
abbrev cc4_sem1_0 : DmaSem sig := 41
abbrev cc4_sem1_1 : DmaSem sig := 42

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![25, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1280x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x32000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x32000 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  reducesTo_S4096x2048_S4096_d1 : S4096x2048.ReducesTo [1] S4096
  h_S_ : 0 < S_.numel
  reducesTo_S4096x4096_S4096_d1 : S4096x4096.ReducesTo [1] S4096
  reducesTo_S32000x4096_S32000_d1 : S32000x4096.ReducesTo [1] S32000
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S32000_S1x32000 : S32000.ShapeCasts S1x32000
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2048x1280 : S1x1280.Broadcasts S2048x1280
  inb_S64x32000_S64x32000_0_0 : ∀ a, (![0, 0] : Fin 2 → Nat) a + S64x32000.size a ≤ S64x32000.size a
  h_S64x32000 : 0 < S64x32000.numel
  shapeCasts_S64x32000_S64x32000 : S64x32000.ShapeCasts S64x32000
  reduces_S64x32000_S64 : S64x32000.Reduces [1] S64
  shapeCasts_S64_S64x1 : S64.ShapeCasts S64x1
  broadcasts_S64x1_S64x32000 : S64x1.Broadcasts S64x32000
  dot_S2048x2048_S1024x2048_S2048x1024_1_1_0_0_n_n_wf : DotDims.WF S2048x2048 S1024x2048 S2048x1024 [1] [1] [0] [0] [] []
  dot_S2048x1024_S1280x1024_S2048x1280_1_1_0_0_n_n_wf : DotDims.WF S2048x1024 S1280x1024 S2048x1280 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x4096.size a
  hwx0_4 : ∀ i : grid0.Coords, EltTy.bits .bf16 = 32 ∨ (Rect.block (s := S2048x4096) S2048x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x4096.size a
  hwx1_0 : ∀ i : grid1.Coords, EltTy.bits .bf16 = 32 ∨ (Rect.block (s := S2048x4096) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x4096.size a
  hwx1_4 : ∀ i : grid1.Coords, EltTy.bits .bf16 = 32 ∨ (Rect.block (s := S2048x4096) S2048x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S2048x4096.size a
  hwx2_0 : ∀ i : grid2.Coords, EltTy.bits .bf16 = 32 ∨ (Rect.block (s := S2048x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S2048x4096.size a
  hwx2_4 : ∀ i : grid2.Coords, EltTy.bits .bf16 = 32 ∨ (Rect.block (s := S2048x4096) S2048x1024.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S2048x4096.size a
  hwx3_0 : ∀ i : grid3.Coords, EltTy.bits .bf16 = 32 ∨ (Rect.block (s := S2048x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x1024.size a ≤ S32000x4096.size a
  hwx3_1 : ∀ i : grid3.Coords, EltTy.bits .bf16 = 32 ∨ (Rect.block (s := S32000x4096) S1280x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1280.size a ≤ S1x32000.size a
  hwx3_2 : ∀ i : grid3.Coords, EltTy.bits .f32 = 32 ∨ (Rect.block (s := S1x32000) S1x1280.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1280.size a ≤ S1x32000.size a
  hwx3_3 : ∀ i : grid3.Coords, EltTy.bits .f32 = 32 ∨ (Rect.block (s := S1x32000) S1x1280.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1280.size a ≤ S2048x32000.size a
  hwx3_4 : ∀ i : grid3.Coords, EltTy.bits .f32 = 32 ∨ (Rect.block (s := S2048x32000) S2048x1280.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x32000.size a ≤ S2048x32000.size a
  hwx4_0 : ∀ i : grid4.Coords, EltTy.bits .f32 = 32 ∨ (Rect.block (s := S2048x32000) S64x32000.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x32000.size a ≤ S2048x32000.size a
  hwx4_1 : ∀ i : grid4.Coords, EltTy.bits .f32 = 32 ∨ (Rect.block (s := S2048x32000) S64x32000.size (cc4_transform_1 i) (hinb4_1 i)).WholeWords (EltTy.packing .f32)

variable [Facts₀]

def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf
def dot_S2048x1024_S1280x1024_S2048x1280_1_1_0_0_n_n : DotDims S2048x1024 S1280x1024 S2048x1280 where
  lhsContracting := [1]
  rhsContracting := [1]
  lhsNonContracting := [0]
  rhsNonContracting := [0]
  lhsBatch := []
  rhsBatch := []
  wf := dot_S2048x1024_S1280x1024_S2048x1280_1_1_0_0_n_n_wf

abbrev win0_0 : Pipeline.Window sig grid0 :=
  Pipeline.Window.ofSpec (Memref.whole main_v20) S2048x2048.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v23) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v26) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v29) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1280x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x1280.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x1280.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v32) S2048x1280.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v32) S64x32000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S64x32000.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S2048x2048 : Shape := ⟨2, ![2048, 2048]⟩
abbrev S4096x2048 : Shape := ⟨2, ![4096, 2048]⟩
abbrev S4096 : Shape := ⟨1, ![4096]⟩
abbrev S4096x4096 : Shape := ⟨2, ![4096, 4096]⟩
abbrev S32000x4096 : Shape := ⟨2, ![32000, 4096]⟩
abbrev S32000 : Shape := ⟨1, ![32000]⟩
abbrev S_ : Shape := ⟨0, ![]⟩
abbrev S4096x1 : Shape := ⟨2, ![4096, 1]⟩
abbrev S2048x4096 : Shape := ⟨2, ![2048, 4096]⟩
abbrev S1x4096 : Shape := ⟨2, ![1, 4096]⟩
abbrev S32000x1 : Shape := ⟨2, ![32000, 1]⟩
abbrev S4096x32000 : Shape := ⟨2, ![4096, 32000]⟩
abbrev S2048x32000 : Shape := ⟨2, ![2048, 32000]⟩
abbrev S1x32000 : Shape := ⟨2, ![1, 32000]⟩
abbrev S2048 : Shape := ⟨1, ![2048]⟩
abbrev S2048x1 : Shape := ⟨2, ![2048, 1]⟩

abbrev nBuf : Space → Nat
  | .hbm => 108
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S32000x4096, .f32⟩
  | .hbm, ⟨11, _⟩ => ⟨S32000, .f32⟩
  | .hbm, ⟨12, _⟩ => ⟨S32000, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S2048x4096, .f32⟩
  | .hbm, ⟨23, _⟩ => ⟨S2048x4096, .f32⟩
  | .hbm, ⟨24, _⟩ => ⟨S1x4096, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S_, .f32⟩
  | .hbm, ⟨29, _⟩ => ⟨S2048x4096, .f32⟩
  | .hbm, ⟨30, _⟩ => ⟨S2048x4096, .i1⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S2048x4096, .f32⟩
  | .hbm, ⟨46, _⟩ => ⟨S1x4096, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S_, .f32⟩
  | .hbm, ⟨51, _⟩ => ⟨S2048x4096, .f32⟩
  | .hbm, ⟨52, _⟩ => ⟨S2048x4096, .i1⟩
  | .hbm, ⟨53, _⟩ => ⟨S_, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S2048x4096, .f32⟩
  | .hbm, ⟨68, _⟩ => ⟨S1x4096, .f32⟩
  | .hbm, ⟨69, _⟩ => ⟨S2048x4096, .f32⟩
  | .hbm, ⟨70, _⟩ => ⟨S2048x4096, .f32⟩
  | .hbm, ⟨71, _⟩ => ⟨S_, .f32⟩
  | .hbm, ⟨72, _⟩ => ⟨S_, .f32⟩
  | .hbm, ⟨73, _⟩ => ⟨S2048x4096, .f32⟩
  | .hbm, ⟨74, _⟩ => ⟨S2048x4096, .i1⟩
  | .hbm, ⟨75, _⟩ => ⟨S_, .f32⟩
  | .hbm, ⟨76, _⟩ => ⟨S2048x4096, .f32⟩
  | .hbm, ⟨77, _⟩ => ⟨S2048x4096, .f32⟩
  | .hbm, ⟨78, _⟩ => ⟨S2048x4096, .f32⟩
  | .hbm, ⟨79, _⟩ => ⟨S32000x4096, .f32⟩
  | .hbm, ⟨80, _⟩ => ⟨S_, .f32⟩
  | .hbm, ⟨81, _⟩ => ⟨S32000, .f32⟩
  | .hbm, ⟨82, _⟩ => ⟨S32000x1, .f32⟩
  | .hbm, ⟨83, _⟩ => ⟨S32000x1, .f32⟩
  | .hbm, ⟨84, _⟩ => ⟨S32000x1, .f32⟩
  | .hbm, ⟨85, _⟩ => ⟨S32000x1, .f32⟩
  | .hbm, ⟨86, _⟩ => ⟨S32000x4096, .f32⟩
  | .hbm, ⟨87, _⟩ => ⟨S32000x4096, .f32⟩
  | .hbm, ⟨88, _⟩ => ⟨S4096x32000, .f32⟩
  | .hbm, ⟨89, _⟩ => ⟨S2048x32000, .f32⟩
  | .hbm, ⟨90, _⟩ => ⟨S1x32000, .f32⟩
  | .hbm, ⟨91, _⟩ => ⟨S2048x32000, .f32⟩
  | .hbm, ⟨92, _⟩ => ⟨S2048x32000, .f32⟩
  | .hbm, ⟨93, _⟩ => ⟨S_, .f32⟩
  | .hbm, ⟨94, _⟩ => ⟨S2048, .f32⟩
  | .hbm, ⟨95, _⟩ => ⟨S_, .f32⟩
  | .hbm, ⟨96, _⟩ => ⟨S2048, .f32⟩
  | .hbm, ⟨97, _⟩ => ⟨S2048, .f32⟩
  | .hbm, ⟨98, _⟩ => ⟨S2048x1, .f32⟩
  | .hbm, ⟨99, _⟩ => ⟨S2048x32000, .f32⟩
  | .hbm, ⟨100, _⟩ => ⟨S2048x32000, .f32⟩
  | .hbm, ⟨101, _⟩ => ⟨S2048x32000, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S2048x1, .f32⟩
  | .hbm, ⟨106, _⟩ => ⟨S2048x32000, .f32⟩
  | .hbm, ⟨107, _⟩ => ⟨S2048x32000, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v41 : Ref sig .tc := ⟨.hbm, 78, rfl⟩
abbrev main_v42 : Ref sig .tc := ⟨.hbm, 79, rfl⟩
abbrev main_cst_5 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call3_cst : Ref sig .tc := ⟨.hbm, 93, rfl⟩
abbrev main_call3_v0 : Ref sig .tc := ⟨.hbm, 94, rfl⟩
abbrev main_call3_cst_0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_cst_1 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_v55 : Ref sig .tc := ⟨.hbm, 107, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  transposes_S4096x4096_S4096x4096_1_0 : S4096x4096.Transposes [1, 0] S4096x4096
  reducesTo_S32000x4096_S32000_d1 : S32000x4096.ReducesTo [1] S32000
  bcast_S32000_S32000x1_0 : S32000.BroadcastsInDim S32000x1 (![0] : Fin 1 → Fin S32000x1.rank)
  bcast_S32000x1_S32000x4096_0_1 : S32000x1.BroadcastsInDim S32000x4096 (![0, 1] : Fin 2 → Fin S32000x4096.rank)
  transposes_S32000x4096_S4096x32000_1_0 : S32000x4096.Transposes [1, 0] S4096x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  reducesTo_S2048x32000_S2048_d1 : S2048x32000.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  dot_S2048x2048_S2048x4096_S2048x4096_1_0_0_1_n_n_wf : DotDims.WF S2048x2048 S2048x4096 S2048x4096 [1] [0] [0] [1] [] []
  dot_S2048x4096_S4096x4096_S2048x4096_1_0_0_1_n_n_wf : DotDims.WF S2048x4096 S4096x4096 S2048x4096 [1] [0] [0] [1] [] []
  dot_S2048x4096_S4096x32000_S2048x32000_1_0_0_1_n_n_wf : DotDims.WF S2048x4096 S4096x32000 S2048x32000 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x32000_S2048x32000_1_0_0_1_n_n : DotDims S2048x4096 S4096x32000 S2048x32000 where
  lhsContracting := [1]
  rhsContracting := [0]
  lhsNonContracting := [0]
  rhsNonContracting := [1]
  lhsBatch := []
  rhsBatch := []
  wf := dot_S2048x4096_S4096x32000_S2048x32000_1_0_0_1_n_n_wf

class Facts : Prop extends Facts₀ where

variable [Facts]
-- ==== Proof.KI.R0Body.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first layer's matrix-product kernel on one grid point

The grid is 4 × 1: the second coordinate (the position along the contracted axis) is always 0, which is both the
first and the last position, so at every point the body zeroes the accumulator, adds the product of the input
block and the transposed weight block to it, and stores the accumulator times the scale row plus the bias row,
rectified, into the output block. -/

/-- The zero offsets of a whole-buffer rectangle of rank 2, as a constant function. -/
theorem hz2 : (![0, 0] : Fin 2 → Nat) = fun _ => 0 := funext fun a => by fin_cases a <;> rfl

/-- The position along the contracted axis is the first: the condition under which the accumulator is zeroed. -/
abbrev cond0_1 (i : grid0.Coords) : Prop :=
  (Scalar.cmpi .ne (Scalar.extui (Scalar.cmpi .eq (BitVec.ofNat 32 (i 1).val) 0#32)) 0#32) = 1#1

/-- The accumulator after one point: zero plus the product of the input block with the transposed weight block. -/
def acc0 (x : Vec F S2048x2048 .bf16) (w : Vec F S1024x2048 .bf16) : Vec F S2048x1024 .f32 :=
  k0_pay2 (k0_pay1 (F := F)) x w

/-- The output block after one point: the accumulator times the scale row plus the bias row, rectified. -/
def out0_4 (x : Vec F S2048x2048 .bf16) (w : Vec F S1024x2048 .bf16) (s b : Vec F S1x1024 .f32) : Vec F S2048x1024 .bf16 :=
  k0_pay3 (acc0 x w) s b

set_option maxHeartbeats 1000000 in
/-- The body on whole staging memrefs at a point where both conditions hold: the four operand blocks are left as
    found, the output block ends at out0_4 of them, the accumulator at some contents. -/
theorem sound_kernel0 (c : Dev nD) (E : Set ℕ) (i : grid0.Coords) (hc1 : cond0_1 i) (hc2 : k0_cond2 i = 1#1)
    (arg2 : Memref sig .tc .vmem S2048x2048 .bf16) (harg2 : arg2.IsWhole) (arg3 : Memref sig .tc .vmem S1024x2048 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S2048x1024 .bf16) (harg6 : arg6.IsWhole) (arg7 : Memref sig .tc .vmem S2048x1024 .f32) (harg7 : arg7.IsWhole)
    (x0 : Vec F S2048x2048 .bf16) (x1 : Vec F S1024x2048 .bf16) (x2 : Vec F S1x1024 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)
            ∗ (∃ d, owns (c : Thread nD τ) arg7 fullShare d)) -∗ K ⟨⟩))
      ⊢ wp frame (wpE (defs₀ (F := F)) Variants.none c none) E (cc0__linear_kernel i arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S2048x1024_S2048x1024_0_0 y⟩),
      View.canon_unit_zero hz2]
    sl_unfold_run_names
    simp only [View.readCov_cons_toLoadRect, View.readAt_eq_ld, View.ld_unit_zero (S := S2048x2048) hz2,
      View.ld_unit_zero (S := S1024x2048) hz2, View.ld_unit_zero (S := S1x1024) hz2]
    rfl
  iexists _; iexists _; isplitr
  swap; · iexact H5
  ipureintro; rfl

end Cert.KernelIdeal.Hand
end
-- ==== Proof.KI.R0Dat.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R0Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the windows' blocks and the proof data at the entry contents -/

/-- The accumulator operand: a whole scoped buffer of the kernel's own, passed beside the windows. -/
abbrev scM0 : Memref sig .tc .vmem S2048x1024 .f32 := Memref.whole cc0_scratch0

/-- The region invariant with the accumulator split out of the scoped rest, as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-- The position along the contracted axis is the first at every point of the grid, -/
theorem hcond0_1 : ∀ t : Fin cfg0.N, cond0_1 (grid0.coords t) :=
  (by decide +kernel : ∀ t : Fin grid0.N, cond0_1 (grid0.coords t))
/-- and the last. -/
theorem hcond0_2 : ∀ t : Fin cfg0.N, k0_cond2 (grid0.coords t) = 1#1 :=
  (by decide +kernel : ∀ t : Fin grid0.N, k0_cond2 (grid0.coords t) = 1#1)
/-- So the output window is stored into at every point. -/
theorem liveAt0_4 : ∀ t : Fin cfg0.N, cfg0.idle 4 (grid0.coords t) = false := by decide +kernel

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0 on core c: the arrays as the region finds them; after the body at point t each
    operand's buffer at its block and the output's at out0_4 of the operand blocks; the invariant the scoped rest and
    the generator register, untouched between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand
end
-- ==== Proof.KI.R0Frame.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R0Dat
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation at a generic point, and the invariant's two ends -/

/-- What the body is called with at point t: the invariant, the core owing nothing, every window's current
    staging buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point: the operands' memrefs hold their blocks, both conditions hold, so the body's triple
    applies; the invariant lends the accumulator at some contents and takes it back at some contents; the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3]
  rw [show (dat0 V c).leavesExact 4 t = owns (c : Thread nD τ) (st0_4 t) fullShare ((dat0 V c).after 4 t) from by
      unfold Dat.leavesExact; rw [liveAt0_4 t], after0_4]
  rw [show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩, ⟨%d4, H4⟩⟩
  iapply (sound_kernel0 c Set.univ (grid0.coords t) (hcond0_1 t) (hcond0_2 t) _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hrest Hg]
  · isplitr [Hg]
    · isplitl [HS]; · iexact HS
      iexact Hrest
    iexact Hg
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]

/-- and the invariant after the last point is what the launch takes back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

end Cert.KernelIdeal.Hand
end
-- ==== Proof.KI.R1Runs.lean ====
/-
  Second matrix-product launch (grid 4 × 2; point t has output column block t / 2 and contraction half t % 2):
  what its two control cases share.  The blocks of the four operand windows as read off the arrays the launch
  finds; the two conditions of the body on the contraction coordinate, in closed form over the eight points; where
  the output window is written and where it is left alone; the staging memrefs and the accumulator the body is
  called with; and the launch invariant with the accumulator's buffer split out of the scoped rest.
-/
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the launch finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds its block at every point, whether the point fetched it or the block
    index stood still since the last fetch: the window is an input, never idle, and its blocks tile the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "The contraction coordinate is 0": the accumulator is reset. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The contraction coordinate is the last one": the output block is stored. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are written -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At an even point nothing is stored into the output window, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At an odd point the output window is stored into. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, as a view: what the window's buffer holds is stated through it. -/
abbrev VO1_4 : View sig .tc .vmem S2048x1024 .bf16 := (Memref.whole cc1_stg4_0 : Memref sig .tc .vmem S2048x1024 .bf16).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
/-- The accumulator: a whole scoped buffer of the launch's own. -/
abbrev scM1_0 : Memref sig .tc .vmem S2048x1024 .f32 := Memref.whole cc1_scratch0
abbrev VS1_0 : View sig .tc .vmem S2048x1024 .f32 := scM1_0.view

/-- The launch invariant with the accumulator's buffer split out of the scoped rest: the accumulator owned at some
    contents, every other scoped buffer unopened, the generator register at some state. -/
theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.KernelIdeal.Hand

end
-- ==== Proof.KI.R1RunA.lean ====
/-
  Second matrix-product launch, the body at a point whose contraction coordinate is 0: the accumulator is reset to
  zero, the product of the two operand blocks is added to it, and the output window is not touched.  The body's
  triple on whole staging memrefs, with the pieces the accumulator ends with written out.
-/
import proofs.«131467_j38792144618188_2_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets (first condition true, second false): from the operand buffers at their contents, the
    output's buffer at any contents `xi4` and the accumulator at anything, the body runs to the continuation holding
    the operand buffers and the output's buffer as they were and the accumulator with the pieces `LS0` written. -/
noncomputable def kernelRun1_A (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) :
    Σ' (L4 : List (View.Piece (Elt F) S2048x1024 .bf16)), { LS0 : List (View.Piece (Elt F) S2048x1024 .f32) //
      ∀ (xi4 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg2 harg2 arg3 harg3 arg4 harg4 arg5 harg5 arg6 harg6 arg7 harg7) K } := by
  refine ⟨[], ?_, fun xi4 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R1RunB.lean ====
/-
  Second matrix-product launch, the body at a point whose contraction coordinate is the last: the product of the two
  operand blocks is added to the accumulator, and the output block — the accumulator times the scale row plus the
  bias row, rectified — is stored.  The body's triple on whole staging memrefs, with the pieces the output's buffer and
  the accumulator end with written out.
-/
import proofs.«131467_j38792144618188_2_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that stores (first condition false, second true): from the operand buffers at their contents, the
    output's buffer at anything and the accumulator at the contents `xs0` the point before left, the body runs to the
    continuation holding the operand buffers as they were, the output's buffer with the pieces `L4` written and the
    accumulator with the pieces `LS0` written. -/
noncomputable def kernelRun1_B (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg2 harg2 arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R1Body.lean ====
/-
  Second matrix-product launch: the proof data of its pipeline at the contents `V` the launch finds, and the body
  obligation.  Point t = 2 j + k works on output column block j with contraction half k.  After an even point the
  accumulator holds what the resetting case leaves from the operand blocks there; after an odd point the accumulator
  and the output's buffer hold what the storing case leaves from the operand blocks there and the accumulator of
  the point before.  The invariant before a point other than the first says exactly that of the accumulator, with
  every other scoped buffer unopened; the output window is idle at the even points.
-/
import proofs.«131467_j38792144618188_2_alg».proof.Proof.KI.R1RunA
import proofs.«131467_j38792144618188_2_alg».proof.Proof.KI.R1RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two cases leave -/

/-- The resetting case's pieces tile the accumulator, so they cover it. -/
theorem scover1_A_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) (y : S2048x1024.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S2048x1024.size (by sl_kernel_rfl) y

/-- What the resetting case leaves in the accumulator: its pieces read back. -/
def sout1_A_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) : Vec F S2048x1024 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- The storing case's pieces tile the output's buffer, -/
theorem cover1_B_4 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S2048x1024.size (by sl_kernel_rfl) y

/-- so this is what it leaves there: its pieces read back. -/
def out1_B_4 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) : Vec F S2048x1024 .bf16 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The storing case's pieces for the accumulator tile it, -/
theorem scover1_B_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S2048x1024.size (by sl_kernel_rfl) y

/-- and this is what it leaves there. -/
def sout1_B_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) : Vec F S2048x1024 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-! ## Point by point -/

theorem notCond1_1_of_even (t : Fin cfg1.N) (h0 : t.val % 2 = 0) : ¬cond1_1 (grid1.coords t) :=
  fun h => by have := (hcond1_1 t).mp h; omega
theorem notCond1_0_of_odd (t : Fin cfg1.N) (h0 : ¬t.val % 2 = 0) : ¬cond1_0 (grid1.coords t) :=
  fun h => h0 ((hcond1_0 t).mp h)
theorem cond1_1_of_odd (t : Fin cfg1.N) (h0 : ¬t.val % 2 = 0) : cond1_1 (grid1.coords t) :=
  (hcond1_1 t).mpr (by omega)

/-- The output's buffer and the accumulator after an even point `t`: the output's buffer is not written there
    (its component is never consulted), the accumulator holds what the resetting case leaves. -/
def ptA1 (c : Dev nD) (t : Fin cfg1.N) (h0 : t.val % 2 = 0) : Vec F S2048x1024 .bf16 × Vec F S2048x1024 .f32 :=
  (VO1_4.read (Elt F) VO1_4.junk,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notCond1_1_of_even t h0) (iblk1 V c 0 t) (iblk1 V c 1 t) (iblk1 V c 2 t) (iblk1 V c 3 t))

/-- The output's buffer and the accumulator after an odd point `t`, from the accumulator `xs` of the point before. -/
def ptB1 (c : Dev nD) (t : Fin cfg1.N) (h0 : ¬t.val % 2 = 0) (xs : Vec F S2048x1024 .f32) : Vec F S2048x1024 .bf16 × Vec F S2048x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notCond1_0_of_odd t h0) (cond1_1_of_odd t h0) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notCond1_0_of_odd t h0) (cond1_1_of_odd t h0) (iblk1 V c 0 t) (iblk1 V c 1 t) (iblk1 V c 2 t) (iblk1 V c 3 t) xs)

/-- What the output's buffer and the accumulator hold after the body at position `n`, by recursion on the position. -/
def outsAt1 (c : Dev nD) : (n : ℕ) → n < cfg1.N → Vec F S2048x1024 .bf16 × Vec F S2048x1024 .f32
  | 0, hn => ptA1 V c ⟨0, hn⟩ (Nat.zero_mod _)
  | n + 1, hn =>
    if h0 : (n + 1) % 2 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 2 = 0) :
    outsAt1 V c t.val t.isLt = ptA1 V c t h0 := by
  obtain ⟨n, hn⟩ := t
  cases n with
  | zero => exact rfl
  | succ n => exact dif_pos h0

theorem outsAt1_B (c : Dev nD) (t : Fin cfg1.N) (h0 : ¬t.val % 2 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position `n`: before the first point what the launch hands over; afterwards the accumulator
    at what the point before left, every other scoped buffer unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
        ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
        ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
        ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The pipeline's proof data on core `c`: the arrays as the launch finds them; after the body at point `t` each
    operand's buffer at its block and the output's at `outsAt1`'s first component; the invariant `PhiS1`; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An operand window's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The operand buffers hold their blocks; the parity of the point says which case runs.  At
    an even point the accumulator is handed over at anything (at the first point from the launch's invariant,
    later from the point before, its contents forgotten) and the output's buffer comes back untouched; at an odd
    point the accumulator is handed over at what the point before left.  Either way it is taken back at this point's
    contents, which the case's pieces determine because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 8 := lt_of_lt_of_eq t.isLt (show cfg1.N = 8 from N_1)
  by_cases h0 : t.val % 2 = 0
  · rw [Dat.leavesExact_idle (dat1 V c) 4 t (idleAt1_4_A t ((hcond1_0 t).mpr h0) (notCond1_1_of_even t h0)) (noFlush1_4_A t ((hcond1_0 t).mpr h0) (notCond1_1_of_even t h0))]
    rw [outsAt1_A V c t h0]
    unfold ptA1 sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notCond1_1_of_even t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notCond1_1_of_even t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (notCond1_0_of_odd t h0) (cond1_1_of_odd t h0)], after1_4]
    rw [outsAt1_B V c t h0]
    unfold ptB1 out1_B_4 sout1_B_0; (try dsimp only)
    have hz : t.val ≠ 0 := fun e => h0 (by rw [e])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (notCond1_0_of_odd t h0) (cond1_1_of_odd t h0) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 8 := N_1; omega)

end Cert.KernelIdeal.Hand

end
-- ==== Proof.KI.R2Runs.lean ====
/-
  Third matrix-product launch (grid 4 × 2; point t has output column block t / 2 and contraction half t % 2):
  what its two control cases share.  The blocks of the four operand windows as read off the arrays the launch
  finds; the two conditions of the body on the contraction coordinate, in closed form over the eight points; where
  the output window is written and where it is left alone; the staging memrefs and the accumulator the body is
  called with; and the launch invariant with the accumulator's buffer split out of the scoped rest.
-/
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the launch finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's staging buffer holds its block at every point, whether the point fetched it or the block
    index stood still since the last fetch: the window is an input, never idle, and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "The contraction coordinate is 0": the accumulator is reset. -/
abbrev cond2_0 (i : grid2.Coords) : Prop := (Scalar.cmpi .ne (Scalar.extui (Scalar.cmpi .eq (BitVec.ofNat 32 (i 1).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- "The contraction coordinate is the last one": the output block is stored. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are written -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At an even point nothing is stored into the output window, -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- At an odd point the output window is stored into. -/
theorem liveAt2_4_B : ∀ t : Fin cfg2.N, ¬cond2_0 (grid2.coords t) → cond2_1 (grid2.coords t) → cfg2.idle 4 (grid2.coords t) = false := by decide +kernel

/-! ## The memrefs the body is called with -/

/-- One staging buffer of the output window, as a view: what the window's buffer holds is stated through it. -/
abbrev VO2_4 : View sig .tc .vmem S2048x1024 .bf16 := (Memref.whole cc2_stg4_0 : Memref sig .tc .vmem S2048x1024 .bf16).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .bf16 := win2_4.stage (cfg2.slots t 4)
abbrev hs2_4 (t : Fin cfg2.N) : (ms2_4 t).IsWhole := hstage2_4 ((cfg2.slots t 4).cast nbuf2_4)
/-- The accumulator: a whole scoped buffer of the launch's own. -/
abbrev scM2_0 : Memref sig .tc .vmem S2048x1024 .f32 := Memref.whole cc2_scratch0
abbrev VS2_0 : View sig .tc .vmem S2048x1024 .f32 := scM2_0.view

/-- The launch invariant with the accumulator's buffer split out of the scoped rest: the accumulator owned at some
    contents, every other scoped buffer unopened, the generator register at some state. -/
theorem PhiA2_eq (c : Dev nD) :
    (Pipeline.ΦA spec2 c : sProp 𝕄)
      = iprop(iprop(iprop((∃ d, owns (c : Thread nD τ) scM2_0 fullShare d))
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.KernelIdeal.Hand

end
-- ==== Proof.KI.R2RunA.lean ====
/-
  Third matrix-product launch, the body at a point whose contraction coordinate is 0: the accumulator is reset to
  zero, the product of the two operand blocks is added to it, and the output window is not touched.  The body's
  triple on whole staging memrefs, with the pieces the accumulator ends with written out.
-/
import proofs.«131467_j38792144618188_2_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets (first condition true, second false): from the operand buffers at their contents, the
    output's buffer at any contents `xi4` and the accumulator at anything, the body runs to the continuation holding
    the operand buffers and the output's buffer as they were and the accumulator with the pieces `LS0` written. -/
noncomputable def kernelRun2_A (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) :
    Σ' (L4 : List (View.Piece (Elt F) S2048x1024 .bf16)), { LS0 : List (View.Piece (Elt F) S2048x1024 .f32) //
      ∀ (xi4 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg2 harg2 arg3 harg3 arg4 harg4 arg5 harg5 arg6 harg6 arg7 harg7) K } := by
  refine ⟨[], ?_, fun xi4 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R2RunB.lean ====
/-
  Third matrix-product launch, the body at a point whose contraction coordinate is the last: the product of the two
  operand blocks is added to the accumulator, and the output block — the accumulator times the scale row plus the
  bias row, rectified — is stored.  The body's triple on whole staging memrefs, with the pieces the output's buffer and
  the accumulator end with written out.
-/
import proofs.«131467_j38792144618188_2_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that stores (first condition false, second true): from the operand buffers at their contents, the
    output's buffer at anything and the accumulator at the contents `xs0` the point before left, the body runs to the
    continuation holding the operand buffers as they were, the output's buffer with the pieces `L4` written and the
    accumulator with the pieces `LS0` written. -/
noncomputable def kernelRun2_B (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg2 harg2 arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R2Body.lean ====
/-
  Third matrix-product launch: the proof data of its pipeline at the contents `V` the launch finds, and the body
  obligation.  Point t = 2 j + k works on output column block j with contraction half k.  After an even point the
  accumulator holds what the resetting case leaves from the operand blocks there; after an odd point the accumulator
  and the output's buffer hold what the storing case leaves from the operand blocks there and the accumulator of
  the point before.  The invariant before a point other than the first says exactly that of the accumulator, with
  every other scoped buffer unopened; the output window is idle at the even points.
-/
import proofs.«131467_j38792144618188_2_alg».proof.Proof.KI.R2RunA
import proofs.«131467_j38792144618188_2_alg».proof.Proof.KI.R2RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two cases leave -/

/-- The resetting case's pieces tile the accumulator, so they cover it. -/
theorem scover2_A_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) (y : S2048x1024.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2048x1024.size (by sl_kernel_rfl) y

/-- What the resetting case leaves in the accumulator: its pieces read back. -/
def sout2_A_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) : Vec F S2048x1024 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- The storing case's pieces tile the output's buffer, -/
theorem cover2_B_4 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S2048x1024.size (by sl_kernel_rfl) y

/-- so this is what it leaves there: its pieces read back. -/
def out2_B_4 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) : Vec F S2048x1024 .bf16 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- The storing case's pieces for the accumulator tile it, -/
theorem scover2_B_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2048x1024.size (by sl_kernel_rfl) y

/-- and this is what it leaves there. -/
def sout2_B_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) : Vec F S2048x1024 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-! ## Point by point -/

theorem notCond2_1_of_even (t : Fin cfg2.N) (h0 : t.val % 2 = 0) : ¬cond2_1 (grid2.coords t) :=
  fun h => by have := (hcond2_1 t).mp h; omega
theorem notCond2_0_of_odd (t : Fin cfg2.N) (h0 : ¬t.val % 2 = 0) : ¬cond2_0 (grid2.coords t) :=
  fun h => h0 ((hcond2_0 t).mp h)
theorem cond2_1_of_odd (t : Fin cfg2.N) (h0 : ¬t.val % 2 = 0) : cond2_1 (grid2.coords t) :=
  (hcond2_1 t).mpr (by omega)

/-- The output's buffer and the accumulator after an even point `t`: the output's buffer is not written there
    (its component is never consulted), the accumulator holds what the resetting case leaves. -/
def ptA2 (c : Dev nD) (t : Fin cfg2.N) (h0 : t.val % 2 = 0) : Vec F S2048x1024 .bf16 × Vec F S2048x1024 .f32 :=
  (VO2_4.read (Elt F) VO2_4.junk,
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (notCond2_1_of_even t h0) (iblk2 V c 0 t) (iblk2 V c 1 t) (iblk2 V c 2 t) (iblk2 V c 3 t))

/-- The output's buffer and the accumulator after an odd point `t`, from the accumulator `xs` of the point before. -/
def ptB2 (c : Dev nD) (t : Fin cfg2.N) (h0 : ¬t.val % 2 = 0) (xs : Vec F S2048x1024 .f32) : Vec F S2048x1024 .bf16 × Vec F S2048x1024 .f32 :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (notCond2_0_of_odd t h0) (cond2_1_of_odd t h0) (iblk2 V c 0 t) (iblk2 V c 1 t) (iblk2 V c 2 t) (iblk2 V c 3 t) xs,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (notCond2_0_of_odd t h0) (cond2_1_of_odd t h0) (iblk2 V c 0 t) (iblk2 V c 1 t) (iblk2 V c 2 t) (iblk2 V c 3 t) xs)

/-- What the output's buffer and the accumulator hold after the body at position `n`, by recursion on the position. -/
def outsAt2 (c : Dev nD) : (n : ℕ) → n < cfg2.N → Vec F S2048x1024 .bf16 × Vec F S2048x1024 .f32
  | 0, hn => ptA2 V c ⟨0, hn⟩ (Nat.zero_mod _)
  | n + 1, hn =>
    if h0 : (n + 1) % 2 = 0 then ptA2 V c ⟨n + 1, hn⟩ h0
    else ptB2 V c ⟨n + 1, hn⟩ h0 (outsAt2 c n (Nat.lt_of_succ_lt hn)).2

theorem outsAt2_A (c : Dev nD) (t : Fin cfg2.N) (h0 : t.val % 2 = 0) :
    outsAt2 V c t.val t.isLt = ptA2 V c t h0 := by
  obtain ⟨n, hn⟩ := t
  cases n with
  | zero => exact rfl
  | succ n => exact dif_pos h0

theorem outsAt2_B (c : Dev nD) (t : Fin cfg2.N) (h0 : ¬t.val % 2 = 0) :
    outsAt2 V c t.val t.isLt = ptB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position `n`: before the first point what the launch hands over; afterwards the accumulator
    at what the point before left, every other scoped buffer unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
        ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
        ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
        ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The pipeline's proof data on core `c`: the arrays as the launch finds them; after the body at point `t` each
    operand's buffer at its block and the output's at `outsAt2`'s first component; the invariant `PhiS2`; full
    shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- An operand window's buffer is handed back at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The operand buffers hold their blocks; the parity of the point says which case runs.  At
    an even point the accumulator is handed over at anything (at the first point from the launch's invariant,
    later from the point before, its contents forgotten) and the output's buffer comes back untouched; at an odd
    point the accumulator is handed over at what the point before left.  Either way it is taken back at this point's
    contents, which the case's pieces determine because they cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 8 := lt_of_lt_of_eq t.isLt (show cfg2.N = 8 from N_2)
  by_cases h0 : t.val % 2 = 0
  · rw [Dat.leavesExact_idle (dat2 V c) 4 t (idleAt2_4_A t ((hcond2_0 t).mpr h0) (notCond2_1_of_even t h0)) (noFlush2_4_A t ((hcond2_0 t).mpr h0) (notCond2_1_of_even t h0))]
    rw [outsAt2_A V c t h0]
    unfold ptA2 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (notCond2_1_of_even t h0) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (notCond2_1_of_even t h0) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat2 V c).leavesExact 4 t = owns (c : Thread nD τ) (ms2_4 t) fullShare ((dat2 V c).after 4 t) from by
      unfold Dat.leavesExact; rw [liveAt2_4_B t (notCond2_0_of_odd t h0) (cond2_1_of_odd t h0)], after2_4]
    rw [outsAt2_B V c t h0]
    unfold ptB2 out2_B_4 sout2_B_0; (try dsimp only)
    have hz : t.val ≠ 0 := fun e => h0 (by rw [e])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (notCond2_0_of_odd t h0) (cond2_1_of_odd t h0) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the pipeline is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: what the accumulator holds is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.KernelIdeal.Hand

end
-- ==== Proof.KI.R3Defs.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R0Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the last layer's matrix-product kernel

The grid is 25 × 4: point t works on output column block t / 4 at position t % 4 along the contracted axis.  At
position 0 the body zeroes the accumulator; at every position it adds the product of the input block and the
transposed weight block to it; at position 3 it stores the accumulator times the scale row plus the bias row into
the output block (no rectifier in this layer).  Elsewhere the output block is left untouched. -/

/-- The position along the contracted axis is the first: the condition under which the accumulator is zeroed. -/
abbrev cond3_1 (i : grid3.Coords) : Prop :=
  (Scalar.cmpi .ne (Scalar.extui (Scalar.cmpi .eq (BitVec.ofNat 32 (i 1).val) 0#32)) 0#32) = 1#1

end Cert.KernelIdeal.Hand
end
-- ==== Proof.KI.R3Dat.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R3Defs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the proof data at the entry contents -/

/-- The accumulator operand: a whole scoped buffer of the kernel's own, passed beside the windows. -/
abbrev scM3 : Memref sig .tc .vmem S2048x1280 .f32 := Memref.whole cc3_scratch0

/-- The region invariant with the accumulator split out of the scoped rest, as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## The conditions in closed form: point t is at position t % 4 along the contracted axis -/

/-- The accumulator is zeroed at the points ≡ 0 (mod 4). -/
theorem hcond3_1 : ∀ t : Fin cfg3.N, cond3_1 (grid3.coords t) ↔ t.val % 4 = 0 :=
  (by decide +kernel : ∀ t : Fin grid3.N, cond3_1 (grid3.coords t) ↔ t.val % 4 = 0)
/-- The output block is stored at the points ≡ 3 (mod 4). -/
theorem hcond3_2 : ∀ t : Fin cfg3.N, k3_cond2 (grid3.coords t) = 1#1 ↔ t.val % 4 = 3 :=
  (by decide +kernel : ∀ t : Fin grid3.N, k3_cond2 (grid3.coords t) = 1#1 ↔ t.val % 4 = 3)
/-- Elsewhere the output window is idle, -/
theorem idleAt3_4 : ∀ t : Fin cfg3.N, ¬t.val % 4 = 3 → cfg3.idle 4 (grid3.coords t) = true :=
  (by decide +kernel : ∀ t : Fin grid3.N, ¬t.val % 4 = 3 → idle3 4 (grid3.coords t) = true)
/-- and there it is live. -/
theorem liveAt3_4 : ∀ t : Fin cfg3.N, t.val % 4 = 3 → cfg3.idle 4 (grid3.coords t) = false :=
  (by decide +kernel : ∀ t : Fin grid3.N, t.val % 4 = 3 → idle3 4 (grid3.coords t) = false)
/-- At an idle point the output block is not written back. -/
theorem noFlush3_4 (t : Fin cfg3.N) (h : ¬t.val % 4 = 3) : (cfg3.win 4).flush t = false :=
  Bool.eq_false_iff.mpr fun hf => h ((flush3_4 t).mp hf)

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the accumulator holds after each point -/

/-- The accumulator after the body at position n: the product of the point's input and weight blocks added to zero
    at the first position of a run of four, to what the point before left otherwise. -/
def sAt3 (c : Dev nD) : (n : ℕ) → n < cfg3.N → Vec F S2048x1280 .f32
  | 0, hn => k3_pay2 (k3_pay1 (F := F)) (iblk3 V c 0 ⟨0, hn⟩) (iblk3 V c 1 ⟨0, hn⟩)
  | n + 1, hn =>
    k3_pay2 (if (n + 1) % 4 = 0 then k3_pay1 (F := F) else sAt3 c n (Nat.lt_of_succ_lt hn))
      (iblk3 V c 0 ⟨n + 1, hn⟩) (iblk3 V c 1 ⟨n + 1, hn⟩)

/-- At the first position of a run: zero plus the product. -/
theorem sAt3_first (c : Dev nD) (t : Fin cfg3.N) (h0 : t.val % 4 = 0) :
    sAt3 V c t.val t.isLt = k3_pay2 (k3_pay1 (F := F)) (iblk3 V c 0 t) (iblk3 V c 1 t) := by
  obtain ⟨n, hn⟩ := t
  cases n with
  | zero => rfl
  | succ n => unfold sAt3; rw [if_pos h0]

/-- At a later position: what the point before left plus the product. -/
theorem sAt3_later (c : Dev nD) (t : Fin cfg3.N) (h0 : ¬t.val % 4 = 0) :
    sAt3 V c t.val t.isLt
      = k3_pay2 (sAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n =>
    have e : (if (n + 1) % 4 = 0 then k3_pay1 (F := F) else sAt3 V c n (Nat.lt_of_succ_lt hn)) = sAt3 V c n (Nat.lt_of_succ_lt hn) :=
      if_neg h0
    exact congrArg (fun a => k3_pay2 a (iblk3 V c 0 ⟨n + 1, hn⟩) (iblk3 V c 1 ⟨n + 1, hn⟩)) e

/-- The region invariant before position n: before the first point the scoped rest and the generator register as
    the launch hands them over; afterwards the same with the accumulator at what the point before left in it. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of region 3 on core c: the arrays as the region finds them; after the body at point t each
    operand's buffer at its block and the output's at the accumulator there times the scale block plus the bias block
    (read only at the points that store it); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (sAt3 V c t.val t.isLt) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem recorded_eq3 (c : Dev nD) (t : Fin (cfg3.N + 1)) : (dat3 V c).recorded t = Set.univ := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay3 (sAt3 V c t.val t.isLt) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Cert.KernelIdeal.Hand
end
-- ==== Proof.KI.R3BodyA.lean ====
/-
  Fourth matrix-product launch, the body at the first of the four positions along the contracted axis: the accumulator
  is given zeros and the product of the input block with the transposed weight block is added; nothing is stored into
  the output block.
-/
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R3Defs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first position that is not the last: the input and weight blocks are left as found and the
    accumulator ends at zero plus their product, whatever it held; the scale, bias and output buffers are not touched. -/
theorem sound_kernel3_A (c : Dev nD) (E : Set ℕ) (i : grid3.Coords) (hc1 : cond3_1 i) (hc2 : ¬k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k3_pay2 (k3_pay1 (F := F)) x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%d5, %f5, -, H5⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.KernelIdeal.Hand
end
-- ==== Proof.KI.R3BodyB.lean ====
/-
  Fourth matrix-product launch, the body at a middle position along the contracted axis: the product of the input block
  with the transposed weight block is added to what the accumulator held; nothing is stored into the output block.
-/
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R3Defs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle position: the input and weight blocks are left as found and their product is added to
    what the accumulator held; the scale, bias and output buffers are not touched. -/
theorem sound_kernel3_B (c : Dev nD) (E : Set ℕ) (i : grid3.Coords) (hc1 : ¬cond3_1 i) (hc2 : ¬k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (xs : Vec F S2048x1280 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k3_pay2 xs x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f5, %hf5, H5⟩, Hk⟩
  subst hf0; subst hf1; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.KernelIdeal.Hand
end
-- ==== Proof.KI.R3BodyC.lean ====
/-
  Fourth matrix-product launch, the body at the last position along the contracted axis: the product is added to the
  accumulator, and the accumulator times the scale row plus the bias row is stored into the output block.
-/
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R3Defs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last position: the four operand blocks are left as found, the product of the input and weight
    blocks is added to what the accumulator held, and the output block ends at that sum times the scale row plus the
    bias row, whatever it held. -/
theorem sound_kernel3_C (c : Dev nD) (E : Set ℕ) (i : grid3.Coords) (hc1 : ¬cond3_1 i) (hc2 : k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (x2 : Vec F S1x1280 .f32) (x3 : Vec F S1x1280 .f32)
    (xs : Vec F S2048x1280 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k3_pay3 (k3_pay2 xs x0 x1) x2 x3)
            ∗ owns (c : Thread nD τ) arg7 fullShare (k3_pay2 xs x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz2 inb_S2048x1280_S2048x1280_0_0 y⟩),
      View.canon_cons_unit_zero hz2]
    simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.KernelIdeal.Hand
end
-- ==== Proof.KI.R3Frame.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.KI.R3Dat
import proofs.«131467_j38792144618188_2_alg».proof.Proof.KI.R3BodyA
import proofs.«131467_j38792144618188_2_alg».proof.Proof.KI.R3BodyB
import proofs.«131467_j38792144618188_2_alg».proof.Proof.KI.R3BodyC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body obligation at a generic point, and the invariant's two ends -/

/-- What the body is called with at point t: the invariant, the core owing nothing, every window's current
    staging buffer at what it then holds, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the operands' memrefs hold their blocks; the closed forms say at which position along the
    contracted axis the point is; the invariant hands the body the accumulator at what the point before left (at
    anything before the first point) and takes it back at this point's contents; at a position that does not store
    the output block its buffer passes through untouched; the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1,
    show (dat3 V c).leavesExact 2 t = owns (c : Thread nD τ) (st3_2 t) fullShare ((dat3 V c).after 2 t) from rfl, after3_2,
    show (dat3 V c).leavesExact 3 t = owns (c : Thread nD τ) (st3_3 t) fullShare ((dat3 V c).after 3 t) from rfl, after3_3]
  have hN : t.val < 100 := lt_of_lt_of_eq t.isLt (show cfg3.N = 100 from N_3)
  by_cases h3 : t.val % 4 = 3
  · have h0 : ¬t.val % 4 = 0 := by omega
    have hz : t.val ≠ 0 := by omega
    rw [show (dat3 V c).leavesExact 4 t = owns (c : Thread nD τ) (st3_4 t) fullShare ((dat3 V c).after 4 t) from by
      unfold Dat.leavesExact; rw [liveAt3_4 t h3], after3_4]
    rw [sAt3_later V c t h0]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (sound_kernel3_C c Set.univ (grid3.coords t) (fun h => h0 ((hcond3_1 t).mp h)) ((hcond3_2 t).mpr h3) _ _ _ _ _ _ _ _ _ _ _ _
      (iblk3 V c 0 t) (iblk3 V c 1 t) (iblk3 V c 2 t) (iblk3 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitr [Hg]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t h3) (noFlush3_4 t h3)]
    by_cases h0 : t.val % 4 = 0
    · rw [sAt3_first V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩, H4⟩
        iapply (sound_kernel3_A c Set.univ (grid3.coords t) ((hcond3_1 t).mpr h0) (fun h => h3 ((hcond3_2 t).mp h)) _ _ _ _ _ _ _ _ _ _ _ _
          (iblk3 V c 0 t) (iblk3 V c 1 t) _)
        isplitl [H0]; · iexact H0
        isplitl [H1]; · iexact H1
        isplitl [HS]; · iexact HS
        iintro ⟨H0, H1, HS⟩
        isplitl [HS Hrest Hg]
        · isplitr [Hg]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, H4⟩
        iapply (sound_kernel3_A c Set.univ (grid3.coords t) ((hcond3_1 t).mpr h0) (fun h => h3 ((hcond3_2 t).mp h)) _ _ _ _ _ _ _ _ _ _ _ _
          (iblk3 V c 0 t) (iblk3 V c 1 t) _)
        isplitl [H0]; · iexact H0
        isplitl [H1]; · iexact H1
        isplitl [HS]; · iexists _; iexact HS
        iintro ⟨H0, H1, HS⟩
        isplitl [HS Hrest Hg]
        · isplitr [Hg]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
    · have hz : t.val ≠ 0 := fun e => h0 (by rw [e])
      rw [sAt3_later V c t h0]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, H4⟩
      iapply (sound_kernel3_B c Set.univ (grid3.coords t) (fun h => h0 ((hcond3_1 t).mp h)) (fun h => h3 ((hcond3_2 t).mp h)) _ _ _ _ _ _ _ _ _ _ _ _
        (iblk3 V c 0 t) (iblk3 V c 1 t) _ _)
      isplitl [H0]; · iexact H0
      isplitl [H1]; · iexact H1
      isplitl [HS]; · iexact HS
      iintro ⟨H0, H1, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]

/-- After any point but the first the invariant gives back what the launch handed over: the accumulator's named
    contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, Hrest⟩, Hg⟩
  isplitr [Hg]
  · isplitl [HS]
    · iexists _; iexact HS
    iexact Hrest
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 100 := N_3; omega)

end Cert.KernelIdeal.Hand
end
-- ==== Proof.KI.R4Body.lean ====
import proofs.«131467_j38792144618188_2_alg».proof.Proof.Gen.KernelIdeal.Launch
import proofs.«131467_j38792144618188_2_alg».proof.Proof.Gen.KernelIdeal.Skeleton
import proofs.«131467_j38792144618188_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The row-wise log-softmax launch: its windows, its body, its proof data

The fifth launch walks 32 points; at point `t` it is handed rows `64 t … 64 t + 63` of the `2048 × 32000` logits (window 0)
and writes the same rows of the result (window 1).  The body loads its whole input block, computes, and stores its whole
output block once, so one store covers the output buffer and what the buffer holds afterwards is a function of the input
block alone.
-/

variable (V : (c : Dev nD) → (b : Ref sig .tc) → Buf (Elt F) ((c : Thread nD τ).loc b))

/-! ## The windows' blocks -/

/-- Window `w`'s block at point `t`, read off the array the launch finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place: the window is fetched at every point it moves, never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's one rectangle: the whole `64 × 32000` buffer -/

abbrev r4_0 : Rect S64x32000 := Rect.unit (s := S64x32000) ![0, 0] S64x32000.size inb_S64x32000_S64x32000_0_0

/-! ## What the body leaves in the output buffer -/

/-- The output buffer after the body: its one store, of the log-softmax payload of the loaded input block. -/
def out4_1 (x0 : Vec F S64x32000 .f32) : Vec F S64x32000 .f32 :=
  View.canon [⟨r4_0, k4_pay1 (View.ld x0 r4_0)⟩]

/-- The one store is of the whole buffer, so it covers it. -/
theorem cover4_1 (p0 : Vec F S64x32000 .f32) (y : S64x32000.Idx) :
    ∃ pc ∈ ([⟨r4_0, p0⟩] : List (View.Piece (Elt F) S64x32000 .f32)), y ∈ pc.1.set :=
  View.cover_of_tiled [⟨r4_0, p0⟩] S64x32000.size (by rfl) y

/-! ## The body's triple -/

set_option maxHeartbeats 1000000 in
/-- The body on whole staging memrefs, the input's at contents `x0` and the output's at anything, runs to the continuation
    holding the input's as it was and the output's at `out4_1 x0`: it loads the input whole, loads the output (a value it
    never uses) and stores the payload over the whole output. -/
theorem sound_kernel4 (c : Dev nD) (E : Set ℕ) (i : grid4.Coords) (arg1 : Memref sig .tc .vmem S64x32000 .f32) (harg1 : arg1.IsWhole)
    (arg2 : Memref sig .tc .vmem S64x32000 .f32) (harg2 : arg2.IsWhole)
    (x0 : Vec F S64x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__log_softmax_kernel i arg1 harg1 arg2 harg2) K := by
  simp only [cc4__log_softmax_kernel_eq_skeleton]; unfold cc4__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The launch's proof data -/

/-- The proof data of the launch on core `c`: the arrays as the launch finds them; after the body at point `t` the input's
    buffer still at its block and the output's at `out4_1` of the input block; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-- The invariant enters and leaves as the launch's own. -/
theorem hin4 (c : Dev nD) : (Pipeline.ΦA spec4 c : sProp 𝕄) ⊢ (dat4 V c).Φ 0 := by
  dsimp only [dat4]; exact BI.Entails.refl _

theorem hout4 (c : Dev nD) : (dat4 V c).Φ (Fin.last cfg4.N) ⊢ (Pipeline.ΦA spec4 c : sProp 𝕄) := by
  dsimp only [dat4]; exact BI.Entails.refl _

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block, so the body's triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
end
-- ==== Proof.KI.Assembly.lean ====
/-
  The kernel program's run, from the launch to the return: the contents of every buffer at each boundary between
  a stretch of host operations and a kernel launch, the five launches as segments of @main, and the run's result —
  every weakly fair execution ends, and the final memory holds each buffer at the last boundary's contents: the
  thirteen arguments as launched, the result array at what the last launch leaves.
  Each launch's own part (what its staging buffers hold after the body at every grid point, the body's triple, the
  invariant carried between points) is in its own module; here a launch is entered with the host operations' results
  in the buffers and left with its output array rewritten and every other buffer as it was.
-/
import proofs.«131467_j38792144618188_2_alg».proof.Proof.KI.R0Frame
import proofs.«131467_j38792144618188_2_alg».proof.Proof.KI.R1Body
import proofs.«131467_j38792144618188_2_alg».proof.Proof.KI.R2Body
import proofs.«131467_j38792144618188_2_alg».proof.Proof.KI.R3Frame
import proofs.«131467_j38792144618188_2_alg».proof.Proof.KI.R4Body
import proofs.«131467_j38792144618188_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host operations before the first launch. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first launch: its arrays at what it leaves, every other buffer as it was. -/
def W2 (c : Dev nD) : Valuation τ sig (Elt F) := Pipeline.withArrays spec0 c (W1 m c) fun w => (dat0 (E1 m) c).arrAt w cfg0.N
abbrev E2 : (c : Dev nD) → (b : Ref sig .tc) → Buf (Elt F) ((c : Thread nD τ).loc b) := fun c b => W2 m c b
abbrev W3 : Dev nD → Valuation τ sig (Elt F) := fun c => StableHlo.after hostOps1 (W2 m c)
abbrev E3 : (c : Dev nD) → (b : Ref sig .tc) → Buf (Elt F) ((c : Thread nD τ).loc b) := fun c b => W3 m c b
def W4 (c : Dev nD) : Valuation τ sig (Elt F) := Pipeline.withArrays spec1 c (W3 m c) fun w => (dat1 (E3 m) c).arrAt w cfg1.N
abbrev E4 : (c : Dev nD) → (b : Ref sig .tc) → Buf (Elt F) ((c : Thread nD τ).loc b) := fun c b => W4 m c b
abbrev W5 : Dev nD → Valuation τ sig (Elt F) := fun c => StableHlo.after hostOps2 (W4 m c)
abbrev E5 : (c : Dev nD) → (b : Ref sig .tc) → Buf (Elt F) ((c : Thread nD τ).loc b) := fun c b => W5 m c b
def W6 (c : Dev nD) : Valuation τ sig (Elt F) := Pipeline.withArrays spec2 c (W5 m c) fun w => (dat2 (E5 m) c).arrAt w cfg2.N
abbrev E6 : (c : Dev nD) → (b : Ref sig .tc) → Buf (Elt F) ((c : Thread nD τ).loc b) := fun c b => W6 m c b
abbrev W7 : Dev nD → Valuation τ sig (Elt F) := fun c => StableHlo.after hostOps3 (W6 m c)
abbrev E7 : (c : Dev nD) → (b : Ref sig .tc) → Buf (Elt F) ((c : Thread nD τ).loc b) := fun c b => W7 m c b
def W8 (c : Dev nD) : Valuation τ sig (Elt F) := Pipeline.withArrays spec3 c (W7 m c) fun w => (dat3 (E7 m) c).arrAt w cfg3.N
abbrev E8 : (c : Dev nD) → (b : Ref sig .tc) → Buf (Elt F) ((c : Thread nD τ).loc b) := fun c b => W8 m c b
/-- After the last launch (no host operation lies between the fourth and the fifth, none after the fifth). -/
def W9 (c : Dev nD) : Valuation τ sig (Elt F) := Pipeline.withArrays spec4 c (W8 m c) fun w => (dat4 (E8 m) c).arrAt w cfg4.N
abbrev E9 : (c : Dev nD) → (b : Ref sig .tc) → Buf (Elt F) ((c : Thread nD τ).loc b) := fun c b => W9 m c b

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

theorem W9_arr (c : Dev nD) (w : Fin cfg4.W) :
    W9 m c (Proc.devRef .tc (Pipeline.arrRef spec4 w)) = (dat4 (E8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem hF4 (c : Dev nD) (w : Fin cfg4.W) : (dat4 (E8 m) c).arrAt w cfg4.N = E9 m c (Pipeline.arrRef spec4 w) :=
  (W9_arr m c w).symm
theorem hrest4 (c : Dev nD) : ∀ b, b ∉ Finset.univ.image (Pipeline.arrRef spec4) → E9 m c b = E8 m c b :=
  fun b hb => W9_of_ne m c b fun w e => hb (Finset.mem_image.mpr ⟨w, Finset.mem_univ _, e⟩)

/-! ## The proof data family and what rides beside the buffers -/

/-- Every launch's proof data, each at its launch's entry contents. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E8 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state and its dues, none. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W9 m c) ∗ ∃ r, prngReg c r)

/-! ## The launches as segments -/

set_option backward.isDefEq.respectTransparency.types false in
/-- Launch 0: entered with every unscoped buffer at `W1`, left with them at `W2`. Its arrays are split out of
    the unscoped buffers and put back at what the launch leaves; the generator register and the scoped buffers go
    into the launch's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed_eq0 (E1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 0 c).owed 0 = 0 from owed_eq0 (E1 m) c 0,
        show (pdats m 0 c).recorded 0 = Set.univ from recorded_eq0 (E1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have h' := hin0 (E1 m) c
      unfold Pipeline.ΦA at h'
      exact h'
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := by
      have h' := hout0 (E1 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 0 c).owed (Fin.last _) = 0 from owed_eq0 (E1 m) c _]
    iexists W; iexact HO

set_option backward.isDefEq.respectTransparency.types false in
/-- Launch 1: entered with every unscoped buffer at `W3`, left with them at `W4`. Its arrays are split out of
    the unscoped buffers and put back at what the launch leaves; the generator register and the scoped buffers go
    into the launch's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun c t => owed_eq1 (E3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E3 m) c w) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 1 c).owed 0 = 0 from owed_eq1 (E3 m) c 0,
        show (pdats m 1 c).recorded 0 = Set.univ from recorded_eq1 (E3 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (E3 m) c
      unfold Pipeline.ΦA at h'
      exact h'
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have h' := hout1 (E3 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E3 m) c w)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 1 c).owed (Fin.last _) = 0 from owed_eq1 (E3 m) c _]
    iexists W; iexact HO

set_option backward.isDefEq.respectTransparency.types false in
/-- Launch 2: entered with every unscoped buffer at `W5`, left with them at `W6`. Its arrays are split out of
    the unscoped buffers and put back at what the launch leaves; the generator register and the scoped buffers go
    into the launch's invariant and come back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun c t => owed_eq2 (E5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (E5 m) c w) (E5 m c) fun w => A_eq2 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 2 c).owed 0 = 0 from owed_eq2 (E5 m) c 0,
        show (pdats m 2 c).recorded 0 = Set.univ from recorded_eq2 (E5 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats m 2 c).Φ 0 := by
      have h' := hin2 (E5 m) c
      unfold Pipeline.ΦA at h'
      exact h'
    iintro ⟨Hp, -, Hr⟩
    iapply h
    isplitl [Hr]; · iexact Hr
    iexact Hp
  hout c := by
    rw [Pipeline.ownSems0_none]
    have h : (pdats m 2 c).Φ (Fin.last _) ⊢ (iprop(Pipeline.scopedRest spec2 c ∗ ∃ r, prngReg c r) : sProp 𝕄) := by
      have h' := hout2 (E5 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (E5 m) c w)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 2 c).owed (Fin.last _) = 0 from owed_eq2 (E5 m) c _]
    iexists W; iexact HO

set_option backward.isDefEq.respectTransparency.types false in
/-- Launch 3: entered with every unscoped buffer at `W7`, left with them at `W8`. Its arrays are split out of
    the unscoped buffers and put back at what the launch leaves; the generator register and the scoped buffers go
    into the launch's invariant and come back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun c t => owed_eq3 (E7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (E7 m) c w) (E7 m c) fun w => A_eq3 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 3 c).owed 0 = 0 from owed_eq3 (E7 m) c 0,
        show (pdats m 3 c).recorded 0 = Set.univ from recorded_eq3 (E7 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec3 c ∗ ∃ r, prngReg c r) : sProp 𝕄) ⊢ (pdats m 3 c).Φ 0 := by
      have h' := hin3 (E7 m) c
      unfold Pipeline.ΦA at h'
      exact h'
    iintro ⟨Hp, -, Hr⟩
    iapply h
    isplitl [Hr]; · iexact Hr
    iexact Hp
  hout c := by
    rw [Pipeline.ownSems0_none]
    have h : (pdats m 3 c).Φ (Fin.last _) ⊢ (iprop(Pipeline.scopedRest spec3 c ∗ ∃ r, prngReg c r) : sProp 𝕄) := by
      have h' := hout3 (E7 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (E7 m) c w)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 3 c).owed (Fin.last _) = 0 from owed_eq3 (E7 m) c _]
    iexists W; iexact HO

set_option backward.isDefEq.respectTransparency.types false in
/-- Launch 4: entered with every unscoped buffer at `W8`, left with them at `W9`. Its arrays are split out of
    the unscoped buffers and put back at what the launch leaves; the generator register and the scoped buffers go
    into the launch's invariant and come back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E8 m) c).loose
  hwaits := Pipeline.hwaits_of_owed_zero _ _ _ _ L lv 4 fun c t => owed_eq4 (E8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (E8 m) c w) (E8 m c) fun w => A_eq4 (E8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 4 c).owed 0 = 0 from owed_eq4 (E8 m) c 0,
        show (pdats m 4 c).recorded 0 = Set.univ from recorded_eq4 (E8 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec4 c ∗ ∃ r, prngReg c r) : sProp 𝕄) ⊢ (pdats m 4 c).Φ 0 := by
      have h' := hin4 (E8 m) c
      unfold Pipeline.ΦA at h'
      exact h'
    iintro ⟨Hp, -, Hr⟩
    iapply h
    isplitl [Hr]; · iexact Hr
    iexact Hp
  hout c := by
    rw [Pipeline.ownSems0_none]
    have h : (pdats m 4 c).Φ (Fin.last _) ⊢ (iprop(Pipeline.scopedRest spec4 c ∗ ∃ r, prngReg c r) : sProp 𝕄) := by
      have h' := hout4 (E8 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (E8 m) c w)
      (E8 m c) (E9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 4 c).owed (Fin.last _) = 0 from owed_eq4 (E8 m) c _]
    iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m) ]

/-- @main is the run of the segments. -/
theorem main_run (c : Dev nD) : main (F := F) c = Pipeline.Seg.run (segs m) := (main_chain c).trans (by chain_rfl)

set_option backward.isDefEq.respectTransparency.types false in
/-- The run, at any `F`: from any memory with zero counters every weakly fair execution of @main terminates, nothing
    faulting, and every final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## What the last boundary holds -/

/-- A buffer that no host operation writes and that is no launch's array holds at the end what it held at launch. -/
theorem W9_of_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b) (a4 : ∀ w, Pipeline.arrRef spec4 w ≠ b) :
    W9 m c (Proc.devRef .tc b) = m ((c : Thread nD τ).loc b) :=
  calc W9 m c (Proc.devRef .tc b)
    _ = W8 m c (Proc.devRef .tc b) := W9_of_ne m c b a4
    _ = W7 m c (Proc.devRef .tc b) := W8_of_ne m c b a3
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-- The frame, at any `F`: the thirteen argument arrays end as launched, and the result array at what the last
    launch leaves. -/
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v33 (by decide)),
    (h c _ (mem_uc main_arg0 (by decide))).trans (W9_of_untouched m c main_arg0 (by decide) (by decide) (by decide) (by decide) (by decide) (by decide) (by decide) (by decide) (by decide)),
    (h c _ (mem_uc main_arg1 (by decide))).trans (W9_of_untouched m c main_arg1 (by decide) (by decide) (by decide) (by decide) (by decide) (by decide) (by decide) (by decide) (by decide)),
    (h c _ (mem_uc main_arg2 (by decide))).trans (W9_of_untouched m c main_arg2 (by decide) (by decide) (by decide) (by decide) (by decide) (by decide) (by decide) (by decide) (by decide)),
    (h c _ (mem_uc main_arg3 (by decide))).trans (W9_of_untouched m c main_arg3 (by decide) (by decide) (by decide) (by decide) (by decide) (by decide) (by decide) (by decide) (by decide)),
    (h c _ (mem_uc main_arg4 (by decide))).trans (W9_of_untouched m c main_arg4 (by decide) (by decide) (by decide) (by decide) (by decide) (by decide) (by decide) (by decide) (by decide)),
    (h c _ (mem_uc main_arg5 (by decide))).trans (W9_of_untouched m c main_arg5 (by decide) (by decide) (by decide) (by decide) (by decide) (by decide) (by decide) (by decide) (by decide)),
    (h c _ (mem_uc main_arg6 (by decide))).trans (W9_of_untouched m c main_arg6 (by decide) (by decide) (by decide) (by decide) (by decide) (by decide) (by decide) (by decide) (by decide)),
    (h c _ (mem_uc main_arg7 (by decide))).trans (W9_of_untouched m c main_arg7 (by decide) (by decide) (by decide) (by decide) (by decide) (by decide) (by decide) (by decide) (by decide)),
    (h c _ (mem_uc main_arg8 (by decide))).trans (W9_of_untouched m c main_arg8 (by decide) (by decide) (by decide) (by decide) (by decide) (by decide) (by decide) (by decide) (by decide)),
    (h c _ (mem_uc main_arg9 (by decide))).trans (W9_of_untouched m c main_arg9 (by decide) (by decide) (by decide) (by decide) (by decide) (by decide) (by decide) (by decide) (by decide)),
    (h c _ (mem_uc main_arg10 (by decide))).trans (W9_of_untouched m c main_arg10 (by decide) (by decide) (by decide) (by decide) (by decide) (by decide) (by decide) (by decide) (by decide)),
    (h c _ (mem_uc main_arg11 (by decide))).trans (W9_of_untouched m c main_arg11 (by decide) (by decide) (by decide) (by decide) (by decide) (by decide) (by decide) (by decide) (by decide)),
    (h c _ (mem_uc main_arg12 (by decide))).trans (W9_of_untouched m c main_arg12 (by decide) (by decide) (by decide) (by decide) (by decide) (by decide) (by decide) (by decide) (by decide))⟩) (run m ρ)

end Cert.KernelIdeal.Hand

end
-- ==== Proof.K.R0Body.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first layer's matrix-product kernel on one grid point

The grid is 4 × 1: the second coordinate (the position along the contracted axis) is always 0, which is both the
first and the last position, so at every point the body zeroes the accumulator, adds the product of the input
block and the transposed weight block to it, and stores the accumulator times the scale row plus the bias row,
rectified, into the output block. -/

/-- The zero offsets of a whole-buffer rectangle of rank 2, as a constant function. -/
theorem hz2 : (![0, 0] : Fin 2 → Nat) = fun _ => 0 := funext fun a => by fin_cases a <;> rfl

/-- The position along the contracted axis is the first: the condition under which the accumulator is zeroed. -/
abbrev cond0_1 (i : grid0.Coords) : Prop :=
  (Scalar.cmpi .ne (Scalar.extui (Scalar.cmpi .eq (BitVec.ofNat 32 (i 1).val) 0#32)) 0#32) = 1#1

/-- The accumulator after one point: zero plus the product of the input block with the transposed weight block. -/
def acc0 (x : Vec F S2048x2048 .bf16) (w : Vec F S1024x2048 .bf16) : Vec F S2048x1024 .f32 :=
  k0_pay2 (k0_pay1 (F := F)) x w

/-- The output block after one point: the accumulator times the scale row plus the bias row, rectified. -/
def out0_4 (x : Vec F S2048x2048 .bf16) (w : Vec F S1024x2048 .bf16) (s b : Vec F S1x1024 .f32) : Vec F S2048x1024 .bf16 :=
  k0_pay3 (acc0 x w) s b

set_option maxHeartbeats 1000000 in
/-- The body on whole staging memrefs at a point where both conditions hold: the four operand blocks are left as
    found, the output block ends at out0_4 of them, the accumulator at some contents. -/
theorem sound_kernel0 (c : Dev nD) (E : Set ℕ) (i : grid0.Coords) (hc1 : cond0_1 i) (hc2 : k0_cond2 i = 1#1)
    (arg2 : Memref sig .tc .vmem S2048x2048 .bf16) (harg2 : arg2.IsWhole) (arg3 : Memref sig .tc .vmem S1024x2048 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S2048x1024 .bf16) (harg6 : arg6.IsWhole) (arg7 : Memref sig .tc .vmem S2048x1024 .f32) (harg7 : arg7.IsWhole)
    (x0 : Vec F S2048x2048 .bf16) (x1 : Vec F S1024x2048 .bf16) (x2 : Vec F S1x1024 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)
            ∗ (∃ d, owns (c : Thread nD τ) arg7 fullShare d)) -∗ K ⟨⟩))
      ⊢ wp frame (wpE (defs₀ (F := F)) Variants.none c none) E (cc0__linear_kernel i arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_singleton_self _, View.mem_set_unit_zero hz2 inb_S2048x1024_S2048x1024_0_0 y⟩),
      View.canon_unit_zero hz2]
    sl_unfold_run_names
    simp only [View.readCov_cons_toLoadRect, View.readAt_eq_ld, View.ld_unit_zero (S := S2048x2048) hz2,
      View.ld_unit_zero (S := S1024x2048) hz2, View.ld_unit_zero (S := S1x1024) hz2]
    rfl
  iexists _; iexists _; isplitr
  swap; · iexact H5
  ipureintro; rfl

end Cert.Kernel.Hand
end
-- ==== Proof.K.R0Dat.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R0Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the windows' blocks and the proof data at the entry contents -/

/-- The accumulator operand: a whole scoped buffer of the kernel's own, passed beside the windows. -/
abbrev scM0 : Memref sig .tc .vmem S2048x1024 .f32 := Memref.whole cc0_scratch0

/-- The region invariant with the accumulator split out of the scoped rest, as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-- The position along the contracted axis is the first at every point of the grid, -/
theorem hcond0_1 : ∀ t : Fin cfg0.N, cond0_1 (grid0.coords t) :=
  (by decide +kernel : ∀ t : Fin grid0.N, cond0_1 (grid0.coords t))
/-- and the last. -/
theorem hcond0_2 : ∀ t : Fin cfg0.N, k0_cond2 (grid0.coords t) = 1#1 :=
  (by decide +kernel : ∀ t : Fin grid0.N, k0_cond2 (grid0.coords t) = 1#1)
/-- So the output window is stored into at every point. -/
theorem liveAt0_4 : ∀ t : Fin cfg0.N, cfg0.idle 4 (grid0.coords t) = false := by decide +kernel

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0 on core c: the arrays as the region finds them; after the body at point t each
    operand's buffer at its block and the output's at out0_4 of the operand blocks; the invariant the scoped rest and
    the generator register, untouched between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand
end
-- ==== Proof.K.R0Frame.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R0Dat
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation at a generic point, and the invariant's two ends -/

/-- What the body is called with at point t: the invariant, the core owing nothing, every window's current
    staging buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point: the operands' memrefs hold their blocks, both conditions hold, so the body's triple
    applies; the invariant lends the accumulator at some contents and takes it back at some contents; the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3]
  rw [show (dat0 V c).leavesExact 4 t = owns (c : Thread nD τ) (st0_4 t) fullShare ((dat0 V c).after 4 t) from by
      unfold Dat.leavesExact; rw [liveAt0_4 t], after0_4]
  rw [show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩, ⟨%d4, H4⟩⟩
  iapply (sound_kernel0 c Set.univ (grid0.coords t) (hcond0_1 t) (hcond0_2 t) _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hrest Hg]
  · isplitr [Hg]
    · isplitl [HS]; · iexact HS
      iexact Hrest
    iexact Hg
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = Pipeline.ΦA spec0 c from rfl]

/-- and the invariant after the last point is what the launch takes back. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

end Cert.Kernel.Hand
end
-- ==== Proof.K.R1Runs.lean ====
/-
  Second matrix-product launch (grid 4 × 2; point t has output column block t / 2 and contraction half t % 2):
  what its two control cases share.  The blocks of the four operand windows as read off the arrays the launch
  finds; the two conditions of the body on the contraction coordinate, in closed form over the eight points; where
  the output window is written and where it is left alone; the staging memrefs and the accumulator the body is
  called with; and the launch invariant with the accumulator's buffer split out of the scoped rest.
-/
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the launch finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds its block at every point, whether the point fetched it or the block
    index stood still since the last fetch: the window is an input, never idle, and its blocks tile the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "The contraction coordinate is 0": the accumulator is reset. -/
abbrev cond1_0 (i : grid1.Coords) : Prop := (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The contraction coordinate is the last one": the output block is stored. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are written -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At an even point nothing is stored into the output window, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At an odd point the output window is stored into. -/
theorem liveAt1_4_B : ∀ t : Fin cfg1.N, ¬cond1_0 (grid1.coords t) → cond1_1 (grid1.coords t) → cfg1.idle 4 (grid1.coords t) = false := by decide +kernel

/-! ## The memrefs the body is called with -/

/-- One staging buffer of the output window, as a view: what the window's buffer holds is stated through it. -/
abbrev VO1_4 : View sig .tc .vmem S2048x1024 .bf16 := (Memref.whole cc1_stg4_0 : Memref sig .tc .vmem S2048x1024 .bf16).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
/-- The accumulator: a whole scoped buffer of the launch's own. -/
abbrev scM1_0 : Memref sig .tc .vmem S2048x1024 .f32 := Memref.whole cc1_scratch0
abbrev VS1_0 : View sig .tc .vmem S2048x1024 .f32 := scM1_0.view

/-- The launch invariant with the accumulator's buffer split out of the scoped rest: the accumulator owned at some
    contents, every other scoped buffer unopened, the generator register at some state. -/
theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

end Cert.Kernel.Hand

end
-- ==== Proof.K.R1RunA.lean ====
/-
  Second matrix-product launch, the body at a point whose contraction coordinate is 0: the accumulator is reset to
  zero, the product of the two operand blocks is added to it, and the output window is not touched.  The body's
  triple on whole staging memrefs, with the pieces the accumulator ends with written out.
-/
import proofs.«131467_j38792144618188_2_alg».proof.Proof.K.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets (first condition true, second false): from the operand buffers at their contents, the
    output's buffer at any contents `xi4` and the accumulator at anything, the body runs to the continuation holding
    the operand buffers and the output's buffer as they were and the accumulator with the pieces `LS0` written. -/
noncomputable def kernelRun1_A (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) :
    Σ' (L4 : List (View.Piece (Elt F) S2048x1024 .bf16)), { LS0 : List (View.Piece (Elt F) S2048x1024 .f32) //
      ∀ (xi4 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg2 harg2 arg3 harg3 arg4 harg4 arg5 harg5 arg6 harg6 arg7 harg7) K } := by
  refine ⟨[], ?_, fun xi4 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R1RunB.lean ====
/-
  Second matrix-product launch, the body at a point whose contraction coordinate is the last: the product of the two
  operand blocks is added to the accumulator, and the output block — the accumulator times the scale row plus the
  bias row, rectified — is stored.  The body's triple on whole staging memrefs, with the pieces the output's buffer and
  the accumulator end with written out.
-/
import proofs.«131467_j38792144618188_2_alg».proof.Proof.K.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that stores (first condition false, second true): from the operand buffers at their contents, the
    output's buffer at anything and the accumulator at the contents `xs0` the point before left, the body runs to the
    continuation holding the operand buffers as they were, the output's buffer with the pieces `L4` written and the
    accumulator with the pieces `LS0` written. -/
noncomputable def kernelRun1_B (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg2 harg2 arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R1Body.lean ====
/-
  Second matrix-product launch: the proof data of its pipeline at the contents `V` the launch finds, and the body
  obligation.  Point t = 2 j + k works on output column block j with contraction half k.  After an even point the
  accumulator holds what the resetting case leaves from the operand blocks there; after an odd point the accumulator
  and the output's buffer hold what the storing case leaves from the operand blocks there and the accumulator of
  the point before.  The invariant before a point other than the first says exactly that of the accumulator, with
  every other scoped buffer unopened; the output window is idle at the even points.
-/
import proofs.«131467_j38792144618188_2_alg».proof.Proof.K.R1RunA
import proofs.«131467_j38792144618188_2_alg».proof.Proof.K.R1RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two cases leave -/

/-- The resetting case's pieces tile the accumulator, so they cover it. -/
theorem scover1_A_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) (y : S2048x1024.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S2048x1024.size (by sl_kernel_rfl) y

/-- What the resetting case leaves in the accumulator: its pieces read back. -/
def sout1_A_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) : Vec F S2048x1024 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- The storing case's pieces tile the output's buffer, -/
theorem cover1_B_4 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S2048x1024.size (by sl_kernel_rfl) y

/-- so this is what it leaves there: its pieces read back. -/
def out1_B_4 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) : Vec F S2048x1024 .bf16 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- The storing case's pieces for the accumulator tile it, -/
theorem scover1_B_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S2048x1024.size (by sl_kernel_rfl) y

/-- and this is what it leaves there. -/
def sout1_B_0 (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) : Vec F S2048x1024 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-! ## Point by point -/

theorem notCond1_1_of_even (t : Fin cfg1.N) (h0 : t.val % 2 = 0) : ¬cond1_1 (grid1.coords t) :=
  fun h => by have := (hcond1_1 t).mp h; omega
theorem notCond1_0_of_odd (t : Fin cfg1.N) (h0 : ¬t.val % 2 = 0) : ¬cond1_0 (grid1.coords t) :=
  fun h => h0 ((hcond1_0 t).mp h)
theorem cond1_1_of_odd (t : Fin cfg1.N) (h0 : ¬t.val % 2 = 0) : cond1_1 (grid1.coords t) :=
  (hcond1_1 t).mpr (by omega)

/-- The output's buffer and the accumulator after an even point `t`: the output's buffer is not written there
    (its component is never consulted), the accumulator holds what the resetting case leaves. -/
def ptA1 (c : Dev nD) (t : Fin cfg1.N) (h0 : t.val % 2 = 0) : Vec F S2048x1024 .bf16 × Vec F S2048x1024 .f32 :=
  (VO1_4.read (Elt F) VO1_4.junk,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (notCond1_1_of_even t h0) (iblk1 V c 0 t) (iblk1 V c 1 t) (iblk1 V c 2 t) (iblk1 V c 3 t))

/-- The output's buffer and the accumulator after an odd point `t`, from the accumulator `xs` of the point before. -/
def ptB1 (c : Dev nD) (t : Fin cfg1.N) (h0 : ¬t.val % 2 = 0) (xs : Vec F S2048x1024 .f32) : Vec F S2048x1024 .bf16 × Vec F S2048x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (notCond1_0_of_odd t h0) (cond1_1_of_odd t h0) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (notCond1_0_of_odd t h0) (cond1_1_of_odd t h0) (iblk1 V c 0 t) (iblk1 V c 1 t) (iblk1 V c 2 t) (iblk1 V c 3 t) xs)

/-- What the output's buffer and the accumulator hold after the body at position `n`, by recursion on the position. -/
def outsAt1 (c : Dev nD) : (n : ℕ) → n < cfg1.N → Vec F S2048x1024 .bf16 × Vec F S2048x1024 .f32
  | 0, hn => ptA1 V c ⟨0, hn⟩ (Nat.zero_mod _)
  | n + 1, hn =>
    if h0 : (n + 1) % 2 = 0 then ptA1 V c ⟨n + 1, hn⟩ h0
    else ptB1 V c ⟨n + 1, hn⟩ h0 (outsAt1 c n (Nat.lt_of_succ_lt hn)).2

theorem outsAt1_A (c : Dev nD) (t : Fin cfg1.N) (h0 : t.val % 2 = 0) :
    outsAt1 V c t.val t.isLt = ptA1 V c t h0 := by
  obtain ⟨n, hn⟩ := t
  cases n with
  | zero => exact rfl
  | succ n => exact dif_pos h0

theorem outsAt1_B (c : Dev nD) (t : Fin cfg1.N) (h0 : ¬t.val % 2 = 0) :
    outsAt1 V c t.val t.isLt = ptB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position `n`: before the first point what the launch hands over; afterwards the accumulator
    at what the point before left, every other scoped buffer unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
        ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
        ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
        ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The proof data -/

/-- The pipeline's proof data on core `c`: the arrays as the launch finds them; after the body at point `t` each
    operand's buffer at its block and the output's at `outsAt1`'s first component; the invariant `PhiS1`; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An operand window's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The operand buffers hold their blocks; the parity of the point says which case runs.  At
    an even point the accumulator is handed over at anything (at the first point from the launch's invariant,
    later from the point before, its contents forgotten) and the output's buffer comes back untouched; at an odd
    point the accumulator is handed over at what the point before left.  Either way it is taken back at this point's
    contents, which the case's pieces determine because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 8 := lt_of_lt_of_eq t.isLt (show cfg1.N = 8 from N_1)
  by_cases h0 : t.val % 2 = 0
  · rw [Dat.leavesExact_idle (dat1 V c) 4 t (idleAt1_4_A t ((hcond1_0 t).mpr h0) (notCond1_1_of_even t h0)) (noFlush1_4_A t ((hcond1_0 t).mpr h0) (notCond1_1_of_even t h0))]
    rw [outsAt1_A V c t h0]
    unfold ptA1 sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notCond1_1_of_even t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (notCond1_1_of_even t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat1 V c).leavesExact 4 t = owns (c : Thread nD τ) (ms1_4 t) fullShare ((dat1 V c).after 4 t) from by
      unfold Dat.leavesExact; rw [liveAt1_4_B t (notCond1_0_of_odd t h0) (cond1_1_of_odd t h0)], after1_4]
    rw [outsAt1_B V c t h0]
    unfold ptB1 out1_B_4 sout1_B_0; (try dsimp only)
    have hz : t.val ≠ 0 := fun e => h0 (by rw [e])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (notCond1_0_of_odd t h0) (cond1_1_of_odd t h0) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B_0 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ (Pipeline.ΦA spec1 c : sProp 𝕄) :=
  Phi_out1 V c _ (by rw [Fin.val_last]; have : cfg1.N = 8 := N_1; omega)

end Cert.Kernel.Hand

end
-- ==== Proof.K.R2Runs.lean ====
/-
  Third matrix-product launch (grid 4 × 2; point t has output column block t / 2 and contraction half t % 2):
  what its two control cases share.  The blocks of the four operand windows as read off the arrays the launch
  finds; the two conditions of the body on the contraction coordinate, in closed form over the eight points; where
  the output window is written and where it is left alone; the staging memrefs and the accumulator the body is
  called with; and the launch invariant with the accumulator's buffer split out of the scoped rest.
-/
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the launch finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand window's staging buffer holds its block at every point, whether the point fetched it or the block
    index stood still since the last fetch: the window is an input, never idle, and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "The contraction coordinate is 0": the accumulator is reset. -/
abbrev cond2_0 (i : grid2.Coords) : Prop := (Scalar.cmpi .ne (Scalar.extui (Scalar.cmpi .eq (BitVec.ofNat 32 (i 1).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- "The contraction coordinate is the last one": the output block is stored. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are written -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At an even point nothing is stored into the output window, -/
theorem idleAt2_4_A : ∀ t : Fin cfg2.N, cond2_0 (grid2.coords t) → ¬cond2_1 (grid2.coords t) → cfg2.idle 4 (grid2.coords t) = true := by decide +kernel
/-- and its block is not written back there. -/
theorem noFlush2_4_A : ∀ t : Fin cfg2.N, cond2_0 (grid2.coords t) → ¬cond2_1 (grid2.coords t) → (cfg2.win 4).flush t = false := by decide +kernel
/-- At an odd point the output window is stored into. -/
theorem liveAt2_4_B : ∀ t : Fin cfg2.N, ¬cond2_0 (grid2.coords t) → cond2_1 (grid2.coords t) → cfg2.idle 4 (grid2.coords t) = false := by decide +kernel

/-! ## The memrefs the body is called with -/

/-- One staging buffer of the output window, as a view: what the window's buffer holds is stated through it. -/
abbrev VO2_4 : View sig .tc .vmem S2048x1024 .bf16 := (Memref.whole cc2_stg4_0 : Memref sig .tc .vmem S2048x1024 .bf16).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .bf16 := win2_4.stage (cfg2.slots t 4)
abbrev hs2_4 (t : Fin cfg2.N) : (ms2_4 t).IsWhole := hstage2_4 ((cfg2.slots t 4).cast nbuf2_4)
/-- The accumulator: a whole scoped buffer of the launch's own. -/
abbrev scM2_0 : Memref sig .tc .vmem S2048x1024 .f32 := Memref.whole cc2_scratch0
abbrev VS2_0 : View sig .tc .vmem S2048x1024 .f32 := scM2_0.view

/-- The launch invariant with the accumulator's buffer split out of the scoped rest: the accumulator owned at some
    contents, every other scoped buffer unopened, the generator register at some state. -/
theorem PhiA2_eq (c : Dev nD) :
    (Pipeline.ΦA spec2 c : sProp 𝕄)
      = iprop(iprop(iprop((∃ d, owns (c : Thread nD τ) scM2_0 fullShare d))
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.Kernel.Hand

end
-- ==== Proof.K.R2RunA.lean ====
/-
  Third matrix-product launch, the body at a point whose contraction coordinate is 0: the accumulator is reset to
  zero, the product of the two operand blocks is added to it, and the output window is not touched.  The body's
  triple on whole staging memrefs, with the pieces the accumulator ends with written out.
-/
import proofs.«131467_j38792144618188_2_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that resets (first condition true, second false): from the operand buffers at their contents, the
    output's buffer at any contents `xi4` and the accumulator at anything, the body runs to the continuation holding
    the operand buffers and the output's buffer as they were and the accumulator with the pieces `LS0` written. -/
noncomputable def kernelRun2_A (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) :
    Σ' (L4 : List (View.Piece (Elt F) S2048x1024 .bf16)), { LS0 : List (View.Piece (Elt F) S2048x1024 .f32) //
      ∀ (xi4 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg2 harg2 arg3 harg3 arg4 harg4 arg5 harg5 arg6 harg6 arg7 harg7) K } := by
  refine ⟨[], ?_, fun xi4 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R2RunB.lean ====
/-
  Third matrix-product launch, the body at a point whose contraction coordinate is the last: the product of the two
  operand blocks is added to the accumulator, and the output block — the accumulator times the scale row plus the
  bias row, rectified — is stored.  The body's triple on whole staging memrefs, with the pieces the output's buffer and
  the accumulator end with written out.
-/
import proofs.«131467_j38792144618188_2_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that stores (first condition false, second true): from the operand buffers at their contents, the
    output's buffer at anything and the accumulator at the contents `xs0` the point before left, the body runs to the
    continuation holding the operand buffers as they were, the output's buffer with the pieces `L4` written and the
    accumulator with the pieces `LS0` written. -/
noncomputable def kernelRun2_B (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) :
    Σ' (L4 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg2 harg2 arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R2Body.lean ====
/-
  Third matrix-product launch: the proof data of its pipeline at the contents `V` the launch finds, and the body
  obligation.  Point t = 2 j + k works on output column block j with contraction half k.  After an even point the
  accumulator holds what the resetting case leaves from the operand blocks there; after an odd point the accumulator
  and the output's buffer hold what the storing case leaves from the operand blocks there and the accumulator of
  the point before.  The invariant before a point other than the first says exactly that of the accumulator, with
  every other scoped buffer unopened; the output window is idle at the even points.
-/
import proofs.«131467_j38792144618188_2_alg».proof.Proof.K.R2RunA
import proofs.«131467_j38792144618188_2_alg».proof.Proof.K.R2RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two cases leave -/

/-- The resetting case's pieces tile the accumulator, so they cover it. -/
theorem scover2_A_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) (y : S2048x1024.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2048x1024.size (by sl_kernel_rfl) y

/-- What the resetting case leaves in the accumulator: its pieces read back. -/
def sout2_A_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) : Vec F S2048x1024 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- The storing case's pieces tile the output's buffer, -/
theorem cover2_B_4 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S2048x1024.size (by sl_kernel_rfl) y

/-- so this is what it leaves there: its pieces read back. -/
def out2_B_4 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) : Vec F S2048x1024 .bf16 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- The storing case's pieces for the accumulator tile it, -/
theorem scover2_B_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) (y : S2048x1024.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2048x1024.size (by sl_kernel_rfl) y

/-- and this is what it leaves there. -/
def sout2_B_0 (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) : Vec F S2048x1024 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-! ## Point by point -/

theorem notCond2_1_of_even (t : Fin cfg2.N) (h0 : t.val % 2 = 0) : ¬cond2_1 (grid2.coords t) :=
  fun h => by have := (hcond2_1 t).mp h; omega
theorem notCond2_0_of_odd (t : Fin cfg2.N) (h0 : ¬t.val % 2 = 0) : ¬cond2_0 (grid2.coords t) :=
  fun h => h0 ((hcond2_0 t).mp h)
theorem cond2_1_of_odd (t : Fin cfg2.N) (h0 : ¬t.val % 2 = 0) : cond2_1 (grid2.coords t) :=
  (hcond2_1 t).mpr (by omega)

/-- The output's buffer and the accumulator after an even point `t`: the output's buffer is not written there
    (its component is never consulted), the accumulator holds what the resetting case leaves. -/
def ptA2 (c : Dev nD) (t : Fin cfg2.N) (h0 : t.val % 2 = 0) : Vec F S2048x1024 .bf16 × Vec F S2048x1024 .f32 :=
  (VO2_4.read (Elt F) VO2_4.junk,
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (notCond2_1_of_even t h0) (iblk2 V c 0 t) (iblk2 V c 1 t) (iblk2 V c 2 t) (iblk2 V c 3 t))

/-- The output's buffer and the accumulator after an odd point `t`, from the accumulator `xs` of the point before. -/
def ptB2 (c : Dev nD) (t : Fin cfg2.N) (h0 : ¬t.val % 2 = 0) (xs : Vec F S2048x1024 .f32) : Vec F S2048x1024 .bf16 × Vec F S2048x1024 .f32 :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (notCond2_0_of_odd t h0) (cond2_1_of_odd t h0) (iblk2 V c 0 t) (iblk2 V c 1 t) (iblk2 V c 2 t) (iblk2 V c 3 t) xs,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (notCond2_0_of_odd t h0) (cond2_1_of_odd t h0) (iblk2 V c 0 t) (iblk2 V c 1 t) (iblk2 V c 2 t) (iblk2 V c 3 t) xs)

/-- What the output's buffer and the accumulator hold after the body at position `n`, by recursion on the position. -/
def outsAt2 (c : Dev nD) : (n : ℕ) → n < cfg2.N → Vec F S2048x1024 .bf16 × Vec F S2048x1024 .f32
  | 0, hn => ptA2 V c ⟨0, hn⟩ (Nat.zero_mod _)
  | n + 1, hn =>
    if h0 : (n + 1) % 2 = 0 then ptA2 V c ⟨n + 1, hn⟩ h0
    else ptB2 V c ⟨n + 1, hn⟩ h0 (outsAt2 c n (Nat.lt_of_succ_lt hn)).2

theorem outsAt2_A (c : Dev nD) (t : Fin cfg2.N) (h0 : t.val % 2 = 0) :
    outsAt2 V c t.val t.isLt = ptA2 V c t h0 := by
  obtain ⟨n, hn⟩ := t
  cases n with
  | zero => exact rfl
  | succ n => exact dif_pos h0

theorem outsAt2_B (c : Dev nD) (t : Fin cfg2.N) (h0 : ¬t.val % 2 = 0) :
    outsAt2 V c t.val t.isLt = ptB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position `n`: before the first point what the launch hands over; afterwards the accumulator
    at what the point before left, every other scoped buffer unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
        ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
        ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
        ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-! ## The proof data -/

/-- The pipeline's proof data on core `c`: the arrays as the launch finds them; after the body at point `t` each
    operand's buffer at its block and the output's at `outsAt2`'s first component; the invariant `PhiS2`; full
    shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- An operand window's buffer is handed back at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The operand buffers hold their blocks; the parity of the point says which case runs.  At
    an even point the accumulator is handed over at anything (at the first point from the launch's invariant,
    later from the point before, its contents forgotten) and the output's buffer comes back untouched; at an odd
    point the accumulator is handed over at what the point before left.  Either way it is taken back at this point's
    contents, which the case's pieces determine because they cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 8 := lt_of_lt_of_eq t.isLt (show cfg2.N = 8 from N_2)
  by_cases h0 : t.val % 2 = 0
  · rw [Dat.leavesExact_idle (dat2 V c) 4 t (idleAt2_4_A t ((hcond2_0 t).mpr h0) (notCond2_1_of_even t h0)) (noFlush2_4_A t ((hcond2_0 t).mpr h0) (notCond2_1_of_even t h0))]
    rw [outsAt2_A V c t h0]
    unfold ptA2 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (notCond2_1_of_even t h0) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (notCond2_1_of_even t h0) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · rw [show (dat2 V c).leavesExact 4 t = owns (c : Thread nD τ) (ms2_4 t) fullShare ((dat2 V c).after 4 t) from by
      unfold Dat.leavesExact; rw [liveAt2_4_B t (notCond2_0_of_odd t h0) (cond2_1_of_odd t h0)], after2_4]
    rw [outsAt2_B V c t h0]
    unfold ptB2 out2_B_4 sout2_B_0; (try dsimp only)
    have hz : t.val ≠ 0 := fun e => h0 (by rw [e])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ (notCond2_0_of_odd t h0) (cond2_1_of_odd t h0) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _)

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the pipeline is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: what the accumulator holds is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.Kernel.Hand

end
-- ==== Proof.K.R3Defs.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R0Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the last layer's matrix-product kernel

The grid is 25 × 4: point t works on output column block t / 4 at position t % 4 along the contracted axis.  At
position 0 the body zeroes the accumulator; at every position it adds the product of the input block and the
transposed weight block to it; at position 3 it stores the accumulator times the scale row plus the bias row into
the output block (no rectifier in this layer).  Elsewhere the output block is left untouched. -/

/-- The position along the contracted axis is the first: the condition under which the accumulator is zeroed. -/
abbrev cond3_1 (i : grid3.Coords) : Prop :=
  (Scalar.cmpi .ne (Scalar.extui (Scalar.cmpi .eq (BitVec.ofNat 32 (i 1).val) 0#32)) 0#32) = 1#1

end Cert.Kernel.Hand
end
-- ==== Proof.K.R3Dat.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R3Defs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the proof data at the entry contents -/

/-- The accumulator operand: a whole scoped buffer of the kernel's own, passed beside the windows. -/
abbrev scM3 : Memref sig .tc .vmem S2048x1280 .f32 := Memref.whole cc3_scratch0

/-- The region invariant with the accumulator split out of the scoped rest, as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## The conditions in closed form: point t is at position t % 4 along the contracted axis -/

/-- The accumulator is zeroed at the points ≡ 0 (mod 4). -/
theorem hcond3_1 : ∀ t : Fin cfg3.N, cond3_1 (grid3.coords t) ↔ t.val % 4 = 0 :=
  (by decide +kernel : ∀ t : Fin grid3.N, cond3_1 (grid3.coords t) ↔ t.val % 4 = 0)
/-- The output block is stored at the points ≡ 3 (mod 4). -/
theorem hcond3_2 : ∀ t : Fin cfg3.N, k3_cond2 (grid3.coords t) = 1#1 ↔ t.val % 4 = 3 :=
  (by decide +kernel : ∀ t : Fin grid3.N, k3_cond2 (grid3.coords t) = 1#1 ↔ t.val % 4 = 3)
/-- Elsewhere the output window is idle, -/
theorem idleAt3_4 : ∀ t : Fin cfg3.N, ¬t.val % 4 = 3 → cfg3.idle 4 (grid3.coords t) = true :=
  (by decide +kernel : ∀ t : Fin grid3.N, ¬t.val % 4 = 3 → idle3 4 (grid3.coords t) = true)
/-- and there it is live. -/
theorem liveAt3_4 : ∀ t : Fin cfg3.N, t.val % 4 = 3 → cfg3.idle 4 (grid3.coords t) = false :=
  (by decide +kernel : ∀ t : Fin grid3.N, t.val % 4 = 3 → idle3 4 (grid3.coords t) = false)
/-- At an idle point the output block is not written back. -/
theorem noFlush3_4 (t : Fin cfg3.N) (h : ¬t.val % 4 = 3) : (cfg3.win 4).flush t = false :=
  Bool.eq_false_iff.mpr fun hf => h ((flush3_4 t).mp hf)

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the accumulator holds after each point -/

/-- The accumulator after the body at position n: the product of the point's input and weight blocks added to zero
    at the first position of a run of four, to what the point before left otherwise. -/
def sAt3 (c : Dev nD) : (n : ℕ) → n < cfg3.N → Vec F S2048x1280 .f32
  | 0, hn => k3_pay2 (k3_pay1 (F := F)) (iblk3 V c 0 ⟨0, hn⟩) (iblk3 V c 1 ⟨0, hn⟩)
  | n + 1, hn =>
    k3_pay2 (if (n + 1) % 4 = 0 then k3_pay1 (F := F) else sAt3 c n (Nat.lt_of_succ_lt hn))
      (iblk3 V c 0 ⟨n + 1, hn⟩) (iblk3 V c 1 ⟨n + 1, hn⟩)

/-- At the first position of a run: zero plus the product. -/
theorem sAt3_first (c : Dev nD) (t : Fin cfg3.N) (h0 : t.val % 4 = 0) :
    sAt3 V c t.val t.isLt = k3_pay2 (k3_pay1 (F := F)) (iblk3 V c 0 t) (iblk3 V c 1 t) := by
  obtain ⟨n, hn⟩ := t
  cases n with
  | zero => rfl
  | succ n => unfold sAt3; rw [if_pos h0]

/-- At a later position: what the point before left plus the product. -/
theorem sAt3_later (c : Dev nD) (t : Fin cfg3.N) (h0 : ¬t.val % 4 = 0) :
    sAt3 V c t.val t.isLt
      = k3_pay2 (sAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n =>
    have e : (if (n + 1) % 4 = 0 then k3_pay1 (F := F) else sAt3 V c n (Nat.lt_of_succ_lt hn)) = sAt3 V c n (Nat.lt_of_succ_lt hn) :=
      if_neg h0
    exact congrArg (fun a => k3_pay2 a (iblk3 V c 0 ⟨n + 1, hn⟩) (iblk3 V c 1 ⟨n + 1, hn⟩)) e

/-- The region invariant before position n: before the first point the scoped rest and the generator register as
    the launch hands them over; afterwards the same with the accumulator at what the point before left in it. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sAt3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sAt3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of region 3 on core c: the arrays as the region finds them; after the body at point t each
    operand's buffer at its block and the output's at the accumulator there times the scale block plus the bias block
    (read only at the points that store it); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (sAt3 V c t.val t.isLt) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem recorded_eq3 (c : Dev nD) (t : Fin (cfg3.N + 1)) : (dat3 V c).recorded t = Set.univ := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay3 (sAt3 V c t.val t.isLt) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

end Cert.Kernel.Hand
end
-- ==== Proof.K.R3BodyA.lean ====
/-
  Fourth matrix-product launch, the body at the first of the four positions along the contracted axis: the accumulator
  is given zeros and the product of the input block with the transposed weight block is added; nothing is stored into
  the output block.
-/
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R3Defs
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first position that is not the last: the input and weight blocks are left as found and the
    accumulator ends at zero plus their product, whatever it held; the scale, bias and output buffers are not touched. -/
theorem sound_kernel3_A (c : Dev nD) (E : Set ℕ) (i : grid3.Coords) (hc1 : cond3_1 i) (hc2 : ¬k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k3_pay2 (k3_pay1 (F := F)) x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%d5, %f5, -, H5⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.Kernel.Hand
end
-- ==== Proof.K.R3BodyB.lean ====
/-
  Fourth matrix-product launch, the body at a middle position along the contracted axis: the product of the input block
  with the transposed weight block is added to what the accumulator held; nothing is stored into the output block.
-/
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R3Defs
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle position: the input and weight blocks are left as found and their product is added to
    what the accumulator held; the scale, bias and output buffers are not touched. -/
theorem sound_kernel3_B (c : Dev nD) (E : Set ℕ) (i : grid3.Coords) (hc1 : ¬cond3_1 i) (hc2 : ¬k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (xs : Vec F S2048x1280 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k3_pay2 xs x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f5, %hf5, H5⟩, Hk⟩
  subst hf0; subst hf1; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.Kernel.Hand
end
-- ==== Proof.K.R3BodyC.lean ====
/-
  Fourth matrix-product launch, the body at the last position along the contracted axis: the product is added to the
  accumulator, and the accumulator times the scale row plus the bias row is stored into the output block.
-/
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R3Defs
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last position: the four operand blocks are left as found, the product of the input and weight
    blocks is added to what the accumulator held, and the output block ends at that sum times the scale row plus the
    bias row, whatever it held. -/
theorem sound_kernel3_C (c : Dev nD) (E : Set ℕ) (i : grid3.Coords) (hc1 : ¬cond3_1 i) (hc2 : k3_cond2 i = 1#1)
    (arg2 : Memref sig .tc .vmem S2048x1024 .bf16) (harg2 : arg2.IsWhole) (arg3 : Memref sig .tc .vmem S1280x1024 .bf16) (harg3 : arg3.IsWhole)
    (arg4 : Memref sig .tc .vmem S1x1280 .f32) (harg4 : arg4.IsWhole) (arg5 : Memref sig .tc .vmem S1x1280 .f32) (harg5 : arg5.IsWhole)
    (arg6 : Memref sig .tc .vmem S2048x1280 .f32) (harg6 : arg6.IsWhole) (arg7 : Memref sig .tc .vmem S2048x1280 .f32) (harg7 : arg7.IsWhole)
    (x0 : Vec F S2048x1024 .bf16) (x1 : Vec F S1280x1024 .bf16) (x2 : Vec F S1x1280 .f32) (x3 : Vec F S1x1280 .f32)
    (xs : Vec F S2048x1280 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k3_pay3 (k3_pay2 xs x0 x1) x2 x3)
            ∗ owns (c : Thread nD τ) arg7 fullShare (k3_pay2 xs x0 x1)) -∗ K ⟨⟩))
      ⊢ wp frame (wpE (defs₀ (F := F)) Variants.none c none) E (cc3__linear_kernel i arg2 harg2 arg3 harg3 arg4 harg4 arg5 harg5 arg6 harg6 arg7 harg7) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz2 inb_S2048x1280_S2048x1280_0_0 y⟩),
      View.canon_cons_unit_zero hz2]
    simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]
  iexists _; isplitr
  swap; · iexact H5
  ipureintro
  sl_unfold_run_names
  rw [View.read_writes_eq_canon _ _ _ (fun y => ⟨_, List.mem_cons_self, View.mem_set_unit_zero hz2 inb_S2048x1280_S2048x1280_0_0 y⟩),
    View.canon_cons_unit_zero hz2]
  simp only [View.readCov_cons_toLoadRect, View.readAt_eq_ld, View.ld_unit_zero (S := S2048x1024) hz2,
      View.ld_unit_zero (S := S1280x1024) hz2, View.ld_unit_zero (S := S1x1280) hz2, View.ld_unit_zero (S := S2048x1280) hz2]

end Cert.Kernel.Hand
end
-- ==== Proof.K.R3Frame.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«131467_j38792144618188_2_alg».proof.Proof.K.R3Dat
import proofs.«131467_j38792144618188_2_alg».proof.Proof.K.R3BodyA
import proofs.«131467_j38792144618188_2_alg».proof.Proof.K.R3BodyB
import proofs.«131467_j38792144618188_2_alg».proof.Proof.K.R3BodyC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body obligation at a generic point, and the invariant's two ends -/

/-- What the body is called with at point t: the invariant, the core owing nothing, every window's current
    staging buffer at what it then holds, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the operands' memrefs hold their blocks; the closed forms say at which position along the
    contracted axis the point is; the invariant hands the body the accumulator at what the point before left (at
    anything before the first point) and takes it back at this point's contents; at a position that does not store
    the output block its buffer passes through untouched; the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1,
    show (dat3 V c).leavesExact 2 t = owns (c : Thread nD τ) (st3_2 t) fullShare ((dat3 V c).after 2 t) from rfl, after3_2,
    show (dat3 V c).leavesExact 3 t = owns (c : Thread nD τ) (st3_3 t) fullShare ((dat3 V c).after 3 t) from rfl, after3_3]
  have hN : t.val < 100 := lt_of_lt_of_eq t.isLt (show cfg3.N = 100 from N_3)
  by_cases h3 : t.val % 4 = 3
  · have h0 : ¬t.val % 4 = 0 := by omega
    have hz : t.val ≠ 0 := by omega
    rw [show (dat3 V c).leavesExact 4 t = owns (c : Thread nD τ) (st3_4 t) fullShare ((dat3 V c).after 4 t) from by
      unfold Dat.leavesExact; rw [liveAt3_4 t h3], after3_4]
    rw [sAt3_later V c t h0]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩⟩
    iapply (sound_kernel3_C c Set.univ (grid3.coords t) (fun h => h0 ((hcond3_1 t).mp h)) ((hcond3_2 t).mpr h3) _ _ _ _ _ _ _ _ _ _ _ _
      (iblk3 V c 0 t) (iblk3 V c 1 t) (iblk3 V c 2 t) (iblk3 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitr [Hg]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t h3) (noFlush3_4 t h3)]
    by_cases h0 : t.val % 4 = 0
    · rw [sAt3_first V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩, H4⟩
        iapply (sound_kernel3_A c Set.univ (grid3.coords t) ((hcond3_1 t).mpr h0) (fun h => h3 ((hcond3_2 t).mp h)) _ _ _ _ _ _ _ _ _ _ _ _
          (iblk3 V c 0 t) (iblk3 V c 1 t) _)
        isplitl [H0]; · iexact H0
        isplitl [H1]; · iexact H1
        isplitl [HS]; · iexact HS
        iintro ⟨H0, H1, HS⟩
        isplitl [HS Hrest Hg]
        · isplitr [Hg]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, H4⟩
        iapply (sound_kernel3_A c Set.univ (grid3.coords t) ((hcond3_1 t).mpr h0) (fun h => h3 ((hcond3_2 t).mp h)) _ _ _ _ _ _ _ _ _ _ _ _
          (iblk3 V c 0 t) (iblk3 V c 1 t) _)
        isplitl [H0]; · iexact H0
        isplitl [H1]; · iexact H1
        isplitl [HS]; · iexists _; iexact HS
        iintro ⟨H0, H1, HS⟩
        isplitl [HS Hrest Hg]
        · isplitr [Hg]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        iexact H4
    · have hz : t.val ≠ 0 := fun e => h0 (by rw [e])
      rw [sAt3_later V c t h0]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, H4⟩
      iapply (sound_kernel3_B c Set.univ (grid3.coords t) (fun h => h0 ((hcond3_1 t).mp h)) (fun h => h3 ((hcond3_2 t).mp h)) _ _ _ _ _ _ _ _ _ _ _ _
        (iblk3 V c 0 t) (iblk3 V c 1 t) _ _)
      isplitl [H0]; · iexact H0
      isplitl [H1]; · iexact H1
      isplitl [HS]; · iexact HS
      iintro ⟨H0, H1, HS⟩
      isplitl [HS Hrest Hg]
      · isplitr [Hg]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]

/-- After any point but the first the invariant gives back what the launch handed over: the accumulator's named
    contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, Hrest⟩, Hg⟩
  isplitr [Hg]
  · isplitl [HS]
    · iexists _; iexact HS
    iexact Hrest
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 100 := N_3; omega)

end Cert.Kernel.Hand
end
-- ==== Proof.K.R4Body.lean ====
import proofs.«131467_j38792144618188_2_alg».proof.Proof.Gen.Kernel.Launch
import proofs.«131467_j38792144618188_2_alg».proof.Proof.Gen.Kernel.Skeleton
import proofs.«131467_j38792144618188_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The row-wise log-softmax launch: its windows, its body, its proof data

The fifth launch walks 32 points; at point `t` it is handed rows `64 t … 64 t + 63` of the `2048 × 32000` logits (window 0)
and writes the same rows of the result (window 1).  The body loads its whole input block, computes, and stores its whole
output block once, so one store covers the output buffer and what the buffer holds afterwards is a function of the input
block alone.
-/

variable (V : (c : Dev nD) → (b : Ref sig .tc) → Buf (Elt F) ((c : Thread nD τ).loc b))

/-! ## The windows' blocks -/

/-- Window `w`'s block at point `t`, read off the array the launch finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place: the window is fetched at every point it moves, never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's one rectangle: the whole `64 × 32000` buffer -/

abbrev r4_0 : Rect S64x32000 := Rect.unit (s := S64x32000) ![0, 0] S64x32000.size inb_S64x32000_S64x32000_0_0

/-! ## What the body leaves in the output buffer -/

/-- The output buffer after the body: its one store, of the log-softmax payload of the loaded input block. -/
def out4_1 (x0 : Vec F S64x32000 .f32) : Vec F S64x32000 .f32 :=
  View.canon [⟨r4_0, k4_pay1 (View.ld x0 r4_0)⟩]

/-- The one store is of the whole buffer, so it covers it. -/
theorem cover4_1 (p0 : Vec F S64x32000 .f32) (y : S64x32000.Idx) :
    ∃ pc ∈ ([⟨r4_0, p0⟩] : List (View.Piece (Elt F) S64x32000 .f32)), y ∈ pc.1.set :=
  View.cover_of_tiled [⟨r4_0, p0⟩] S64x32000.size (by rfl) y

/-! ## The body's triple -/

set_option maxHeartbeats 1000000 in
/-- The body on whole staging memrefs, the input's at contents `x0` and the output's at anything, runs to the continuation
    holding the input's as it was and the output's at `out4_1 x0`: it loads the input whole, loads the output (a value it
    never uses) and stores the payload over the whole output. -/
theorem sound_kernel4 (c : Dev nD) (E : Set ℕ) (i : grid4.Coords) (arg1 : Memref sig .tc .vmem S64x32000 .f32) (harg1 : arg1.IsWhole)
    (arg2 : Memref sig .tc .vmem S64x32000 .f32) (harg2 : arg2.IsWhole)
    (x0 : Vec F S64x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__log_softmax_kernel i arg1 harg1 arg2 harg2) K := by
  simp only [cc4__log_softmax_kernel_eq_skeleton]; unfold cc4__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The launch's proof data -/

/-- The proof data of the launch on core `c`: the arrays as the launch finds them; after the body at point `t` the input's
    buffer still at its block and the output's at `out4_1` of the input block; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-- The invariant enters and leaves as the launch's own. -/
theorem hin4 (c : Dev nD) : (Pipeline.ΦA spec4 c : sProp 𝕄) ⊢ (dat4 V c).Φ 0 := by
  dsimp only [dat4]; exact BI.Entails.refl _

theorem hout4 (c : Dev nD) : (dat4 V c).Φ (Fin.last cfg4.N) ⊢ (Pipeline.ΦA spec4 c : sProp 𝕄) := by
  dsimp only [dat4]; exact BI.Entails.refl _

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's memref holds its block, so the body's triple applies; the invariant and the core's
    debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ _ _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
end
-- ==== Proof.K.Assembly.lean ====
/-
  The word-level kernel program's run, from the launch to the return: the contents of every buffer at each boundary between
  a stretch of host operations and a kernel launch, the five launches as segments of @main, and the run's result —
  every weakly fair execution ends, and the final memory holds each buffer at the last boundary's contents: the
  thirteen arguments as launched, the result array at what the last launch leaves.
  Each launch's own part (what its staging buffers hold after the body at every grid point, the body's triple, the
  invariant carried between points) is in its own module; here a launch is entered with the host operations' results
  in the buffers and left with its output array rewritten and every other buffer as it was.
-/
import proofs.«131467_j38792144618188_2_alg».proof.Proof.K.R0Frame
import proofs.«131467_j38792144618188_2_alg».proof.Proof.K.R1Body
import proofs.«131467_j38792144618188_2_alg».proof.Proof.K.R2Body
import proofs.«131467_j38792144618188_2_alg».proof.Proof.K.R3Frame
import proofs.«131467_j38792144618188_2_alg».proof.Proof.K.R4Body
import proofs.«131467_j38792144618188_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host operations before the first launch. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first launch: its arrays at what it leaves, every other buffer as it was. -/
def W2 (c : Dev nD) : Valuation τ sig (Elt F) := Pipeline.withArrays spec0 c (W1 m c) fun w => (dat0 (E1 m) c).arrAt w cfg0.N
abbrev E2 : (c : Dev nD) → (b : Ref sig .tc) → Buf (Elt F) ((c : Thread nD τ).loc b) := fun c b => W2 m c b
abbrev W3 : Dev nD → Valuation τ sig (Elt F) := fun c => StableHlo.after hostOps1 (W2 m c)
abbrev E3 : (c : Dev nD) → (b : Ref sig .tc) → Buf (Elt F) ((c : Thread nD τ).loc b) := fun c b => W3 m c b
def W4 (c : Dev nD) : Valuation τ sig (Elt F) := Pipeline.withArrays spec1 c (W3 m c) fun w => (dat1 (E3 m) c).arrAt w cfg1.N
abbrev E4 : (c : Dev nD) → (b : Ref sig .tc) → Buf (Elt F) ((c : Thread nD τ).loc b) := fun c b => W4 m c b
abbrev W5 : Dev nD → Valuation τ sig (Elt F) := fun c => StableHlo.after hostOps2 (W4 m c)
abbrev E5 : (c : Dev nD) → (b : Ref sig .tc) → Buf (Elt F) ((c : Thread nD τ).loc b) := fun c b => W5 m c b
def W6 (c : Dev nD) : Valuation τ sig (Elt F) := Pipeline.withArrays spec2 c (W5 m c) fun w => (dat2 (E5 m) c).arrAt w cfg2.N
abbrev E6 : (c : Dev nD) → (b : Ref sig .tc) → Buf (Elt F) ((c : Thread nD τ).loc b) := fun c b => W6 m c b
abbrev W7 : Dev nD → Valuation τ sig (Elt F) := fun c => StableHlo.after hostOps3 (W6 m c)
abbrev E7 : (c : Dev nD) → (b : Ref sig .tc) → Buf (Elt F) ((c : Thread nD τ).loc b) := fun c b => W7 m c b
def W8 (c : Dev nD) : Valuation τ sig (Elt F) := Pipeline.withArrays spec3 c (W7 m c) fun w => (dat3 (E7 m) c).arrAt w cfg3.N
abbrev E8 : (c : Dev nD) → (b : Ref sig .tc) → Buf (Elt F) ((c : Thread nD τ).loc b) := fun c b => W8 m c b
/-- After the last launch (no host operation lies between the fourth and the fifth, none after the fifth). -/
def W9 (c : Dev nD) : Valuation τ sig (Elt F) := Pipeline.withArrays spec4 c (W8 m c) fun w => (dat4 (E8 m) c).arrAt w cfg4.N
abbrev E9 : (c : Dev nD) → (b : Ref sig .tc) → Buf (Elt F) ((c : Thread nD τ).loc b) := fun c b => W9 m c b

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

theorem W9_arr (c : Dev nD) (w : Fin cfg4.W) :
    W9 m c (Proc.devRef .tc (Pipeline.arrRef spec4 w)) = (dat4 (E8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem hF4 (c : Dev nD) (w : Fin cfg4.W) : (dat4 (E8 m) c).arrAt w cfg4.N = E9 m c (Pipeline.arrRef spec4 w) :=
  (W9_arr m c w).symm
theorem hrest4 (c : Dev nD) : ∀ b, b ∉ Finset.univ.image (Pipeline.arrRef spec4) → E9 m c b = E8 m c b :=
  fun b hb => W9_of_ne m c b fun w e => hb (Finset.mem_image.mpr ⟨w, Finset.mem_univ _, e⟩)

/-! ## The proof data family and what rides beside the buffers -/

/-- Every launch's proof data, each at its launch's entry contents. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E8 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state and its dues, none. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W9 m c) ∗ ∃ r, prngReg c r)

/-! ## The launches as segments -/

set_option backward.isDefEq.respectTransparency.types false in
/-- Launch 0: entered with every unscoped buffer at `W1`, left with them at `W2`. Its arrays are split out of
    the unscoped buffers and put back at what the launch leaves; the generator register and the scoped buffers go
    into the launch's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun c t => owed_eq0 (E1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E1 m) c w) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 0 c).owed 0 = 0 from owed_eq0 (E1 m) c 0,
        show (pdats m 0 c).recorded 0 = Set.univ from recorded_eq0 (E1 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := by
      have h' := hin0 (E1 m) c
      unfold Pipeline.ΦA at h'
      exact h'
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest spec0 c ∗ ∃ r, prngReg c r) : sProp 𝕄) := by
      have h' := hout0 (E1 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 0 c).owed (Fin.last _) = 0 from owed_eq0 (E1 m) c _]
    iexists W; iexact HO

set_option backward.isDefEq.respectTransparency.types false in
/-- Launch 1: entered with every unscoped buffer at `W3`, left with them at `W4`. Its arrays are split out of
    the unscoped buffers and put back at what the launch leaves; the generator register and the scoped buffers go
    into the launch's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun c t => owed_eq1 (E3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E3 m) c w) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 1 c).owed 0 = 0 from owed_eq1 (E3 m) c 0,
        show (pdats m 1 c).recorded 0 = Set.univ from recorded_eq1 (E3 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (E3 m) c
      unfold Pipeline.ΦA at h'
      exact h'
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have h' := hout1 (E3 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E3 m) c w)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 1 c).owed (Fin.last _) = 0 from owed_eq1 (E3 m) c _]
    iexists W; iexact HO

set_option backward.isDefEq.respectTransparency.types false in
/-- Launch 2: entered with every unscoped buffer at `W5`, left with them at `W6`. Its arrays are split out of
    the unscoped buffers and put back at what the launch leaves; the generator register and the scoped buffers go
    into the launch's invariant and come back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun c t => owed_eq2 (E5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (E5 m) c w) (E5 m c) fun w => A_eq2 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 2 c).owed 0 = 0 from owed_eq2 (E5 m) c 0,
        show (pdats m 2 c).recorded 0 = Set.univ from recorded_eq2 (E5 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats m 2 c).Φ 0 := by
      have h' := hin2 (E5 m) c
      unfold Pipeline.ΦA at h'
      exact h'
    iintro ⟨Hp, -, Hr⟩
    iapply h
    isplitl [Hr]; · iexact Hr
    iexact Hp
  hout c := by
    rw [Pipeline.ownSems0_none]
    have h : (pdats m 2 c).Φ (Fin.last _) ⊢ (iprop(Pipeline.scopedRest spec2 c ∗ ∃ r, prngReg c r) : sProp 𝕄) := by
      have h' := hout2 (E5 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (E5 m) c w)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 2 c).owed (Fin.last _) = 0 from owed_eq2 (E5 m) c _]
    iexists W; iexact HO

set_option backward.isDefEq.respectTransparency.types false in
/-- Launch 3: entered with every unscoped buffer at `W7`, left with them at `W8`. Its arrays are split out of
    the unscoped buffers and put back at what the launch leaves; the generator register and the scoped buffers go
    into the launch's invariant and come back; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun c t => owed_eq3 (E7 m) c t
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (E7 m) c w) (E7 m c) fun w => A_eq3 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 3 c).owed 0 = 0 from owed_eq3 (E7 m) c 0,
        show (pdats m 3 c).recorded 0 = Set.univ from recorded_eq3 (E7 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec3 c ∗ ∃ r, prngReg c r) : sProp 𝕄) ⊢ (pdats m 3 c).Φ 0 := by
      have h' := hin3 (E7 m) c
      unfold Pipeline.ΦA at h'
      exact h'
    iintro ⟨Hp, -, Hr⟩
    iapply h
    isplitl [Hr]; · iexact Hr
    iexact Hp
  hout c := by
    rw [Pipeline.ownSems0_none]
    have h : (pdats m 3 c).Φ (Fin.last _) ⊢ (iprop(Pipeline.scopedRest spec3 c ∗ ∃ r, prngReg c r) : sProp 𝕄) := by
      have h' := hout3 (E7 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (E7 m) c w)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 3 c).owed (Fin.last _) = 0 from owed_eq3 (E7 m) c _]
    iexists W; iexact HO

set_option backward.isDefEq.respectTransparency.types false in
/-- Launch 4: entered with every unscoped buffer at `W8`, left with them at `W9`. Its arrays are split out of
    the unscoped buffers and put back at what the launch leaves; the generator register and the scoped buffers go
    into the launch's invariant and come back; nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E8 m) c).loose
  hwaits := Pipeline.hwaits_of_owed_zero _ _ _ _ L lv 4 fun c t => owed_eq4 (E8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (E8 m) c w) (E8 m c) fun w => A_eq4 (E8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m 4 c).owed 0 = 0 from owed_eq4 (E8 m) c 0,
        show (pdats m 4 c).recorded 0 = Set.univ from recorded_eq4 (E8 m) c 0]
      icases HO with ⟨%W, HO⟩; iexists W; isplitr; · ipureintro; exact fun _ _ => Or.inl trivial
      iexact HO
    isplitl [Hp]; · iexact Hp
    iexact Hrest
  hin c := by
    have h : (iprop(Pipeline.scopedRest spec4 c ∗ ∃ r, prngReg c r) : sProp 𝕄) ⊢ (pdats m 4 c).Φ 0 := by
      have h' := hin4 (E8 m) c
      unfold Pipeline.ΦA at h'
      exact h'
    iintro ⟨Hp, -, Hr⟩
    iapply h
    isplitl [Hr]; · iexact Hr
    iexact Hp
  hout c := by
    rw [Pipeline.ownSems0_none]
    have h : (pdats m 4 c).Φ (Fin.last _) ⊢ (iprop(Pipeline.scopedRest spec4 c ∗ ∃ r, prngReg c r) : sProp 𝕄) := by
      have h' := hout4 (E8 m) c
      unfold Pipeline.ΦA at h'
      exact h'
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q_eq4 (E8 m) c w)
      (E8 m c) (E9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩
    rw [show (pdats m 4 c).owed (Fin.last _) = 0 from owed_eq4 (E8 m) c _]
    iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m) ]

/-- @main is the run of the segments. -/
theorem main_run (c : Dev nD) : main (F := F) c = Pipeline.Seg.run (segs m) := (main_chain c).trans (by chain_rfl)

set_option backward.isDefEq.respectTransparency.types false in
/-- The run, at any `F`: from any memory with zero counters every weakly fair execution of @main terminates, nothing
    faulting, and every final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## What the last boundary holds -/

/-- A buffer that no host operation writes and that is no launch's array holds at the end what it held at launch. -/
theorem W9_of_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b) (a4 : ∀ w, Pipeline.arrRef spec4 w ≠ b) :
    W9 m c (Proc.devRef .tc b) = m ((c : Thread nD τ).loc b) :=
  calc W9 m c (Proc.devRef .tc b)
    _ = W8 m c (Proc.devRef .tc b) := W9_of_ne m c b a4
    _ = W7 m c (Proc.devRef .tc b) := W8_of_ne m c b a3
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-- The frame, at any `F`: the thirteen argument arrays end as launched, and the result array at what the last
    launch leaves. -/
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v33 (by decide)),
    (h c _ (mem_uc main_arg0 (by decide))).trans (W9_of_untouched m c main_arg0 (by decide) (by decide) (by decide) (by decide) (by decide) (by decide) (by decide) (by decide) (by decide)),
    (h c _ (mem_uc main_arg1 (by decide))).trans (W9_of_untouched m c main_arg1 (by decide) (by decide) (by decide) (by decide) (by decide) (by decide) (by decide) (by decide) (by decide)),
    (h c _ (mem_uc main_arg2 (by decide))).trans (W9_of_untouched m c main_arg2 (by decide) (by decide) (by decide) (by decide) (by decide) (by decide) (by decide) (by decide) (by decide)),
    (h c _ (mem_uc main_arg3 (by decide))).trans (W9_of_untouched m c main_arg3 (by decide) (by decide) (by decide) (by decide) (by decide) (by decide) (by decide) (by decide) (by decide)),
    (h c _ (mem_uc main_arg4 (by decide))).trans (W9_of_untouched m c main_arg4 (by decide) (by decide) (by decide) (by decide) (by decide) (by decide) (by decide) (by decide) (by decide)),
    (h c _ (mem_uc main_arg5 (by decide))).trans (W9_of_untouched m c main_arg5 (by decide) (by decide) (by decide) (by decide) (by decide) (by decide) (by decide) (by decide) (by decide)),
    (h c _ (mem_uc main_arg6 (by decide))).trans (W9_of_untouched m c main_arg6 (by decide) (by decide) (by decide) (by decide) (by decide) (by decide) (by decide) (by decide) (by decide)),
    (h c _ (mem_uc main_arg7 (by decide))).trans (W9_of_untouched m c main_arg7 (by decide) (by decide) (by decide) (by decide) (by decide) (by decide) (by decide) (by decide) (by decide)),
    (h c _ (mem_uc main_arg8 (by decide))).trans (W9_of_untouched m c main_arg8 (by decide) (by decide) (by decide) (by decide) (by decide) (by decide) (by decide) (by decide) (by decide)),
    (h c _ (mem_uc main_arg9 (by decide))).trans (W9_of_untouched m c main_arg9 (by decide) (by decide) (by decide) (by decide) (by decide) (by decide) (by decide) (by decide) (by decide)),
    (h c _ (mem_uc main_arg10 (by decide))).trans (W9_of_untouched m c main_arg10 (by decide) (by decide) (by decide) (by decide) (by decide) (by decide) (by decide) (by decide) (by decide)),
    (h c _ (mem_uc main_arg11 (by decide))).trans (W9_of_untouched m c main_arg11 (by decide) (by decide) (by decide) (by decide) (by decide) (by decide) (by decide) (by decide) (by decide)),
    (h c _ (mem_uc main_arg12 (by decide))).trans (W9_of_untouched m c main_arg12 (by decide) (by decide) (by decide) (by decide) (by decide) (by decide) (by decide) (by decide) (by decide))⟩) (run m ρ)

end Cert.Kernel.Hand

end
-- ==== Proof.Spec.lean ====
/-
  The function both programs compute, over the extended reals, stated once and index by index.

  A weight-normalised linear layer with weight rows `v n`, gains `g`, bias `b`: row `n` of the weight is scaled by
  `g n / ‖v n‖` (the quotient and the square root the extended reals' own, PureOps/Ideal.lean), and entry `(m, n)`
  of the layer's result is the inner product of input row `m` with the scaled weight row `n`, plus `b n`.  The two
  programs arrange that product differently: one multiplies the inner product `∑ k, x m k * v n k` by the scale once
  (`linK`), the other scales every weight entry first (`linR`).  For finite entries the two agree (a factor moves
  across a finite sum of reals); `Proof/Math/LayerLaw.lean` proves it.  Three such layers, each followed by the leaky
  rectifier `y ↦ y` for `0 ≤ y`, `slope * y` otherwise, then a fourth layer, then the row-wise log-softmax
  `z m n - max_n' z m n' - log ∑ n', exp (z m n' - max_n'' z m n'')`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns, indexed as the programs' rank-2 arrays are. -/
abbrev Mat (a b : Nat) : Type := (⟨2, ![a, b]⟩ : Shape).Idx → EReal
/-- A vector of extended reals of length `a`, indexed as the programs' rank-1 arrays are. -/
abbrev Row (a : Nat) : Type := (⟨1, ![a]⟩ : Shape).Idx → EReal

/-- The rectifier's slope below zero: the binary32 value nearest one hundredth, the same word in both programs. -/
def slope : EReal := Ideal.ofBits .f32 0x3C23D70A#32

/-- The leaky rectifier on one value: the comparison `0 ≤ y` chooses between `y` and `slope * y`. -/
def leaky (y : EReal) : EReal := if Ideal.cmp .oge y 0 = 1#1 then y else slope * y

/-- The rectifier applied to every entry. -/
def act {a b : Nat} (h : Mat a b) : Mat a b := fun j => leaky (h j)

/-- The squared length of weight row `n`. -/
def normSq {N K : Nat} (v : Mat N K) (n : Fin N) : EReal := ∑ k : Fin K, v (ix2 n k) * v (ix2 n k)

/-- The scale of weight row `n`: its gain over its length. -/
def scale {N K : Nat} (g : Row N) (v : Mat N K) (n : Fin N) : EReal := Ideal.div (g (ix1 n)) (Ideal.sqrt (normSq v n))

/-- Entry `(m, n)` of the layer, the inner product scaled once. -/
def linKAt {M N K : Nat} (x : Mat M K) (v : Mat N K) (g b : Row N) (m : Fin M) (n : Fin N) : EReal :=
  (∑ k : Fin K, x (ix2 m k) * v (ix2 n k)) * scale g v n + b (ix1 n)

/-- Entry `(m, n)` of the layer, every weight entry scaled before the inner product. -/
def linRAt {M N K : Nat} (x : Mat M K) (v : Mat N K) (g b : Row N) (m : Fin M) (n : Fin N) : EReal :=
  (∑ k : Fin K, x (ix2 m k) * (v (ix2 n k) * scale g v n)) + b (ix1 n)

def linK {M N K : Nat} (x : Mat M K) (v : Mat N K) (g b : Row N) : Mat M N := fun j => linKAt x v g b (j 0) (j 1)
def linR {M N K : Nat} (x : Mat M K) (v : Mat N K) (g b : Row N) : Mat M N := fun j => linRAt x v g b (j 0) (j 1)

/-- The largest entry of row `m`. -/
def rowMax {M N : Nat} (z : Mat M N) (m : Fin M) : EReal := Finset.univ.sup fun n : Fin N => z (ix2 m n)

/-- Entry `(m, n)` of the row-wise log-softmax. -/
def lsmAt {M N : Nat} (z : Mat M N) (m : Fin M) (n : Fin N) : EReal :=
  (z (ix2 m n) - rowMax z m) - Ideal.log (∑ n' : Fin N, Ideal.exp (z (ix2 m n') - rowMax z m))

def lsm {M N : Nat} (z : Mat M N) : Mat M N := fun j => lsmAt z (j 0) (j 1)

/-! ## What one launch of each kernel computes, over its own operand arrays -/

/-- Entry `(m, n)` of a matrix-product launch: the inner product of row `m` of `x` with row `n` of `w`, times the
    scale `s 0 n`, plus the bias `b 0 n` (scale and bias arrive as one-row matrices). -/
def mmAt {M N K : Nat} (x : Mat M K) (w : Mat N K) (s b : Mat 1 N) (m : Fin M) (n : Fin N) : EReal :=
  (∑ k : Fin K, x (ix2 m k) * w (ix2 n k)) * s (ix2 0 n) + b (ix2 0 n)

/-- A matrix-product launch followed by the rectifier (the three hidden layers). -/
def mmAct {M N K : Nat} (x : Mat M K) (w : Mat N K) (s b : Mat 1 N) : Mat M N := fun j => leaky (mmAt x w s b (j 0) (j 1))

/-- A matrix-product launch with no rectifier (the last layer). -/
def mmLin {M N K : Nat} (x : Mat M K) (w : Mat N K) (s b : Mat 1 N) : Mat M N := fun j => mmAt x w s b (j 0) (j 1)

/-- The whole network with each layer's inner product scaled once. -/
def netK (x : Mat 2048 2048) (v0 : Mat 4096 2048) (g0 b0 : Row 4096) (v1 : Mat 4096 4096) (g1 b1 : Row 4096)
    (v2 : Mat 4096 4096) (g2 b2 : Row 4096) (v3 : Mat 32000 4096) (g3 b3 : Row 32000) : Mat 2048 32000 :=
  lsm (linK (act (linK (act (linK (act (linK x v0 g0 b0)) v1 g1 b1)) v2 g2 b2)) v3 g3 b3)

/-- The whole network with each layer's weight entries scaled first. -/
def netR (x : Mat 2048 2048) (v0 : Mat 4096 2048) (g0 b0 : Row 4096) (v1 : Mat 4096 4096) (g1 b1 : Row 4096)
    (v2 : Mat 4096 4096) (g2 b2 : Row 4096) (v3 : Mat 32000 4096) (g3 b3 : Row 32000) : Mat 2048 32000 :=
  lsm (linR (act (linR (act (linR (act (linR x v0 g0 b0)) v1 g1 b1)) v2 g2 b2)) v3 g3 b3)

end Cert.Spec

end
-- ==== Proof.KI.R0Pay.lean ====
import proofs.«131467_j38792144618188_2_alg».proof.Proof.KI.R0Body
import proofs.«131467_j38792144618188_2_alg».proof.Proof.Spec
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx

/-!
# The first layer's payload at an index

At a point of the first launch the body stores, at row `p` and column `q` of its output block,
the rectifier of `(∑ k, x p k * w q k) * s 0 q + b 0 q`: the product of the input block with the transposed weight block
(into a zero accumulator, onto the zeros the scratch was just given), times the scale row, plus the bias row.
-/

section Stages

variable {m n k : ℕ}

/-- The product of an `m × k` matrix with the transpose of an `n × k` one, into a zero accumulator, at `(a, b)`: the sum
    over the contracted coordinate of the products of the two rows' entries. -/
theorem matmul_nt_apply {φ₁ φ₂ : FTy}
    (wf : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (⟨[1], [1], [0], [0], [], [], wf⟩ : DotDims _ _ _) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], wf⟩ : DotDims _ _ _) k rfl rfl).symm]
  refine Finset.sum_congr rfl fun c _ => ?_
  have c2 := contrEquiv1_symm_val
    (⟨[1], [1], [0], [0], [], [], wf⟩ : DotDims ⟨2, ![m, k]⟩ ⟨2, ![n, k]⟩ ⟨2, ![m, n]⟩) k rfl rfl c
  have l2 : (⟨[1], [1], [0], [0], [], [], wf⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], wf⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The store's value from the accumulator: times the scale row, plus the bias row, then the rectifier (a select on the
    comparison with zero between the value and the slope times it), then a change of format. -/
theorem epilogue_apply (acc : FVec Ideal ⟨2, ![m, n]⟩ .f32) (s bb : FVec Ideal ⟨2, ![1, n]⟩ .f32)
    (hb : (⟨2, ![1, n]⟩ : Shape).Broadcasts ⟨2, ![m, n]⟩) (hlt : FTy.bits .bf16 < FTy.bits .f32) (p : Fin m) (c : Fin n) :
    truncf .bf16
        (select
          (cmpf .oge (addf (mulf acc (broadcastTo ⟨2, ![m, n]⟩ s hb)) (broadcastTo ⟨2, ![m, n]⟩ bb hb))
            (broadcast ⟨2, ![m, n]⟩ (Scalar.ofBits (F := Ideal) .f32 0x00000000#32)))
          (addf (mulf acc (broadcastTo ⟨2, ![m, n]⟩ s hb)) (broadcastTo ⟨2, ![m, n]⟩ bb hb))
          (mulf (broadcast ⟨2, ![m, n]⟩ (Scalar.ofBits (F := Ideal) .f32 0x3C23D70A#32))
            (addf (mulf acc (broadcastTo ⟨2, ![m, n]⟩ s hb)) (broadcastTo ⟨2, ![m, n]⟩ bb hb))))
        hlt (ix2 p c)
      = Cert.Spec.leaky (acc (ix2 p c) * s (ix2 (0 : Fin 1) c) + bb (ix2 (0 : Fin 1) c)) := by
  have hy : addf (mulf acc (broadcastTo ⟨2, ![m, n]⟩ s hb)) (broadcastTo ⟨2, ![m, n]⟩ bb hb) (ix2 p c)
      = acc (ix2 p c) * s (ix2 (0 : Fin 1) c) + bb (ix2 (0 : Fin 1) c) :=
    (addf_apply _ _ _).trans (congrArg₂ (· + ·)
      ((mulf_apply _ _ _).trans (congrArg (acc (ix2 p c) * ·) (broadcastTo_1b_ab_apply s hb p c)))
      (broadcastTo_1b_ab_apply bb hb p c))
  show Scalar.select
      (Ideal.cmp .oge (addf (mulf acc (broadcastTo ⟨2, ![m, n]⟩ s hb)) (broadcastTo ⟨2, ![m, n]⟩ bb hb) (ix2 p c)) (Ideal.ofBits .f32 0x00000000#32))
      (addf (mulf acc (broadcastTo ⟨2, ![m, n]⟩ s hb)) (broadcastTo ⟨2, ![m, n]⟩ bb hb) (ix2 p c))
      (Ideal.ofBits .f32 0x3C23D70A#32 * addf (mulf acc (broadcastTo ⟨2, ![m, n]⟩ s hb)) (broadcastTo ⟨2, ![m, n]⟩ bb hb) (ix2 p c)) = _
  rw [hy, Ideal.ofBits_zero_f32]
  rfl

end Stages

/-! ## The kernel's two payloads -/

/-- The accumulator after a point, at `(p, q)`: the inner product of row `p` of the input block with row `q` of the weight block. -/
theorem acc0_apply (x : Vec Ideal S2048x2048 .bf16) (w : Vec Ideal S1024x2048 .bf16) (p : Fin 2048) (q : Fin 1024) :
    acc0 (F := Ideal) x w (ix2 p q) = ∑ k : Fin 2048, x (ix2 p k) * w (ix2 q k) := by
  unfold acc0 k0_pay2 k0_pay1
  simp only [shapeCast_self]
  refine (addf_apply _ _ _).trans ?_
  show Ideal.ofBits .f32 0x00000000#32 + _ = _
  rw [Ideal.ofBits_zero_f32, zero_add]
  exact matmul_nt_apply (φ₁ := .bf16) (φ₂ := .bf16) _ none x w p q

/-- The output block after a point, at `(p, q)`. -/
theorem out0_4_apply (x : Vec Ideal S2048x2048 .bf16) (w : Vec Ideal S1024x2048 .bf16) (s b : Vec Ideal S1x1024 .f32)
    (p : Fin 2048) (q : Fin 1024) :
    out0_4 (F := Ideal) x w s b (ix2 p q)
      = Cert.Spec.leaky (Cert.Spec.mmAt (x : Cert.Spec.Mat 2048 2048) (w : Cert.Spec.Mat 1024 2048) (s : Cert.Spec.Mat 1 1024) (b : Cert.Spec.Mat 1 1024) p q) := by
  unfold out0_4 k0_pay3
  simp only [shapeCast_self]
  refine (epilogue_apply (acc0 x w) s b _ _ p q).trans ?_
  unfold Cert.Spec.mmAt
  rw [acc0_apply]

end Cert.KernelIdeal.Hand
end
-- ==== Proof.KI.R0Value.lean ====
import proofs.«131467_j38792144618188_2_alg».proof.Proof.KI.R0Frame
import proofs.«131467_j38792144618188_2_alg».proof.Proof.KI.R0Pay
import proofs.«131467_j38792144618188_2_alg».proof.Proof.Spec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-!
# What the first launch leaves in its result array

Point `t` of the four writes back columns `1024 t … 1024 t + 1023` of the `2048 × 4096` result.  Its input block is the
whole `2048 × 2048` input at every point; its weight block is rows `1024 t …` of the weights, its scale and bias blocks
columns `1024 t …` of the one-row scale and bias.  An entry of the product reads one input row, one weight row, one scale
and one bias entry, so the block written is the block of the whole arrays' rectified product.  The four blocks cover
the array: column `n` is in point `n / 1024`'s block.
-/

variable (V : (c : Dev nD) → (b : Ref sig .tc) → Buf (Elt Ideal) ((c : Thread nD τ).loc b))

/-- The five windows' block indices at point `t`. -/
theorem index_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- An entry of a matrix-product launch reads one row of each matrix and one entry of the scale and of the bias. -/
theorem mmAt_congr {M M' N N' K : ℕ} (x : Cert.Spec.Mat M K) (x' : Cert.Spec.Mat M' K) (w : Cert.Spec.Mat N K) (w' : Cert.Spec.Mat N' K)
    (s b : Cert.Spec.Mat 1 N) (s' b' : Cert.Spec.Mat 1 N') (m : Fin M) (m' : Fin M') (n : Fin N) (n' : Fin N')
    (hx : ∀ k, x (ix2 m k) = x' (ix2 m' k)) (hw : ∀ k, w (ix2 n k) = w' (ix2 n' k))
    (hs : s (ix2 0 n) = s' (ix2 0 n')) (hb : b (ix2 0 n) = b' (ix2 0 n')) :
    Cert.Spec.mmAt x w s b m n = Cert.Spec.mmAt x' w' s' b' m' n' := by
  unfold Cert.Spec.mmAt
  simp only [hx, hw, hs, hb]

/-- What point `t` writes back is block `t` of the rectified product of the arrays as the launch finds them. -/
theorem flushed0_eq (c : Dev nD) (t : Fin cfg0.N) :
    (dat0 (F := Ideal) V c).flushed 4 t = ((cfg0.win 4).blk t).view.read (Elt Ideal)
      (Cert.Spec.mmAct (V c main_v20) (V c main_v16) (V c main_v21) (V c main_v22)) := by
  show (cfg0.win 4).cut (grid0.coords t) ((dat0 V c).after 4 t) = _
  rw [after0_4]
  obtain ⟨a0, a1, b0, b1, c0, c1, d0, d1, e0, e1⟩ := index_facts0 t
  have hN : cfg0.N = 4 := N_0
  funext j
  obtain ⟨p, q, rfl⟩ : ∃ (p : Fin 2048) (q : Fin 1024), j = ix2 p q := ⟨j 0, j 1, eq_ix2 j⟩
  have hcol : t.val * 1024 + q.val < 4096 := by have := t.isLt; have := q.isLt; omega
  show out0_4 (F := Ideal) (iblk0 V c 0 t) (iblk0 V c 1 t) (iblk0 V c 2 t) (iblk0 V c 3 t) (ix2 p q)
      = Cert.Spec.mmAct (V c main_v20) (V c main_v16) (V c main_v21) (V c main_v22) (((cfg0.win 4).blk t).view.emb (ix2 p q))
  have hi : ((cfg0.win 4).blk t).view.emb (ix2 p q) = ix2 p (⟨t.val * 1024 + q.val, hcol⟩ : Fin 4096) := by
    funext a; apply Fin.ext
    match a with
    | ⟨0, _⟩ => show win0_4.index t (0 : Fin 2) * 2048 + 1 * p.val = p.val; rw [e0]; omega
    | ⟨1, _⟩ => show win0_4.index t (1 : Fin 2) * 1024 + 1 * q.val = t.val * 1024 + q.val; rw [e1]; omega
  rw [hi]
  refine (out0_4_apply _ _ _ _ p q).trans ?_
  show Cert.Spec.leaky (Cert.Spec.mmAt _ _ _ _ p q)
      = Cert.Spec.leaky (Cert.Spec.mmAt (V c main_v20) (V c main_v16) (V c main_v21) (V c main_v22) p (⟨t.val * 1024 + q.val, hcol⟩ : Fin 4096))
  refine congrArg Cert.Spec.leaky (mmAt_congr _ _ _ _ _ _ _ _ _ _ _ _ (fun k => ?_) (fun k => ?_) ?_ ?_)
  · show V c main_v20 (((cfg0.win 0).blk t).view.emb (ix2 p k)) = V c main_v20 (ix2 p k)
    refine congrArg _ ?_
    funext a; apply Fin.ext
    match a with
    | ⟨0, _⟩ => show win0_0.index t (0 : Fin 2) * 2048 + 1 * p.val = p.val; rw [a0]; omega
    | ⟨1, _⟩ => show win0_0.index t (1 : Fin 2) * 2048 + 1 * k.val = k.val; rw [a1]; omega
  · show V c main_v16 (((cfg0.win 1).blk t).view.emb (ix2 q k)) = V c main_v16 (ix2 (⟨t.val * 1024 + q.val, hcol⟩ : Fin 4096) k)
    refine congrArg _ ?_
    funext a; apply Fin.ext
    match a with
    | ⟨0, _⟩ => show win0_1.index t (0 : Fin 2) * 1024 + 1 * q.val = t.val * 1024 + q.val; rw [b0]; omega
    | ⟨1, _⟩ => show win0_1.index t (1 : Fin 2) * 2048 + 1 * k.val = k.val; rw [b1]; omega
  · show V c main_v21 (((cfg0.win 2).blk t).view.emb (ix2 (0 : Fin 1) q)) = V c main_v21 (ix2 (0 : Fin 1) (⟨t.val * 1024 + q.val, hcol⟩ : Fin 4096))
    refine congrArg _ ?_
    funext a; apply Fin.ext
    match a with
    | ⟨0, _⟩ => show win0_2.index t (0 : Fin 2) * 1 + 1 * 0 = 0; rw [c0]
    | ⟨1, _⟩ => show win0_2.index t (1 : Fin 2) * 1024 + 1 * q.val = t.val * 1024 + q.val; rw [c1]; omega
  · show V c main_v22 (((cfg0.win 3).blk t).view.emb (ix2 (0 : Fin 1) q)) = V c main_v22 (ix2 (0 : Fin 1) (⟨t.val * 1024 + q.val, hcol⟩ : Fin 4096))
    refine congrArg _ ?_
    funext a; apply Fin.ext
    match a with
    | ⟨0, _⟩ => show win0_3.index t (0 : Fin 2) * 1 + 1 * 0 = 0; rw [d0]
    | ⟨1, _⟩ => show win0_3.index t (1 : Fin 2) * 1024 + 1 * q.val = t.val * 1024 + q.val; rw [d1]; omega

/-- An index of the result array is in point `t`'s block iff each coordinate is in the block's range on its axis. -/
theorem mem_blk0_4 (t : Fin cfg0.N) (i : S2048x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v23).slice (win0_4.rect t)).set ↔ _
  rw [View.set_slice_whole, Rect.mem_set_unit]
  exact Iff.rfl

/-- The result array after the launch: the rectified product of the input with the transposed weights, scaled and biased. -/
theorem final0 (c : Dev nD) :
    (dat0 (F := Ideal) V c).arrAt 4 cfg0.N = Cert.Spec.mmAct (V c main_v20) (V c main_v16) (V c main_v21) (V c main_v22) :=
  (dat0 V c).arrAt_eq_of_cover 4 (Cert.Spec.mmAct (V c main_v20) (V c main_v16) (V c main_v21) (V c main_v22))
    (fun t _ => flushed0_eq V c t) fun i => by
    have hN : cfg0.N = 4 := N_0
    have hi0 : (i 0).val < 2048 := (i 0).isLt
    have hi1 : (i 1).val < 4096 := (i 1).isLt
    have ht : (i 1).val / 1024 < cfg0.N := by rw [hN]; omega
    obtain ⟨-, -, -, -, -, -, -, -, e0, e1⟩ := index_facts0 ⟨(i 1).val / 1024, ht⟩
    have e1' : win0_4.index ⟨(i 1).val / 1024, ht⟩ (1 : Fin 2) = (i 1).val / 1024 := e1
    refine ⟨⟨(i 1).val / 1024, ht⟩, flush0_4 _, ?_⟩
    rw [mem_blk0_4]
    intro a
    match a with
    | ⟨0, _⟩ =>
      show win0_4.index ⟨(i 1).val / 1024, ht⟩ (0 : Fin 2) * 2048 ≤ (i 0).val ∧ (i 0).val < win0_4.index ⟨(i 1).val / 1024, ht⟩ (0 : Fin 2) * 2048 + 2048
      rw [e0]; omega
    | ⟨1, _⟩ =>
      show win0_4.index ⟨(i 1).val / 1024, ht⟩ (1 : Fin 2) * 1024 ≤ (i 1).val ∧ (i 1).val < win0_4.index ⟨(i 1).val / 1024, ht⟩ (1 : Fin 2) * 1024 + 1024
      rw [e1']; omega

end Cert.KernelIdeal.Hand

end
-- ==== Proof.KI.R1Pay.lean ====
/-
  Second matrix-product launch: what the pieces the two control cases leave are, as payloads of the operand blocks,
  and what those payloads are at an index over the extended reals.  The resetting case leaves in the accumulator the
  zero block plus the product of its two operand blocks; the storing case leaves there the accumulator it found plus
  the product, and in the output's buffer the rectified affine image of that sum.  At an index (m, n): the product
  is the sum over the 2048 contracted positions k of x (m, k) * w (n, k); the epilogue multiplies by the scale row at
  n, adds the bias row at n, and keeps the value where it is at least zero, else multiplies it by the slope.
-/
import proofs.«131467_j38792144618188_2_alg».proof.Proof.KI.R1Body
import proofs.«131467_j38792144618188_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz1_2 : (![0, 0] : Fin 2 → Nat) = fun _ => 0 := funext fun a => by fin_cases a <;> rfl

/-! ## The found pieces as payloads (any float instance) -/

/-- The resetting case: zero, then the product added. -/
theorem sout1_A_eq (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x2048 .bf16) (x1 : Vec F S1024x2048 .bf16) (x2 : Vec F S1x1024 .f32) (x3 : Vec F S1x1024 .f32) :
    sout1_A_0 c i arg2 harg2 arg3 harg3 arg4 harg4 arg5 harg5 arg6 harg6 arg7 harg7 hc0 hc1 x0 x1 x2 x3 = k1_pay2 (k1_pay1 (F := F)) x0 x1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S2048x1024) hz1_2, View.readCov_unit_zero (S := S2048x1024) _ hz1_2]
  simp only [View.readAt_eq_ld, harg2.read_unread, harg3.read_unread, View.ld_unit_zero (S := S2048x2048) hz1_2,
    View.ld_unit_zero (S := S1024x2048) hz1_2]

/-- The storing case's accumulator: what it found, plus the product. -/
theorem sout1_B_eq (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) :
    sout1_B_0 c i arg2 harg2 arg3 harg3 arg4 harg4 arg5 harg5 arg6 harg6 arg7 harg7 hc0 hc1 x0 x1 x2 x3 xs0 = k1_pay2 xs0 x0 x1 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S2048x1024) hz1_2]
  simp only [View.readAt_eq_ld, harg2.read_unread, harg3.read_unread, harg7.read_unread, View.ld_unit_zero (S := S2048x2048) hz1_2,
    View.ld_unit_zero (S := S1024x2048) hz1_2, View.ld_unit_zero (S := S2048x1024) hz1_2]

/-- The storing case's output block: the epilogue of that accumulator, the scale row and the bias row. -/
theorem out1_B_eq (c : Dev nD) (i : grid1.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x2048 .bf16) (x1 : Vec F S1024x2048 .bf16) (x2 : Vec F S1x1024 .f32) (x3 : Vec F S1x1024 .f32) (xs0 : Vec F S2048x1024 .f32) :
    out1_B_4 c i arg2 harg2 arg3 harg3 arg4 harg4 arg5 harg5 arg6 harg6 arg7 harg7 hc0 hc1 x0 x1 x2 x3 xs0 = k1_pay3 (k1_pay2 xs0 x0 x1) x2 x3 := by
  unfold out1_B_4
  rw [View.read_writes_eq_canon _ _ _ (cover1_B_4 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S2048x1024) hz1_2, View.readCov_unit_zero (S := S2048x1024) _ hz1_2]
  simp only [View.readAt_eq_ld, harg2.read_unread, harg3.read_unread, harg4.read_unread, harg5.read_unread, harg7.read_unread,
    View.ld_unit_zero (S := S2048x2048) hz1_2, View.ld_unit_zero (S := S1024x2048) hz1_2,
    View.ld_unit_zero (S := S2048x1024) hz1_2, View.ld_unit_zero (S := S1x1024) hz1_2]

/-! ## The payloads at an index, over the extended reals -/

/-- The zero block is zero everywhere. -/
theorem pay1_1_apply (j : S2048x1024.Idx) : k1_pay1 (F := Ideal) j = 0 := by
  unfold k1_pay1
  simp only [shapeCast_self]
  exact Ideal.ofBits_zero_f32

/-- The accumulation step at (m, n): the accumulator there plus the inner product over the 2048 contracted positions. -/
theorem pay1_2_apply (v3 : Vec Ideal S2048x1024 .f32) (v4 : Vec Ideal S2048x2048 .bf16) (v6 : Vec Ideal S1024x2048 .bf16)
    (m : Fin 2048) (n : Fin 1024) :
    k1_pay2 v3 v4 v6 (ix2 m n) = v3 (ix2 m n) + ∑ k : Fin 2048, v4 (ix2 m k) * v6 (ix2 n k) := by
  unfold k1_pay2
  simp only [shapeCast_self]
  show v3 (ix2 m n) + FloatOps.matmul (F := Ideal) dot_S2048x2048_S1024x2048_S2048x1024_1_1_0_0_n_n none v4 v6 (constant (F := Ideal) S2048x1024 .f32 0x00000000#32) (ix2 m n) = _
  rw [Ideal.matmul_constant_zero_apply, ← Equiv.sum_comp (contrEquiv1 dot_S2048x2048_S1024x2048_S2048x1024_1_1_0_0_n_n 2048 rfl rfl).symm]
  refine congrArg (v3 (ix2 m n) + ·) (Finset.sum_congr rfl fun k _ => ?_)
  have c2 := contrEquiv1_symm_val dot_S2048x2048_S1024x2048_S2048x1024_1_1_0_0_n_n 2048 rfl rfl k
  have l2 : (dot_S2048x2048_S1024x2048_S2048x1024_1_1_0_0_n_n).lhsIdx (ix2 m n) ((contrEquiv1 _ 2048 rfl rfl).symm k) = ix2 m k := by
    funext ax; apply Fin.ext
    match ax with
    | ⟨0, _⟩ => simp [DotDims.lhsIdx, dot_S2048x2048_S1024x2048_S2048x1024_1_1_0_0_n_n]; rfl
    | ⟨1, _⟩ => simp [DotDims.lhsIdx, dot_S2048x2048_S1024x2048_S2048x1024_1_1_0_0_n_n]; exact c2
  have r2 : (dot_S2048x2048_S1024x2048_S2048x1024_1_1_0_0_n_n).rhsIdx (ix2 m n) ((contrEquiv1 _ 2048 rfl rfl).symm k) = ix2 n k := by
    funext ax; apply Fin.ext
    match ax with
    | ⟨0, _⟩ => simp [DotDims.rhsIdx, dot_S2048x2048_S1024x2048_S2048x1024_1_1_0_0_n_n]; rfl
    | ⟨1, _⟩ => simp [DotDims.rhsIdx, dot_S2048x2048_S1024x2048_S2048x1024_1_1_0_0_n_n]; exact c2
  rw [l2, r2]

/-- The epilogue at (m, n): the rectifier of the accumulator there times the scale at n plus the bias at n. -/
theorem pay1_3_apply (v16 : Vec Ideal S2048x1024 .f32) (v17 v21 : Vec Ideal S1x1024 .f32) (m : Fin 2048) (n : Fin 1024) :
    k1_pay3 v16 v17 v21 (ix2 m n) = Cert.Spec.leaky (v16 (ix2 m n) * v17 (ix2 0 n) + v21 (ix2 0 n)) := by
  have b17 : broadcastTo S2048x1024 v17 broadcasts_S1x1024_S2048x1024 (ix2 m n) = v17 (ix2 0 n) :=
    broadcastTo_apply v17 broadcasts_S1x1024_S2048x1024 (ix2 m n) (ix2 0 n) (fun a => by
      match a with
      | ⟨0, _⟩ => rfl
      | ⟨1, _⟩ => rfl)
  have b21 : broadcastTo S2048x1024 v21 broadcasts_S1x1024_S2048x1024 (ix2 m n) = v21 (ix2 0 n) :=
    broadcastTo_apply v21 broadcasts_S1x1024_S2048x1024 (ix2 m n) (ix2 0 n) (fun a => by
      match a with
      | ⟨0, _⟩ => rfl
      | ⟨1, _⟩ => rfl)
  unfold k1_pay3
  simp only [shapeCast_self]
  show Scalar.select (FloatOps.cmpf .oge
        (v16 (ix2 m n) * broadcastTo S2048x1024 v17 broadcasts_S1x1024_S2048x1024 (ix2 m n) + broadcastTo S2048x1024 v21 broadcasts_S1x1024_S2048x1024 (ix2 m n))
        (Ideal.ofBits .f32 0x00000000#32))
      (v16 (ix2 m n) * broadcastTo S2048x1024 v17 broadcasts_S1x1024_S2048x1024 (ix2 m n) + broadcastTo S2048x1024 v21 broadcasts_S1x1024_S2048x1024 (ix2 m n))
      (Ideal.ofBits .f32 0x3C23D70A#32 * (v16 (ix2 m n) * broadcastTo S2048x1024 v17 broadcasts_S1x1024_S2048x1024 (ix2 m n) + broadcastTo S2048x1024 v21 broadcasts_S1x1024_S2048x1024 (ix2 m n))) = _
  rw [b17, b21, Ideal.ofBits_zero_f32]
  rfl

/-- Both steps and the epilogue at (m, n): the two half inner products, added from zero, scaled, shifted, rectified. -/
theorem chain1_apply (xa xb : Vec Ideal S2048x2048 .bf16) (wa wb : Vec Ideal S1024x2048 .bf16) (s b : Vec Ideal S1x1024 .f32)
    (m : Fin 2048) (n : Fin 1024) :
    k1_pay3 (k1_pay2 (k1_pay2 (k1_pay1 (F := Ideal)) xa wa) xb wb) s b (ix2 m n)
      = Cert.Spec.leaky (((∑ k : Fin 2048, xa (ix2 m k) * wa (ix2 n k)) + ∑ k : Fin 2048, xb (ix2 m k) * wb (ix2 n k)) * s (ix2 0 n) + b (ix2 0 n)) := by
  rw [pay1_3_apply, pay1_2_apply, pay1_2_apply, pay1_1_apply, zero_add]

end Cert.KernelIdeal.Hand

end
-- ==== Proof.KI.R1Acc.lean ====
/-
  Second matrix-product launch: the operand blocks read at explicit coordinates, and the output's buffer after an odd
  point.  Point t = 2 j + k: block (0, k) of x holds x (m, 2048 k + ·); block (j, k) of w holds
  w (1024 j + ·, 2048 k + ·); block (0, j) of the scale and bias rows holds their entries 1024 j + ·.  After the odd
  point 2 j + 1 the output's buffer holds, at (m, n), the rectifier of the full inner product over all 4096 contracted
  positions — the even point's half from zero plus the odd point's half — times the scale at 1024 j + n plus the bias
  there.
-/
import proofs.«131467_j38792144618188_2_alg».proof.Proof.KI.R1Pay

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The block indices of the five windows at point `t`, decided over the eight points. -/
theorem idx1_facts : ∀ t : Fin cfg1.N,
    win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 2) = 0 ∧ win1_2.index t (1 : Fin 2) = t.val / 2
    ∧ win1_3.index t (0 : Fin 2) = 0 ∧ win1_3.index t (1 : Fin 2) = t.val / 2
    ∧ win1_4.index t (0 : Fin 2) = 0 ∧ win1_4.index t (1 : Fin 2) = t.val / 2 :=
  (by decide +kernel : ∀ t : Fin grid1.N, _)

section Blocks
variable (V : (c : Dev nD) → (b : Ref sig .tc) → Buf (Elt F) ((c : Thread nD τ).loc b))

/-- Block of x at point `t`: rows as they are, columns shifted by 2048 (t % 2). -/
theorem blk1_0_apply (c : Dev nD) (t : Fin cfg1.N) (m k : Fin 2048) (m' : Fin 2048) (k' : Fin 4096)
    (h0 : m'.val = m.val) (h1 : k'.val = t.val % 2 * 2048 + k.val) :
    iblk1 V c 0 t (ix2 m k) = V c main_v23 (ix2 m' k') := by
  obtain ⟨e0, e1, -⟩ := idx1_facts t
  unfold iblk1
  rw [View.read_apply]
  show V c main_v23 (((cfg1.win 0).blk t).view.emb (ix2 m k)) = V c main_v23 (ix2 m' k')
  refine congrArg _ (funext fun a => Fin.ext ?_)
  match a with
  | ⟨0, _⟩ => show win1_0.index t (0 : Fin 2) * 2048 + 1 * m.val = m'.val; rw [e0, h0]; omega
  | ⟨1, _⟩ => show win1_0.index t (1 : Fin 2) * 2048 + 1 * k.val = k'.val; rw [e1, h1]; omega

/-- Block of w at point `t`: rows shifted by 1024 (t / 2), columns by 2048 (t % 2). -/
theorem blk1_1_apply (c : Dev nD) (t : Fin cfg1.N) (n : Fin 1024) (k : Fin 2048) (n' : Fin 4096) (k' : Fin 4096)
    (h0 : n'.val = t.val / 2 * 1024 + n.val) (h1 : k'.val = t.val % 2 * 2048 + k.val) :
    iblk1 V c 1 t (ix2 n k) = V c main_v17 (ix2 n' k') := by
  obtain ⟨-, -, e0, e1, -⟩ := idx1_facts t
  unfold iblk1
  rw [View.read_apply]
  show V c main_v17 (((cfg1.win 1).blk t).view.emb (ix2 n k)) = V c main_v17 (ix2 n' k')
  refine congrArg _ (funext fun a => Fin.ext ?_)
  match a with
  | ⟨0, _⟩ => show win1_1.index t (0 : Fin 2) * 1024 + 1 * n.val = n'.val; rw [e0, h0]; omega
  | ⟨1, _⟩ => show win1_1.index t (1 : Fin 2) * 2048 + 1 * k.val = k'.val; rw [e1, h1]; omega

/-- Block of the scale row at point `t`: entries shifted by 1024 (t / 2). -/
theorem blk1_2_apply (c : Dev nD) (t : Fin cfg1.N) (n : Fin 1024) (n' : Fin 4096)
    (h1 : n'.val = t.val / 2 * 1024 + n.val) :
    iblk1 V c 2 t (ix2 0 n) = V c main_v24 (ix2 0 n') := by
  obtain ⟨-, -, -, -, e0, e1, -⟩ := idx1_facts t
  unfold iblk1
  rw [View.read_apply]
  show V c main_v24 (((cfg1.win 2).blk t).view.emb (ix2 0 n)) = V c main_v24 (ix2 0 n')
  refine congrArg _ (funext fun a => Fin.ext ?_)
  match a with
  | ⟨0, _⟩ => show win1_2.index t (0 : Fin 2) * 1 + 1 * 0 = 0; rw [e0]
  | ⟨1, _⟩ => show win1_2.index t (1 : Fin 2) * 1024 + 1 * n.val = n'.val; rw [e1, h1]; omega

/-- Block of the bias row at point `t`, likewise. -/
theorem blk1_3_apply (c : Dev nD) (t : Fin cfg1.N) (n : Fin 1024) (n' : Fin 4096)
    (h1 : n'.val = t.val / 2 * 1024 + n.val) :
    iblk1 V c 3 t (ix2 0 n) = V c main_v25 (ix2 0 n') := by
  obtain ⟨-, -, -, -, -, -, e0, e1, -⟩ := idx1_facts t
  unfold iblk1
  rw [View.read_apply]
  show V c main_v25 (((cfg1.win 3).blk t).view.emb (ix2 0 n)) = V c main_v25 (ix2 0 n')
  refine congrArg _ (funext fun a => Fin.ext ?_)
  match a with
  | ⟨0, _⟩ => show win1_3.index t (0 : Fin 2) * 1 + 1 * 0 = 0; rw [e0]
  | ⟨1, _⟩ => show win1_3.index t (1 : Fin 2) * 1024 + 1 * n.val = n'.val; rw [e1, h1]; omega

/-- `outsAt1` at an even position, stated at the position itself. -/
theorem outsAt1_even (c : Dev nD) (n : ℕ) (hn : n < cfg1.N) (h0 : n % 2 = 0) :
    outsAt1 V c n hn = ptA1 V c ⟨n, hn⟩ h0 :=
  outsAt1_A V c ⟨n, hn⟩ h0

/-- After an odd point the output's buffer holds the epilogue of both accumulation steps from zero: the even point
    before it reset the accumulator and added its product, this point added its own. -/
theorem out1_odd (c : Dev nD) (t : Fin cfg1.N) (h0 : ¬t.val % 2 = 0) (hp : t.val - 1 < cfg1.N) :
    (outsAt1 V c t.val t.isLt).1
      = k1_pay3 (k1_pay2 (k1_pay2 (k1_pay1 (F := F)) (iblk1 V c 0 ⟨t.val - 1, hp⟩) (iblk1 V c 1 ⟨t.val - 1, hp⟩))
          (iblk1 V c 0 t) (iblk1 V c 1 t)) (iblk1 V c 2 t) (iblk1 V c 3 t) := by
  rw [outsAt1_B V c t h0, outsAt1_even V c (t.val - 1) _ (by omega)]
  unfold ptB1 ptA1
  dsimp only
  rw [out1_B_eq, sout1_A_eq]

end Blocks

/-- A sum over 4096 positions is the sum over the first 2048 plus the sum over the last 2048. -/
theorem sum_halves1 (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- The two half inner products over blocks that read the arrays `X`, `W` at columns k and 2048 + k, scaled and
    shifted by block entries that read the rows `S`, `B` at n', are the launch's entry (m, n'). -/
theorem mm_halves1 (xa xb : Vec Ideal S2048x2048 .bf16) (wa wb : Vec Ideal S1024x2048 .bf16) (s b : Vec Ideal S1x1024 .f32)
    (X : Cert.Spec.Mat 2048 4096) (W : Cert.Spec.Mat 4096 4096) (S B : Cert.Spec.Mat 1 4096)
    (m : Fin 2048) (n : Fin 1024) (n' : Fin 4096)
    (hxa : ∀ k : Fin 2048, xa (ix2 m k) = X (ix2 m ⟨k.val, by omega⟩))
    (hwa : ∀ k : Fin 2048, wa (ix2 n k) = W (ix2 n' ⟨k.val, by omega⟩))
    (hxb : ∀ k : Fin 2048, xb (ix2 m k) = X (ix2 m ⟨2048 + k.val, by omega⟩))
    (hwb : ∀ k : Fin 2048, wb (ix2 n k) = W (ix2 n' ⟨2048 + k.val, by omega⟩))
    (hs : s (ix2 0 n) = S (ix2 0 n')) (hb : b (ix2 0 n) = B (ix2 0 n')) :
    ((∑ k : Fin 2048, xa (ix2 m k) * wa (ix2 n k)) + ∑ k : Fin 2048, xb (ix2 m k) * wb (ix2 n k)) * s (ix2 0 n) + b (ix2 0 n)
      = Cert.Spec.mmAt X W S B m n' := by
  unfold Cert.Spec.mmAt
  rw [sum_halves1, hs, hb]
  simp only [hxa, hwa, hxb, hwb]

/-- The output's buffer after the odd point t = 2 j + 1, at (m, n): the launch's function at (m, 1024 j + n). -/
theorem out1_odd_apply (V : (c : Dev nD) → (b : Ref sig .tc) → Buf (Elt Ideal) ((c : Thread nD τ).loc b)) (c : Dev nD)
    (t : Fin cfg1.N) (h0 : ¬t.val % 2 = 0) (m : Fin 2048) (n : Fin 1024) (n' : Fin 4096) (hn' : n'.val = t.val / 2 * 1024 + n.val) :
    (outsAt1 V c t.val t.isLt).1 (ix2 m n)
      = Cert.Spec.leaky (Cert.Spec.mmAt (M := 2048) (N := 4096) (K := 4096) (V c main_v23) (V c main_v17) (V c main_v24) (V c main_v25) m n') := by
  have hp : t.val - 1 < cfg1.N := Nat.lt_of_le_of_lt (Nat.sub_le _ _) t.isLt
  have hN : t.val < 8 := lt_of_lt_of_eq t.isLt (show cfg1.N = 8 from N_1)
  rw [out1_odd V c t h0 hp]
  refine (chain1_apply (iblk1 V c 0 ⟨t.val - 1, hp⟩) (iblk1 V c 0 t) (iblk1 V c 1 ⟨t.val - 1, hp⟩) (iblk1 V c 1 t)
    (iblk1 V c 2 t) (iblk1 V c 3 t) m n).trans (congrArg Cert.Spec.leaky ?_)
  exact mm_halves1 (iblk1 V c 0 ⟨t.val - 1, hp⟩) (iblk1 V c 0 t) (iblk1 V c 1 ⟨t.val - 1, hp⟩) (iblk1 V c 1 t)
    (iblk1 V c 2 t) (iblk1 V c 3 t) (V c main_v23) (V c main_v17) (V c main_v24) (V c main_v25) m n n'
    (fun k => blk1_0_apply V c ⟨t.val - 1, hp⟩ m k m ⟨k.val, by omega⟩ rfl (by show k.val = (t.val - 1) % 2 * 2048 + k.val; omega))
    (fun k => blk1_1_apply V c ⟨t.val - 1, hp⟩ n k n' ⟨k.val, by omega⟩ (by show n'.val = (t.val - 1) / 2 * 1024 + n.val; omega)
      (by show k.val = (t.val - 1) % 2 * 2048 + k.val; omega))
    (fun k => blk1_0_apply V c t m k m ⟨2048 + k.val, by omega⟩ rfl (by show 2048 + k.val = t.val % 2 * 2048 + k.val; omega))
    (fun k => blk1_1_apply V c t n k n' ⟨2048 + k.val, by omega⟩ hn' (by show 2048 + k.val = t.val % 2 * 2048 + k.val; omega))
    (blk1_2_apply V c t n n' hn') (blk1_3_apply V c t n n' hn')

end Cert.KernelIdeal.Hand

end
-- ==== Proof.KI.R1Value.lean ====
/-
  Second matrix-product launch: what its output array holds after the launch.  Only the odd points write the output
  window back, and the odd point 2 j + 1 writes columns 1024 j … 1024 j + 1023 of all rows.  What it writes is, entry by
  entry, the launch's function of the four operand arrays; the four odd points' blocks cover the array; so the array
  ends holding that function.
-/
import proofs.«131467_j38792144618188_2_alg».proof.Proof.KI.R1Acc

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- What the odd point `t` writes back is block `t` of the launch's function of the operand arrays. -/
theorem flushed1_eq (V : (c : Dev nD) → (b : Ref sig .tc) → Buf (Elt Ideal) ((c : Thread nD τ).loc b)) (c : Dev nD)
    (t : Fin cfg1.N) (hf : (cfg1.win 4).flush t = true) :
    (dat1 (F := Ideal) V c).flushed 4 t = ((cfg1.win 4).blk t).view.read (Elt Ideal)
      (Cert.Spec.mmAct (V c main_v23) (V c main_v17) (V c main_v24) (V c main_v25)) := by
  have h1 : t.val % 2 = 1 := (flush1_4 t).mp hf
  have h0 : ¬t.val % 2 = 0 := by omega
  have hN : t.val < 8 := lt_of_lt_of_eq t.isLt (show cfg1.N = 8 from N_1)
  obtain ⟨-, -, -, -, -, -, -, -, e0, e1⟩ := idx1_facts t
  show (cfg1.win 4).cut (grid1.coords t) ((dat1 (F := Ideal) V c).after 4 t) = _
  rw [after1_4]
  funext y
  obtain ⟨m, n, rfl⟩ : ∃ (m : Fin 2048) (n : Fin 1024), y = ix2 m n := ⟨y 0, y 1, eq_ix2 y⟩
  rw [View.read_apply]
  have hemb : ((cfg1.win 4).blk t).view.emb (ix2 m n) = ix2 m (⟨t.val / 2 * 1024 + n.val, by omega⟩ : Fin 4096) := by
    funext a; apply Fin.ext
    match a with
    | ⟨0, _⟩ => show win1_4.index t (0 : Fin 2) * 2048 + 1 * m.val = m.val; rw [e0]; omega
    | ⟨1, _⟩ => show win1_4.index t (1 : Fin 2) * 1024 + 1 * n.val = t.val / 2 * 1024 + n.val; rw [e1]; omega
  rw [hemb]
  exact out1_odd_apply V c t h0 m n _ rfl

/-- An index of the output array is in point `t`'s block iff each coordinate is in the block's range on its axis. -/
theorem mem_blk1_4 (t : Fin cfg1.N) (i : S2048x4096.Idx) :
    i ∈ ((cfg1.win 4).blk t).view.set ↔ ∀ a : Fin 2, win1_4.index t a * S2048x1024.size a ≤ (i a).val ∧ (i a).val < win1_4.index t a * S2048x1024.size a + S2048x1024.size a := by
  show i ∈ ((View.whole main_v26).slice (win1_4.rect t)).set ↔ _
  rw [View.set_slice_whole, Rect.mem_set_unit]
  exact Iff.rfl

/-- The output array after the launch: the rectified, scaled and shifted product of the operand arrays. -/
theorem final1 (V : (c : Dev nD) → (b : Ref sig .tc) → Buf (Elt Ideal) ((c : Thread nD τ).loc b)) (c : Dev nD) :
    (dat1 (F := Ideal) V c).arrAt 4 cfg1.N = Cert.Spec.mmAct (V c main_v23) (V c main_v17) (V c main_v24) (V c main_v25) :=
  (dat1 (F := Ideal) V c).arrAt_eq_of_cover 4 _ (fun t hf => flushed1_eq V c t hf) (fun i => by
    have hi0 : (i 0).val < 2048 := (i 0).isLt
    have hi1 : (i 1).val < 4096 := (i 1).isLt
    have hN : cfg1.N = 8 := N_1
    obtain ⟨t, ht⟩ : ∃ t : Fin cfg1.N, t.val = 2 * ((i 1).val / 1024) + 1 := ⟨⟨2 * ((i 1).val / 1024) + 1, by omega⟩, rfl⟩
    refine ⟨t, (flush1_4 t).mpr (by omega), ?_⟩
    rw [mem_blk1_4]
    obtain ⟨-, -, -, -, -, -, -, -, e0, e1⟩ := idx1_facts t
    intro a
    match a with
    | ⟨0, _⟩ => show win1_4.index t (0 : Fin 2) * 2048 ≤ (i 0).val ∧ (i 0).val < win1_4.index t (0 : Fin 2) * 2048 + 2048; rw [e0]; omega
    | ⟨1, _⟩ => show win1_4.index t (1 : Fin 2) * 1024 ≤ (i 1).val ∧ (i 1).val < win1_4.index t (1 : Fin 2) * 1024 + 1024; rw [e1]; omega)

end Cert.KernelIdeal.Hand

end
-- ==== Proof.KI.R2Pay.lean ====
/-
  Third matrix-product launch: what the pieces the two control cases leave are, as payloads of the operand blocks,
  and what those payloads are at an index over the extended reals.  The resetting case leaves in the accumulator the
  zero block plus the product of its two operand blocks; the storing case leaves there the accumulator it found plus
  the product, and in the output's buffer the rectified affine image of that sum.  At an index (m, n): the product
  is the sum over the 2048 contracted positions k of x (m, k) * w (n, k); the epilogue multiplies by the scale row at
  n, adds the bias row at n, and keeps the value where it is at least zero, else multiplies it by the slope.
-/
import proofs.«131467_j38792144618188_2_alg».proof.Proof.KI.R2Body
import proofs.«131467_j38792144618188_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2_2 : (![0, 0] : Fin 2 → Nat) = fun _ => 0 := funext fun a => by fin_cases a <;> rfl

/-! ## The found pieces as payloads (any float instance) -/

/-- The resetting case: zero, then the product added. -/
theorem sout2_A_eq (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x2048 .bf16) (x1 : Vec F S1024x2048 .bf16) (x2 : Vec F S1x1024 .f32) (x3 : Vec F S1x1024 .f32) :
    sout2_A_0 c i arg2 harg2 arg3 harg3 arg4 harg4 arg5 harg5 arg6 harg6 arg7 harg7 hc0 hc1 x0 x1 x2 x3 = k2_pay2 (k2_pay1 (F := F)) x0 x1 := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S2048x1024) hz2_2, View.readCov_unit_zero (S := S2048x1024) _ hz2_2]
  simp only [View.readAt_eq_ld, harg2.read_unread, harg3.read_unread, View.ld_unit_zero (S := S2048x2048) hz2_2,
    View.ld_unit_zero (S := S1024x2048) hz2_2]

/-- The storing case's accumulator: what it found, plus the product. -/
theorem sout2_B_eq (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) :
    sout2_B_0 c i arg2 harg2 arg3 harg3 arg4 harg4 arg5 harg5 arg6 harg6 arg7 harg7 hc0 hc1 x0 x1 x2 x3 xs0 = k2_pay2 xs0 x0 x1 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero (S := S2048x1024) hz2_2]
  simp only [View.readAt_eq_ld, harg2.read_unread, harg3.read_unread, harg7.read_unread, View.ld_unit_zero (S := S2048x2048) hz2_2,
    View.ld_unit_zero (S := S1024x2048) hz2_2, View.ld_unit_zero (S := S2048x1024) hz2_2]

/-- The storing case's output block: the epilogue of that accumulator, the scale row and the bias row. -/
theorem out2_B_eq (c : Dev nD) (i : grid2.Coords) (arg2 : Memref sig .tc .vmem S2048x2048 .bf16) (harg2 : arg2.IsWhole) (arg3 : Memref sig .tc .vmem S1024x2048 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x2048 .bf16) (x1 : Vec F S1024x2048 .bf16) (x2 : Vec F S1x1024 .f32) (x3 : Vec F S1x1024 .f32) (xs0 : Vec F S2048x1024 .f32) :
    out2_B_4 c i arg2 harg2 arg3 harg3 arg4 harg4 arg5 harg5 arg6 harg6 arg7 harg7 hc0 hc1 x0 x1 x2 x3 xs0 = k2_pay3 (k2_pay2 xs0 x0 x1) x2 x3 := by
  unfold out2_B_4
  rw [View.read_writes_eq_canon _ _ _ (cover2_B_4 c i arg2 harg2 arg3 harg3 arg4 harg4 arg5 harg5 arg6 harg6 arg7 harg7 hc0 hc1 x0 x1 x2 x3 xs0)]
  unfold kernelRun2_B
  dsimp only
  sl_unfold_words
  rw [View.canon_unit_zero (S := S2048x1024) hz2_2, View.readCov_unit_zero (S := S2048x1024) _ hz2_2]
  simp only [View.readAt_eq_ld, harg2.read_unread, harg3.read_unread, harg4.read_unread, harg5.read_unread, harg7.read_unread,
    View.ld_unit_zero (S := S2048x2048) hz2_2, View.ld_unit_zero (S := S1024x2048) hz2_2,
    View.ld_unit_zero (S := S2048x1024) hz2_2, View.ld_unit_zero (S := S1x1024) hz2_2]

/-! ## The payloads at an index, over the extended reals -/

/-- The zero block is zero everywhere. -/
theorem pay2_1_apply (j : S2048x1024.Idx) : k2_pay1 (F := Ideal) j = 0 := by
  unfold k2_pay1
  simp only [shapeCast_self]
  exact Ideal.ofBits_zero_f32

/-- The accumulation step at (m, n): the accumulator there plus the inner product over the 2048 contracted positions. -/
theorem pay2_2_apply (v3 : Vec Ideal S2048x1024 .f32) (v4 : Vec Ideal S2048x2048 .bf16) (v6 : Vec Ideal S1024x2048 .bf16)
    (m : Fin 2048) (n : Fin 1024) :
    k2_pay2 v3 v4 v6 (ix2 m n) = v3 (ix2 m n) + ∑ k : Fin 2048, v4 (ix2 m k) * v6 (ix2 n k) := by
  unfold k2_pay2
  simp only [shapeCast_self]
  show v3 (ix2 m n) + FloatOps.matmul (F := Ideal) dot_S2048x2048_S1024x2048_S2048x1024_1_1_0_0_n_n none v4 v6 (constant (F := Ideal) S2048x1024 .f32 0x00000000#32) (ix2 m n) = _
  rw [Ideal.matmul_constant_zero_apply, ← Equiv.sum_comp (contrEquiv1 dot_S2048x2048_S1024x2048_S2048x1024_1_1_0_0_n_n 2048 rfl rfl).symm]
  refine congrArg (v3 (ix2 m n) + ·) (Finset.sum_congr rfl fun k _ => ?_)
  have c2 := contrEquiv1_symm_val dot_S2048x2048_S1024x2048_S2048x1024_1_1_0_0_n_n 2048 rfl rfl k
  have l2 : (dot_S2048x2048_S1024x2048_S2048x1024_1_1_0_0_n_n).lhsIdx (ix2 m n) ((contrEquiv1 _ 2048 rfl rfl).symm k) = ix2 m k := by
    funext ax; apply Fin.ext
    match ax with
    | ⟨0, _⟩ => simp [DotDims.lhsIdx, dot_S2048x2048_S1024x2048_S2048x1024_1_1_0_0_n_n]; rfl
    | ⟨1, _⟩ => simp [DotDims.lhsIdx, dot_S2048x2048_S1024x2048_S2048x1024_1_1_0_0_n_n]; exact c2
  have r2 : (dot_S2048x2048_S1024x2048_S2048x1024_1_1_0_0_n_n).rhsIdx (ix2 m n) ((contrEquiv1 _ 2048 rfl rfl).symm k) = ix2 n k := by
    funext ax; apply Fin.ext
    match ax with
    | ⟨0, _⟩ => simp [DotDims.rhsIdx, dot_S2048x2048_S1024x2048_S2048x1024_1_1_0_0_n_n]; rfl
    | ⟨1, _⟩ => simp [DotDims.rhsIdx, dot_S2048x2048_S1024x2048_S2048x1024_1_1_0_0_n_n]; exact c2
  rw [l2, r2]

/-- The epilogue at (m, n): the rectifier of the accumulator there times the scale at n plus the bias at n. -/
theorem pay2_3_apply (v16 : Vec Ideal S2048x1024 .f32) (v17 v21 : Vec Ideal S1x1024 .f32) (m : Fin 2048) (n : Fin 1024) :
    k2_pay3 v16 v17 v21 (ix2 m n) = Cert.Spec.leaky (v16 (ix2 m n) * v17 (ix2 0 n) + v21 (ix2 0 n)) := by
  have b17 : broadcastTo S2048x1024 v17 broadcasts_S1x1024_S2048x1024 (ix2 m n) = v17 (ix2 0 n) :=
    broadcastTo_apply v17 broadcasts_S1x1024_S2048x1024 (ix2 m n) (ix2 0 n) (fun a => by
      match a with
      | ⟨0, _⟩ => rfl
      | ⟨1, _⟩ => rfl)
  have b21 : broadcastTo S2048x1024 v21 broadcasts_S1x1024_S2048x1024 (ix2 m n) = v21 (ix2 0 n) :=
    broadcastTo_apply v21 broadcasts_S1x1024_S2048x1024 (ix2 m n) (ix2 0 n) (fun a => by
      match a with
      | ⟨0, _⟩ => rfl
      | ⟨1, _⟩ => rfl)
  unfold k2_pay3
  simp only [shapeCast_self]
  show Scalar.select (FloatOps.cmpf .oge
        (v16 (ix2 m n) * broadcastTo S2048x1024 v17 broadcasts_S1x1024_S2048x1024 (ix2 m n) + broadcastTo S2048x1024 v21 broadcasts_S1x1024_S2048x1024 (ix2 m n))
        (Ideal.ofBits .f32 0x00000000#32))
      (v16 (ix2 m n) * broadcastTo S2048x1024 v17 broadcasts_S1x1024_S2048x1024 (ix2 m n) + broadcastTo S2048x1024 v21 broadcasts_S1x1024_S2048x1024 (ix2 m n))
      (Ideal.ofBits .f32 0x3C23D70A#32 * (v16 (ix2 m n) * broadcastTo S2048x1024 v17 broadcasts_S1x1024_S2048x1024 (ix2 m n) + broadcastTo S2048x1024 v21 broadcasts_S1x1024_S2048x1024 (ix2 m n))) = _
  rw [b17, b21, Ideal.ofBits_zero_f32]
  rfl

/-- Both steps and the epilogue at (m, n): the two half inner products, added from zero, scaled, shifted, rectified. -/
theorem chain2_apply (xa xb : Vec Ideal S2048x2048 .bf16) (wa wb : Vec Ideal S1024x2048 .bf16) (s b : Vec Ideal S1x1024 .f32)
    (m : Fin 2048) (n : Fin 1024) :
    k2_pay3 (k2_pay2 (k2_pay2 (k2_pay1 (F := Ideal)) xa wa) xb wb) s b (ix2 m n)
      = Cert.Spec.leaky (((∑ k : Fin 2048, xa (ix2 m k) * wa (ix2 n k)) + ∑ k : Fin 2048, xb (ix2 m k) * wb (ix2 n k)) * s (ix2 0 n) + b (ix2 0 n)) := by
  rw [pay2_3_apply, pay2_2_apply, pay2_2_apply, pay2_1_apply, zero_add]

end Cert.KernelIdeal.Hand

end
-- ==== Proof.KI.R2Acc.lean ====
/-
  Third matrix-product launch: the operand blocks read at explicit coordinates, and the output's buffer after an odd
  point.  Point t = 2 j + k: block (0, k) of x holds x (m, 2048 k + ·); block (j, k) of w holds
  w (1024 j + ·, 2048 k + ·); block (0, j) of the scale and bias rows holds their entries 1024 j + ·.  After the odd
  point 2 j + 1 the output's buffer holds, at (m, n), the rectifier of the full inner product over all 4096 contracted
  positions — the even point's half from zero plus the odd point's half — times the scale at 1024 j + n plus the bias
  there.
-/
import proofs.«131467_j38792144618188_2_alg».proof.Proof.KI.R2Pay

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The block indices of the five windows at point `t`, decided over the eight points. -/
theorem idx2_facts : ∀ t : Fin cfg2.N,
    win2_0.index t (0 : Fin 2) = 0 ∧ win2_0.index t (1 : Fin 2) = t.val % 2
    ∧ win2_1.index t (0 : Fin 2) = t.val / 2 ∧ win2_1.index t (1 : Fin 2) = t.val % 2
    ∧ win2_2.index t (0 : Fin 2) = 0 ∧ win2_2.index t (1 : Fin 2) = t.val / 2
    ∧ win2_3.index t (0 : Fin 2) = 0 ∧ win2_3.index t (1 : Fin 2) = t.val / 2
    ∧ win2_4.index t (0 : Fin 2) = 0 ∧ win2_4.index t (1 : Fin 2) = t.val / 2 :=
  (by decide +kernel : ∀ t : Fin grid2.N, _)

section Blocks
variable (V : (c : Dev nD) → (b : Ref sig .tc) → Buf (Elt F) ((c : Thread nD τ).loc b))

/-- Block of x at point `t`: rows as they are, columns shifted by 2048 (t % 2). -/
theorem blk2_0_apply (c : Dev nD) (t : Fin cfg2.N) (m k : Fin 2048) (m' : Fin 2048) (k' : Fin 4096)
    (h0 : m'.val = m.val) (h1 : k'.val = t.val % 2 * 2048 + k.val) :
    iblk2 V c 0 t (ix2 m k) = V c main_v26 (ix2 m' k') := by
  obtain ⟨e0, e1, -⟩ := idx2_facts t
  unfold iblk2
  rw [View.read_apply]
  show V c main_v26 (((cfg2.win 0).blk t).view.emb (ix2 m k)) = V c main_v26 (ix2 m' k')
  refine congrArg _ (funext fun a => Fin.ext ?_)
  match a with
  | ⟨0, _⟩ => show win2_0.index t (0 : Fin 2) * 2048 + 1 * m.val = m'.val; rw [e0, h0]; omega
  | ⟨1, _⟩ => show win2_0.index t (1 : Fin 2) * 2048 + 1 * k.val = k'.val; rw [e1, h1]; omega

/-- Block of w at point `t`: rows shifted by 1024 (t / 2), columns by 2048 (t % 2). -/
theorem blk2_1_apply (c : Dev nD) (t : Fin cfg2.N) (n : Fin 1024) (k : Fin 2048) (n' : Fin 4096) (k' : Fin 4096)
    (h0 : n'.val = t.val / 2 * 1024 + n.val) (h1 : k'.val = t.val % 2 * 2048 + k.val) :
    iblk2 V c 1 t (ix2 n k) = V c main_v18 (ix2 n' k') := by
  obtain ⟨-, -, e0, e1, -⟩ := idx2_facts t
  unfold iblk2
  rw [View.read_apply]
  show V c main_v18 (((cfg2.win 1).blk t).view.emb (ix2 n k)) = V c main_v18 (ix2 n' k')
  refine congrArg _ (funext fun a => Fin.ext ?_)
  match a with
  | ⟨0, _⟩ => show win2_1.index t (0 : Fin 2) * 1024 + 1 * n.val = n'.val; rw [e0, h0]; omega
  | ⟨1, _⟩ => show win2_1.index t (1 : Fin 2) * 2048 + 1 * k.val = k'.val; rw [e1, h1]; omega

/-- Block of the scale row at point `t`: entries shifted by 1024 (t / 2). -/
theorem blk2_2_apply (c : Dev nD) (t : Fin cfg2.N) (n : Fin 1024) (n' : Fin 4096)
    (h1 : n'.val = t.val / 2 * 1024 + n.val) :
    iblk2 V c 2 t (ix2 0 n) = V c main_v27 (ix2 0 n') := by
  obtain ⟨-, -, -, -, e0, e1, -⟩ := idx2_facts t
  unfold iblk2
  rw [View.read_apply]
  show V c main_v27 (((cfg2.win 2).blk t).view.emb (ix2 0 n)) = V c main_v27 (ix2 0 n')
  refine congrArg _ (funext fun a => Fin.ext ?_)
  match a with
  | ⟨0, _⟩ => show win2_2.index t (0 : Fin 2) * 1 + 1 * 0 = 0; rw [e0]
  | ⟨1, _⟩ => show win2_2.index t (1 : Fin 2) * 1024 + 1 * n.val = n'.val; rw [e1, h1]; omega

/-- Block of the bias row at point `t`, likewise. -/
theorem blk2_3_apply (c : Dev nD) (t : Fin cfg2.N) (n : Fin 1024) (n' : Fin 4096)
    (h1 : n'.val = t.val / 2 * 1024 + n.val) :
    iblk2 V c 3 t (ix2 0 n) = V c main_v28 (ix2 0 n') := by
  obtain ⟨-, -, -, -, -, -, e0, e1, -⟩ := idx2_facts t
  unfold iblk2
  rw [View.read_apply]
  show V c main_v28 (((cfg2.win 3).blk t).view.emb (ix2 0 n)) = V c main_v28 (ix2 0 n')
  refine congrArg _ (funext fun a => Fin.ext ?_)
  match a with
  | ⟨0, _⟩ => show win2_3.index t (0 : Fin 2) * 1 + 1 * 0 = 0; rw [e0]
  | ⟨1, _⟩ => show win2_3.index t (1 : Fin 2) * 1024 + 1 * n.val = n'.val; rw [e1, h1]; omega

/-- `outsAt2` at an even position, stated at the position itself. -/
theorem outsAt2_even (c : Dev nD) (n : ℕ) (hn : n < cfg2.N) (h0 : n % 2 = 0) :
    outsAt2 V c n hn = ptA2 V c ⟨n, hn⟩ h0 :=
  outsAt2_A V c ⟨n, hn⟩ h0

/-- After an odd point the output's buffer holds the epilogue of both accumulation steps from zero: the even point
    before it reset the accumulator and added its product, this point added its own. -/
theorem out2_odd (c : Dev nD) (t : Fin cfg2.N) (h0 : ¬t.val % 2 = 0) (hp : t.val - 1 < cfg2.N) :
    (outsAt2 V c t.val t.isLt).1
      = k2_pay3 (k2_pay2 (k2_pay2 (k2_pay1 (F := F)) (iblk2 V c 0 ⟨t.val - 1, hp⟩) (iblk2 V c 1 ⟨t.val - 1, hp⟩))
          (iblk2 V c 0 t) (iblk2 V c 1 t)) (iblk2 V c 2 t) (iblk2 V c 3 t) := by
  rw [outsAt2_B V c t h0, outsAt2_even V c (t.val - 1) _ (by omega)]
  unfold ptB2 ptA2
  dsimp only
  rw [out2_B_eq, sout2_A_eq]

end Blocks

/-- A sum over 4096 positions is the sum over the first 2048 plus the sum over the last 2048. -/
theorem sum_halves2 (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- The two half inner products over blocks that read the arrays `X`, `W` at columns k and 2048 + k, scaled and
    shifted by block entries that read the rows `S`, `B` at n', are the launch's entry (m, n'). -/
theorem mm_halves2 (xa xb : Vec Ideal S2048x2048 .bf16) (wa wb : Vec Ideal S1024x2048 .bf16) (s b : Vec Ideal S1x1024 .f32)
    (X : Cert.Spec.Mat 2048 4096) (W : Cert.Spec.Mat 4096 4096) (S B : Cert.Spec.Mat 1 4096)
    (m : Fin 2048) (n : Fin 1024) (n' : Fin 4096)
    (hxa : ∀ k : Fin 2048, xa (ix2 m k) = X (ix2 m ⟨k.val, by omega⟩))
    (hwa : ∀ k : Fin 2048, wa (ix2 n k) = W (ix2 n' ⟨k.val, by omega⟩))
    (hxb : ∀ k : Fin 2048, xb (ix2 m k) = X (ix2 m ⟨2048 + k.val, by omega⟩))
    (hwb : ∀ k : Fin 2048, wb (ix2 n k) = W (ix2 n' ⟨2048 + k.val, by omega⟩))
    (hs : s (ix2 0 n) = S (ix2 0 n')) (hb : b (ix2 0 n) = B (ix2 0 n')) :
    ((∑ k : Fin 2048, xa (ix2 m k) * wa (ix2 n k)) + ∑ k : Fin 2048, xb (ix2 m k) * wb (ix2 n k)) * s (ix2 0 n) + b (ix2 0 n)
      = Cert.Spec.mmAt X W S B m n' := by
  unfold Cert.Spec.mmAt
  rw [sum_halves2, hs, hb]
  simp only [hxa, hwa, hxb, hwb]

/-- The output's buffer after the odd point t = 2 j + 1, at (m, n): the launch's function at (m, 1024 j + n). -/
theorem out2_odd_apply (V : (c : Dev nD) → (b : Ref sig .tc) → Buf (Elt Ideal) ((c : Thread nD τ).loc b)) (c : Dev nD)
    (t : Fin cfg2.N) (h0 : ¬t.val % 2 = 0) (m : Fin 2048) (n : Fin 1024) (n' : Fin 4096) (hn' : n'.val = t.val / 2 * 1024 + n.val) :
    (outsAt2 V c t.val t.isLt).1 (ix2 m n)
      = Cert.Spec.leaky (Cert.Spec.mmAt (M := 2048) (N := 4096) (K := 4096) (V c main_v26) (V c main_v18) (V c main_v27) (V c main_v28) m n') := by
  have hp : t.val - 1 < cfg2.N := Nat.lt_of_le_of_lt (Nat.sub_le _ _) t.isLt
  have hN : t.val < 8 := lt_of_lt_of_eq t.isLt (show cfg2.N = 8 from N_2)
  rw [out2_odd V c t h0 hp]
  refine (chain2_apply (iblk2 V c 0 ⟨t.val - 1, hp⟩) (iblk2 V c 0 t) (iblk2 V c 1 ⟨t.val - 1, hp⟩) (iblk2 V c 1 t)
    (iblk2 V c 2 t) (iblk2 V c 3 t) m n).trans (congrArg Cert.Spec.leaky ?_)
  exact mm_halves2 (iblk2 V c 0 ⟨t.val - 1, hp⟩) (iblk2 V c 0 t) (iblk2 V c 1 ⟨t.val - 1, hp⟩) (iblk2 V c 1 t)
    (iblk2 V c 2 t) (iblk2 V c 3 t) (V c main_v26) (V c main_v18) (V c main_v27) (V c main_v28) m n n'
    (fun k => blk2_0_apply V c ⟨t.val - 1, hp⟩ m k m ⟨k.val, by omega⟩ rfl (by show k.val = (t.val - 1) % 2 * 2048 + k.val; omega))
    (fun k => blk2_1_apply V c ⟨t.val - 1, hp⟩ n k n' ⟨k.val, by omega⟩ (by show n'.val = (t.val - 1) / 2 * 1024 + n.val; omega)
      (by show k.val = (t.val - 1) % 2 * 2048 + k.val; omega))
    (fun k => blk2_0_apply V c t m k m ⟨2048 + k.val, by omega⟩ rfl (by show 2048 + k.val = t.val % 2 * 2048 + k.val; omega))
    (fun k => blk2_1_apply V c t n k n' ⟨2048 + k.val, by omega⟩ hn' (by show 2048 + k.val = t.val % 2 * 2048 + k.val; omega))
    (blk2_2_apply V c t n n' hn') (blk2_3_apply V c t n n' hn')

end Cert.KernelIdeal.Hand

end
-- ==== Proof.KI.R2Value.lean ====
/-
  Third matrix-product launch: what its output array holds after the launch.  Only the odd points write the output
  window back, and the odd point 2 j + 1 writes columns 1024 j … 1024 j + 1023 of all rows.  What it writes is, entry by
  entry, the launch's function of the four operand arrays; the four odd points' blocks cover the array; so the array
  ends holding that function.
-/
import proofs.«131467_j38792144618188_2_alg».proof.Proof.KI.R2Acc

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- What the odd point `t` writes back is block `t` of the launch's function of the operand arrays. -/
theorem flushed2_eq (V : (c : Dev nD) → (b : Ref sig .tc) → Buf (Elt Ideal) ((c : Thread nD τ).loc b)) (c : Dev nD)
    (t : Fin cfg2.N) (hf : (cfg2.win 4).flush t = true) :
    (dat2 (F := Ideal) V c).flushed 4 t = ((cfg2.win 4).blk t).view.read (Elt Ideal)
      (Cert.Spec.mmAct (V c main_v26) (V c main_v18) (V c main_v27) (V c main_v28)) := by
  have h1 : t.val % 2 = 1 := (flush2_4 t).mp hf
  have h0 : ¬t.val % 2 = 0 := by omega
  have hN : t.val < 8 := lt_of_lt_of_eq t.isLt (show cfg2.N = 8 from N_2)
  obtain ⟨-, -, -, -, -, -, -, -, e0, e1⟩ := idx2_facts t
  show (cfg2.win 4).cut (grid2.coords t) ((dat2 (F := Ideal) V c).after 4 t) = _
  rw [after2_4]
  funext y
  obtain ⟨m, n, rfl⟩ : ∃ (m : Fin 2048) (n : Fin 1024), y = ix2 m n := ⟨y 0, y 1, eq_ix2 y⟩
  rw [View.read_apply]
  have hemb : ((cfg2.win 4).blk t).view.emb (ix2 m n) = ix2 m (⟨t.val / 2 * 1024 + n.val, by omega⟩ : Fin 4096) := by
    funext a; apply Fin.ext
    match a with
    | ⟨0, _⟩ => show win2_4.index t (0 : Fin 2) * 2048 + 1 * m.val = m.val; rw [e0]; omega
    | ⟨1, _⟩ => show win2_4.index t (1 : Fin 2) * 1024 + 1 * n.val = t.val / 2 * 1024 + n.val; rw [e1]; omega
  rw [hemb]
  exact out2_odd_apply V c t h0 m n _ rfl

/-- An index of the output array is in point `t`'s block iff each coordinate is in the block's range on its axis. -/
theorem mem_blk2_4 (t : Fin cfg2.N) (i : S2048x4096.Idx) :
    i ∈ ((cfg2.win 4).blk t).view.set ↔ ∀ a : Fin 2, win2_4.index t a * S2048x1024.size a ≤ (i a).val ∧ (i a).val < win2_4.index t a * S2048x1024.size a + S2048x1024.size a := by
  show i ∈ ((View.whole main_v29).slice (win2_4.rect t)).set ↔ _
  rw [View.set_slice_whole, Rect.mem_set_unit]
  exact Iff.rfl

/-- The output array after the launch: the rectified, scaled and shifted product of the operand arrays. -/
theorem final2 (V : (c : Dev nD) → (b : Ref sig .tc) → Buf (Elt Ideal) ((c : Thread nD τ).loc b)) (c : Dev nD) :
    (dat2 (F := Ideal) V c).arrAt 4 cfg2.N = Cert.Spec.mmAct (V c main_v26) (V c main_v18) (V c main_v27) (V c main_v28) :=
  (dat2 (F := Ideal) V c).arrAt_eq_of_cover 4 _ (fun t hf => flushed2_eq V c t hf) (fun i => by
    have hi0 : (i 0).val < 2048 := (i 0).isLt
    have hi1 : (i 1).val < 4096 := (i 1).isLt
    have hN : cfg2.N = 8 := N_2
    obtain ⟨t, ht⟩ : ∃ t : Fin cfg2.N, t.val = 2 * ((i 1).val / 1024) + 1 := ⟨⟨2 * ((i 1).val / 1024) + 1, by omega⟩, rfl⟩
    refine ⟨t, (flush2_4 t).mpr (by omega), ?_⟩
    rw [mem_blk2_4]
    obtain ⟨-, -, -, -, -, -, -, -, e0, e1⟩ := idx2_facts t
    intro a
    match a with
    | ⟨0, _⟩ => show win2_4.index t (0 : Fin 2) * 2048 ≤ (i 0).val ∧ (i 0).val < win2_4.index t (0 : Fin 2) * 2048 + 2048; rw [e0]; omega
    | ⟨1, _⟩ => show win2_4.index t (1 : Fin 2) * 1024 ≤ (i 1).val ∧ (i 1).val < win2_4.index t (1 : Fin 2) * 1024 + 1024; rw [e1]; omega)

end Cert.KernelIdeal.Hand

end
-- ==== Proof.KI.R3Pay.lean ====
import proofs.«131467_j38792144618188_2_alg».proof.Proof.KI.R0Pay
import proofs.«131467_j38792144618188_2_alg».proof.Proof.Gen.KernelIdeal.Skeleton
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx

/-!
# The last layer's three stored values at an index

The body of the last matrix-product launch stores three values.  Where the position along the contracted axis is the
first, it stores zeros into the accumulator.  At every position it stores the accumulator plus the product of the input
block with the transposed weight block: at row `p` and column `q`, the accumulator's entry plus
`∑ k, x p k * w q k` over the block's 1024 contracted coordinates.  At the last position it stores, into the output
block, the accumulator times the scale row plus the bias row: `acc p q * s 0 q + b 0 q`.
-/

/-- The zeros the accumulator is given at the first position. -/
theorem pay3_1_apply (j : S2048x1280.Idx) : k3_pay1 (F := Ideal) j = 0 := by
  unfold k3_pay1
  simp only [shapeCast_self]
  exact Ideal.ofBits_zero_f32

/-- The accumulator after a position, at `(p, q)`: what it held plus the inner product of row `p` of the input block
    with row `q` of the weight block. -/
theorem pay3_2_apply (acc : Vec Ideal S2048x1280 .f32) (x : Vec Ideal S2048x1024 .bf16) (w : Vec Ideal S1280x1024 .bf16)
    (p : Fin 2048) (q : Fin 1280) :
    k3_pay2 (F := Ideal) acc x w (ix2 p q) = acc (ix2 p q) + ∑ k : Fin 1024, x (ix2 p k) * w (ix2 q k) := by
  unfold k3_pay2
  simp only [shapeCast_self]
  refine (addf_apply _ _ _).trans ?_
  exact congrArg (acc (ix2 p q) + ·) (matmul_nt_apply (φ₁ := .bf16) (φ₂ := .bf16) _ none x w p q)

/-- The output block at the last position, at `(p, q)`: the accumulator times the scale row plus the bias row. -/
theorem pay3_3_apply (acc : Vec Ideal S2048x1280 .f32) (s b : Vec Ideal S1x1280 .f32) (p : Fin 2048) (q : Fin 1280) :
    k3_pay3 (F := Ideal) acc s b (ix2 p q) = acc (ix2 p q) * s (ix2 (0 : Fin 1) q) + b (ix2 (0 : Fin 1) q) := by
  unfold k3_pay3
  simp only [shapeCast_self]
  exact (addf_apply _ _ _).trans (congrArg₂ (· + ·)
    ((mulf_apply _ _ _).trans (congrArg (acc (ix2 p q) * ·) (broadcastTo_1b_ab_apply s _ p q)))
    (broadcastTo_1b_ab_apply b _ p q))

end Cert.KernelIdeal.Hand
end
-- ==== Proof.Math.BlockSum.lean ====
/-
  A long sum taken block by block.

  A sum over `K` indices can be accumulated in consecutive blocks of `tk`: start from `0`, and after each block add
  that block's sum.  `psum f j` is the sum of the first `j` terms; it is `0` at `j = 0`, grows by a block's sum when
  `j` grows by the block's length, and is the whole sum at `j = K`.  Hence an accumulator that starts at `0` and adds
  block `kb`'s sum at step `kb` holds `psum f (tk * kb)` before step `kb` and the whole sum after the last step; and the
  whole sum is the sum over the blocks of the blocks' sums.
-/
import Mathlib.Algebra.BigOperators.Fin
import Mathlib.Algebra.BigOperators.Intervals
import Mathlib.Logic.Equiv.Fin.Basic

namespace Cert.Spec

variable {M : Type*} [AddCommMonoid M]

/-- The terms `f 0, f 1, …` continued by zeros. -/
def ext0 {K : ℕ} (f : Fin K → M) (i : ℕ) : M := if h : i < K then f ⟨i, h⟩ else 0

/-- The sum of the first `j` terms. -/
def psum {K : ℕ} (f : Fin K → M) (j : ℕ) : M := ∑ i ∈ Finset.range j, ext0 f i

theorem psum_zero {K : ℕ} (f : Fin K → M) : psum f 0 = 0 := Finset.sum_range_zero _

/-- All `K` terms: the whole sum. -/
theorem psum_all {K : ℕ} (f : Fin K → M) : psum f K = ∑ k, f k := by
  unfold psum
  rw [Finset.sum_range]
  exact Finset.sum_congr rfl fun k _ => by unfold ext0; rw [dif_pos k.isLt]

/-- One more block of `tk` terms after the first `j`. -/
theorem psum_add {K : ℕ} (f : Fin K → M) (j tk : ℕ) (h : j + tk ≤ K) :
    psum f (j + tk) = psum f j + ∑ k' : Fin tk, f ⟨j + k'.val, by have := k'.isLt; omega⟩ := by
  unfold psum
  rw [Finset.sum_range_add, Finset.sum_range (fun x => ext0 f (j + x))]
  congr 1
  refine Finset.sum_congr rfl fun k' _ => ?_
  unfold ext0
  rw [dif_pos]

/-- The first block, onto an accumulator just set to zero. -/
theorem psum_first {K : ℕ} (f : Fin K → M) (tk : ℕ) (h : tk ≤ K) :
    psum f tk = 0 + ∑ k' : Fin tk, f ⟨k'.val, by have := k'.isLt; omega⟩ := by
  have e := psum_add f 0 tk (by omega)
  rw [psum_zero] at e
  simp only [Nat.zero_add] at e
  exact e

/-- An accumulator that is `0` before the first block and adds block `kb`'s sum at step `kb` holds the first
    `tk * kb` terms' sum before step `kb`. -/
theorem acc_eq_psum {K : ℕ} (f : Fin K → M) (tk : ℕ) (a : ℕ → M) (h0 : a 0 = 0)
    (hs : ∀ kb (h : tk * kb + tk ≤ K), a (kb + 1) = a kb + ∑ k' : Fin tk, f ⟨tk * kb + k'.val, by have := k'.isLt; omega⟩) :
    ∀ kb, tk * kb ≤ K → a kb = psum f (tk * kb)
  | 0, _ => by rw [h0, Nat.mul_zero, psum_zero]
  | kb + 1, h => by
    have hk : tk * kb + tk ≤ K := by rw [Nat.mul_succ] at h; exact h
    rw [hs kb hk, acc_eq_psum f tk a h0 hs kb (by omega), Nat.mul_succ, psum_add f (tk * kb) tk hk]

/-- After all `nb` blocks the accumulator holds the whole sum. -/
theorem acc_eq_sum {K : ℕ} (f : Fin K → M) (nb tk : ℕ) (hK : tk * nb = K) (a : ℕ → M) (h0 : a 0 = 0)
    (hs : ∀ kb (h : tk * kb + tk ≤ K), a (kb + 1) = a kb + ∑ k' : Fin tk, f ⟨tk * kb + k'.val, by have := k'.isLt; omega⟩) :
    a nb = ∑ k, f k := by
  rw [acc_eq_psum f tk a h0 hs nb (by omega), hK, psum_all]

theorem blk_lt {nb tk : ℕ} (kb : Fin nb) (k' : Fin tk) : tk * kb.val + k'.val < nb * tk :=
  calc tk * kb.val + k'.val < tk * kb.val + tk := Nat.add_lt_add_left k'.isLt _
    _ = tk * (kb.val + 1) := (Nat.mul_succ _ _).symm
    _ ≤ tk * nb := Nat.mul_le_mul_left _ kb.isLt
    _ = nb * tk := Nat.mul_comm _ _

/-- The whole sum is the sum over the blocks of the blocks' sums. -/
theorem sum_blocks {nb tk : ℕ} (f : Fin (nb * tk) → M) :
    ∑ k, f k = ∑ kb : Fin nb, ∑ k' : Fin tk, f ⟨tk * kb.val + k'.val, blk_lt kb k'⟩ := by
  rw [← Equiv.sum_comp finProdFinEquiv f, Fintype.sum_prod_type]
  refine Finset.sum_congr rfl fun kb _ => Finset.sum_congr rfl fun k' _ => congrArg f (Fin.ext ?_)
  show k'.val + tk * kb.val = tk * kb.val + k'.val
  exact Nat.add_comm _ _

end Cert.Spec
-- ==== Proof.KI.R3Value.lean ====
import proofs.«131467_j38792144618188_2_alg».proof.Proof.KI.R3Dat
import proofs.«131467_j38792144618188_2_alg».proof.Proof.KI.R3Pay
import proofs.«131467_j38792144618188_2_alg».proof.Proof.Math.BlockSum
import proofs.«131467_j38792144618188_2_alg».proof.Proof.Spec
import Idealize.ShloMosaic.Lib.Pipeline.Value
import Idealize.ShloMosaic.Lib.Tactic

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

/-!
# What the last matrix-product launch leaves in its result array

Point `t` of the 25 × 4 grid works on output columns `1280 (t / 4) … 1280 (t / 4) + 1279` with the contracted
coordinates `1024 (t % 4) … 1024 (t % 4) + 1023`.  Within a run of four points the accumulator starts from zero and
gains one block of 1024 products per point, so after the point at position `k` it holds, at `(p, q)`, the sum of the
first `1024 (k + 1)` products of input row `p` with weight row `1280 (t / 4) + q`; after position 3 that is the whole
inner product over the 4096 contracted coordinates.  The point at position 3 writes back the accumulator times the
scale row plus the bias row: the block of the layer's result.  The 25 written blocks cover the array: column `n` lies in
the block of point `4 (n / 1280) + 3`.
-/

variable (V : (c : Dev nD) → (b : Ref sig .tc) → Buf (Elt Ideal) ((c : Thread nD τ).loc b))

/-- The five windows' block indices at point `t`. -/
theorem index_facts3 : ∀ t : Fin cfg3.N,
    win3_0.index t (0 : Fin 2) = 0 ∧ win3_0.index t (1 : Fin 2) = t.val % 4
    ∧ win3_1.index t (0 : Fin 2) = t.val / 4 ∧ win3_1.index t (1 : Fin 2) = t.val % 4
    ∧ win3_2.index t (0 : Fin 2) = 0 ∧ win3_2.index t (1 : Fin 2) = t.val / 4
    ∧ win3_3.index t (0 : Fin 2) = 0 ∧ win3_3.index t (1 : Fin 2) = t.val / 4
    ∧ win3_4.index t (0 : Fin 2) = 0 ∧ win3_4.index t (1 : Fin 2) = t.val / 4 :=
  (by decide +kernel : ∀ t : Fin grid3.N, _)

/-! ## The launch's arrays and the blocks read off them, typed as the matrices they are -/

/-- The input, the weights, the scale row and the bias row as the launch finds them. -/
abbrev x3 (c : Dev nD) : Mat 2048 4096 := V c main_v29
abbrev w3 (c : Dev nD) : Mat 32000 4096 := V c main_v19
abbrev s3 (c : Dev nD) : Mat 1 32000 := V c main_v30
abbrev b3 (c : Dev nD) : Mat 1 32000 := V c main_v31
/-- Their blocks at point `t`. -/
abbrev xb3 (c : Dev nD) (t : Fin cfg3.N) : Vec Ideal S2048x1024 .bf16 := iblk3 V c 0 t
abbrev wb3 (c : Dev nD) (t : Fin cfg3.N) : Vec Ideal S1280x1024 .bf16 := iblk3 V c 1 t
abbrev sb3 (c : Dev nD) (t : Fin cfg3.N) : Vec Ideal S1x1280 .f32 := iblk3 V c 2 t
abbrev bb3 (c : Dev nD) (t : Fin cfg3.N) : Vec Ideal S1x1280 .f32 := iblk3 V c 3 t

/-- The input block at point `t`: rows as they are, contracted coordinates from `1024 (t % 4)`. -/
theorem iblk3_0_apply (c : Dev nD) (t : Fin cfg3.N) (p : Fin 2048) (k' : Fin 1024) (kk : Fin 4096)
    (hk : kk.val = 1024 * (t.val % 4) + k'.val) :
    xb3 V c t (ix2 p k') = x3 V c (ix2 p kk) := by
  obtain ⟨e0, e1, -⟩ := index_facts3 t
  show V c main_v29 (((cfg3.win 0).blk t).view.emb (ix2 p k')) = V c main_v29 (ix2 p kk)
  refine congrArg _ ?_
  funext a; apply Fin.ext
  match a with
  | ⟨0, _⟩ => show win3_0.index t (0 : Fin 2) * 2048 + 1 * p.val = p.val; rw [e0]; omega
  | ⟨1, _⟩ => show win3_0.index t (1 : Fin 2) * 1024 + 1 * k'.val = kk.val; rw [e1, hk]; omega

/-- The weight block at point `t`: rows from `1280 (t / 4)`, contracted coordinates from `1024 (t % 4)`. -/
theorem iblk3_1_apply (c : Dev nD) (t : Fin cfg3.N) (q : Fin 1280) (k' : Fin 1024) (r : Fin 32000) (kk : Fin 4096)
    (hr : r.val = 1280 * (t.val / 4) + q.val) (hk : kk.val = 1024 * (t.val % 4) + k'.val) :
    wb3 V c t (ix2 q k') = w3 V c (ix2 r kk) := by
  obtain ⟨-, -, e0, e1, -⟩ := index_facts3 t
  show V c main_v19 (((cfg3.win 1).blk t).view.emb (ix2 q k')) = V c main_v19 (ix2 r kk)
  refine congrArg _ ?_
  funext a; apply Fin.ext
  match a with
  | ⟨0, _⟩ => show win3_1.index t (0 : Fin 2) * 1280 + 1 * q.val = r.val; rw [e0, hr]; omega
  | ⟨1, _⟩ => show win3_1.index t (1 : Fin 2) * 1024 + 1 * k'.val = kk.val; rw [e1, hk]; omega

/-- The scale block at point `t`: columns from `1280 (t / 4)`. -/
theorem iblk3_2_apply (c : Dev nD) (t : Fin cfg3.N) (q : Fin 1280) (r : Fin 32000) (hr : r.val = 1280 * (t.val / 4) + q.val) :
    sb3 V c t (ix2 (0 : Fin 1) q) = s3 V c (ix2 (0 : Fin 1) r) := by
  obtain ⟨-, -, -, -, e0, e1, -⟩ := index_facts3 t
  show V c main_v30 (((cfg3.win 2).blk t).view.emb (ix2 (0 : Fin 1) q)) = V c main_v30 (ix2 (0 : Fin 1) r)
  refine congrArg _ ?_
  funext a; apply Fin.ext
  match a with
  | ⟨0, _⟩ => show win3_2.index t (0 : Fin 2) * 1 + 1 * 0 = 0; rw [e0]
  | ⟨1, _⟩ => show win3_2.index t (1 : Fin 2) * 1280 + 1 * q.val = r.val; rw [e1, hr]; omega

/-- The bias block at point `t`: columns from `1280 (t / 4)`. -/
theorem iblk3_3_apply (c : Dev nD) (t : Fin cfg3.N) (q : Fin 1280) (r : Fin 32000) (hr : r.val = 1280 * (t.val / 4) + q.val) :
    bb3 V c t (ix2 (0 : Fin 1) q) = b3 V c (ix2 (0 : Fin 1) r) := by
  obtain ⟨-, -, -, -, -, -, e0, e1, -⟩ := index_facts3 t
  show V c main_v31 (((cfg3.win 3).blk t).view.emb (ix2 (0 : Fin 1) q)) = V c main_v31 (ix2 (0 : Fin 1) r)
  refine congrArg _ ?_
  funext a; apply Fin.ext
  match a with
  | ⟨0, _⟩ => show win3_3.index t (0 : Fin 2) * 1 + 1 * 0 = 0; rw [e0]
  | ⟨1, _⟩ => show win3_3.index t (1 : Fin 2) * 1280 + 1 * q.val = r.val; rw [e1, hr]; omega

/-! ## The accumulator after each point -/

/-- The products of input row `p` with weight row `r`, one per contracted coordinate. -/
abbrev rowProd (c : Dev nD) (p : Fin 2048) (r : Fin 32000) : Fin 4096 → EReal :=
  fun kk => x3 V c (ix2 p kk) * w3 V c (ix2 r kk)

/-- One step: an accumulator holding `a` at `(p, q)` gains point `t`'s block of products. -/
theorem step3_apply (c : Dev nD) (t : Fin cfg3.N) (acc : Vec Ideal S2048x1280 .f32) (p : Fin 2048) (q : Fin 1280)
    (r : Fin 32000) (hr : r.val = 1280 * (t.val / 4) + q.val) (a : EReal) (ha : acc (ix2 p q) = a) :
    k3_pay2 (F := Ideal) acc (iblk3 V c 0 t) (iblk3 V c 1 t) (ix2 p q)
      = a + ∑ k' : Fin 1024, rowProd V c p r ⟨1024 * (t.val % 4) + k'.val, by have := k'.isLt; omega⟩ := by
  rw [pay3_2_apply, ha]
  refine congrArg (a + ·) (Finset.sum_congr rfl fun k' _ => ?_)
  exact congrArg₂ (· * ·)
    (iblk3_0_apply V c t p k' ⟨1024 * (t.val % 4) + k'.val, by have := k'.isLt; omega⟩ rfl)
    (iblk3_1_apply V c t q k' r ⟨1024 * (t.val % 4) + k'.val, by have := k'.isLt; omega⟩ hr rfl)

/-- After the point at position `n % 4` of its run the accumulator holds the first `1024 (n % 4 + 1)` products' sum. -/
theorem sAt3_apply (c : Dev nD) (p : Fin 2048) (q : Fin 1280) (r : Fin 32000) :
    ∀ (n : ℕ) (hn : n < cfg3.N), r.val = 1280 * (n / 4) + q.val →
      sAt3 V c n hn (ix2 p q) = psum (rowProd V c p r) (1024 * (n % 4) + 1024)
  | 0, hn, hr => by
    have e : sAt3 V c 0 hn = k3_pay2 (k3_pay1 (F := Ideal)) (iblk3 V c 0 ⟨0, hn⟩) (iblk3 V c 1 ⟨0, hn⟩) :=
      sAt3_first V c ⟨0, hn⟩ rfl
    rw [e, step3_apply V c ⟨0, hn⟩ _ p q r hr 0 (pay3_1_apply _),
      psum_add (rowProd V c p r) (1024 * (0 % 4)) 1024 (by omega)]
    exact congrArg (· + _) (psum_zero _).symm
  | n + 1, hn, hr => by
    by_cases h0 : (n + 1) % 4 = 0
    · have e : sAt3 V c (n + 1) hn = k3_pay2 (k3_pay1 (F := Ideal)) (iblk3 V c 0 ⟨n + 1, hn⟩) (iblk3 V c 1 ⟨n + 1, hn⟩) :=
        sAt3_first V c ⟨n + 1, hn⟩ h0
      have z : psum (rowProd V c p r) (1024 * ((n + 1) % 4)) = 0 := by rw [h0, Nat.mul_zero, psum_zero]
      rw [e, step3_apply V c ⟨n + 1, hn⟩ _ p q r hr 0 (pay3_1_apply _),
        psum_add (rowProd V c p r) (1024 * ((n + 1) % 4)) 1024 (by omega), z]
    · have e : sAt3 V c (n + 1) hn
          = k3_pay2 (sAt3 V c n (Nat.lt_of_succ_lt hn)) (iblk3 V c 0 ⟨n + 1, hn⟩) (iblk3 V c 1 ⟨n + 1, hn⟩) :=
        sAt3_later V c ⟨n + 1, hn⟩ h0
      have ih := sAt3_apply c p q r n (Nat.lt_of_succ_lt hn) (by omega)
      have z : 1024 * (n % 4) + 1024 = 1024 * ((n + 1) % 4) := by omega
      rw [e, step3_apply V c ⟨n + 1, hn⟩ _ p q r hr _ ih,
        psum_add (rowProd V c p r) (1024 * ((n + 1) % 4)) 1024 (by omega), z]

/-! ## The write-back, and the whole array -/

/-- What a point at position 3 writes back is its block of the layer's result. -/
theorem flushed3_eq (c : Dev nD) (t : Fin cfg3.N) (hf : (cfg3.win 4).flush t = true) :
    (dat3 (F := Ideal) V c).flushed 4 t
      = ((cfg3.win 4).blk t).view.read (Elt Ideal) (mmLin (V c main_v29) (V c main_v19) (V c main_v30) (V c main_v31)) := by
  have h3 : t.val % 4 = 3 := (flush3_4 t).mp hf
  show (cfg3.win 4).cut (grid3.coords t) ((dat3 V c).after 4 t) = _
  rw [after3_4]
  obtain ⟨-, -, -, -, -, -, -, -, e0, e1⟩ := index_facts3 t
  have hN : cfg3.N = 100 := N_3
  funext j
  obtain ⟨p, q, rfl⟩ : ∃ (p : Fin 2048) (q : Fin 1280), j = ix2 p q := ⟨j 0, j 1, eq_ix2 j⟩
  have hrow : 1280 * (t.val / 4) + q.val < 32000 := by have := t.isLt; have := q.isLt; omega
  show k3_pay3 (F := Ideal) (sAt3 V c t.val t.isLt) (iblk3 V c 2 t) (iblk3 V c 3 t) (ix2 p q)
    = mmLin (V c main_v29) (V c main_v19) (V c main_v30) (V c main_v31) (((cfg3.win 4).blk t).view.emb (ix2 p q))
  have hi : ((cfg3.win 4).blk t).view.emb (ix2 p q) = ix2 p (⟨1280 * (t.val / 4) + q.val, hrow⟩ : Fin 32000) := by
    funext a; apply Fin.ext
    match a with
    | ⟨0, _⟩ => show win3_4.index t (0 : Fin 2) * 2048 + 1 * p.val = p.val; rw [e0]; omega
    | ⟨1, _⟩ => show win3_4.index t (1 : Fin 2) * 1280 + 1 * q.val = 1280 * (t.val / 4) + q.val; rw [e1]; omega
  have hz : 1024 * (t.val % 4) + 1024 = 4096 := by omega
  rw [hi, pay3_3_apply, sAt3_apply V c p q ⟨_, hrow⟩ t.val t.isLt rfl, hz, psum_all]
  exact congrArg₂ (· + ·)
    (congrArg ((∑ kk, rowProd V c p ⟨1280 * (t.val / 4) + q.val, hrow⟩ kk) * ·) (iblk3_2_apply V c t q ⟨_, hrow⟩ rfl))
    (iblk3_3_apply V c t q ⟨_, hrow⟩ rfl)

/-- An index of the result array is in point `t`'s block iff each coordinate is in the block's range on its axis. -/
theorem mem_blk3 (t : Fin cfg3.N) (i : S2048x32000.Idx) :
    i ∈ ((cfg3.win 4).blk t).view.set ↔ ∀ a : Fin 2, win3_4.index t a * S2048x1280.size a ≤ (i a).val ∧ (i a).val < win3_4.index t a * S2048x1280.size a + S2048x1280.size a := by
  show i ∈ ((View.whole main_v32).slice (win3_4.rect t)).set ↔ _
  rw [View.set_slice_whole, Rect.mem_set_unit]
  exact Iff.rfl

/-- The result array after the launch: the last layer of what the launch was given, the inner product scaled once. -/
theorem final3 (V : (c : Dev nD) → (b : Ref sig .tc) → Buf (Elt Ideal) ((c : Thread nD τ).loc b)) (c : Dev nD) :
    (dat3 (F := Ideal) V c).arrAt 4 cfg3.N = Cert.Spec.mmLin (V c main_v29) (V c main_v19) (V c main_v30) (V c main_v31) :=
  (dat3 V c).arrAt_eq_of_cover 4 (Cert.Spec.mmLin (V c main_v29) (V c main_v19) (V c main_v30) (V c main_v31))
    (fun t hf => flushed3_eq V c t hf) fun i => by
    have hN : cfg3.N = 100 := N_3
    have hi0 : (i 0).val < 2048 := (i 0).isLt
    have hi1 : (i 1).val < 32000 := (i 1).isLt
    have ht : 4 * ((i 1).val / 1280) + 3 < cfg3.N := by rw [hN]; omega
    obtain ⟨-, -, -, -, -, -, -, -, e0, e1⟩ := index_facts3 ⟨4 * ((i 1).val / 1280) + 3, ht⟩
    have e1' : win3_4.index ⟨4 * ((i 1).val / 1280) + 3, ht⟩ (1 : Fin 2) = (i 1).val / 1280 := by
      rw [e1]; show (4 * ((i 1).val / 1280) + 3) / 4 = (i 1).val / 1280; omega
    refine ⟨⟨4 * ((i 1).val / 1280) + 3, ht⟩, (flush3_4 _).mpr (by show (4 * ((i 1).val / 1280) + 3) % 4 = 3; omega), ?_⟩
    rw [mem_blk3]
    intro a
    match a with
    | ⟨0, _⟩ =>
      show win3_4.index ⟨4 * ((i 1).val / 1280) + 3, ht⟩ (0 : Fin 2) * 2048 ≤ (i 0).val ∧ (i 0).val < win3_4.index ⟨4 * ((i 1).val / 1280) + 3, ht⟩ (0 : Fin 2) * 2048 + 2048
      rw [e0]; omega
    | ⟨1, _⟩ =>
      show win3_4.index ⟨4 * ((i 1).val / 1280) + 3, ht⟩ (1 : Fin 2) * 1280 ≤ (i 1).val ∧ (i 1).val < win3_4.index ⟨4 * ((i 1).val / 1280) + 3, ht⟩ (1 : Fin 2) * 1280 + 1280
      rw [e1']; omega

end Cert.KernelIdeal.Hand

end
-- ==== Proof.KI.R4Pay.lean ====
import proofs.«131467_j38792144618188_2_alg».proof.Proof.Gen.KernelIdeal.Skeleton
import proofs.«131467_j38792144618188_2_alg».proof.Proof.Spec
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx

/-!
# The log-softmax payload at an index

The body's one store writes, at row `r` and column `n` of its `64 × 32000` block `x`,
`(x r n - max_n' x r n') - log ∑ n', exp (x r n' - max_n'' x r n'')`: the lane maximum and the lane sum are reductions over
the second axis, carried back to the block's shape through a column `[64] → [64, 1]` and a broadcast `[64, 1] → [64, 32000]`.
-/

/-! ## The two keepdims layout steps, read at an index -/

/-- An `[a]` array cast to a column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions, read at a row -/

/-- The word of minus infinity is the extended reals' bottom. -/
theorem ofBits_neg_inf : Ideal.ofBits .f32 0xFF800000#32 = ⊥ := by simp [Ideal.ofBits, Ideal.ieee]

/-- The index over row `r` with lane coordinate `k` inserted is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

/-- The lane maximum from minus infinity, at row `r`, is the largest entry of the row. -/
theorem rowMax_of_reduction {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r) = Cert.Spec.rowMax v r := by
  refine (Ideal.multiReduction_maximumf_single v _ h hφ hacc (ix1 r)).trans ?_
  have hf : (v ∘ h.lift (ix1 r)) = fun n : Fin b => v (ix2 r n) := funext fun k => congrArg v (lift_row h r k)
  rw [Ideal.ofBits_def, ofBits_neg_inf, hf]
  rfl

/-- The lane sum from zero, at row `r`, is the sum of the row. -/
theorem rowSum_of_reduction {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ n : Fin b, v (ix2 r n) :=
  (Ideal.multiReduction_add_single v _ h hφ hacc (ix1 r)).trans
    (Finset.sum_congr rfl fun k _ => congrArg v (lift_row h r k))

/-! ## The whole payload, over any extents -/

section Stages

variable {a b : ℕ} (x : FVec Ideal ⟨2, ![a, b]⟩ .f32)
  (hr : (⟨2, ![a, b]⟩ : Shape).Reduces [1] ⟨1, ![a]⟩)
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)
  (hφ' : FKind.Formats .f32) (hadd : (0x00000000#32 : BitVec 32) = FKind.add.neutral .f32 hφ')

/-- The block with each row's maximum taken off, at `(r, n)`. -/
theorem centered_apply (r : Fin a) (n : Fin b) :
    subf x (broadcastTo ⟨2, ![a, b]⟩ (shapeCast ⟨2, ![a, 1]⟩
        (multiReduction .maximumf [1] ⟨1, ![a]⟩ x 0xFF800000#32 hr hφ hmax) hc) hb) (ix2 r n)
      = x (ix2 r n) - Cert.Spec.rowMax x r := by
  refine (subf_apply _ _ _).trans (congrArg (x (ix2 r n) - ·) ?_)
  refine (broadcastTo_a1_ab_apply _ hb r n).trans ?_
  refine (shapeCast_a_a1_apply _ hc r 0).trans ?_
  exact rowMax_of_reduction x hr hφ hmax r

/-- The whole chain — centre each row, exponentiate, sum each row, take the logarithm, take it off — at `(r, n)` is
    the log-softmax entry. -/
theorem logSoftmax_apply (r : Fin a) (n : Fin b) :
    subf
      (subf x (broadcastTo ⟨2, ![a, b]⟩ (shapeCast ⟨2, ![a, 1]⟩
        (multiReduction .maximumf [1] ⟨1, ![a]⟩ x 0xFF800000#32 hr hφ hmax) hc) hb))
      (broadcastTo ⟨2, ![a, b]⟩
        (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ' hadd) hc)) hb)
      (ix2 r n)
      = Cert.Spec.lsmAt x r n := by
  unfold Cert.Spec.lsmAt
  refine (subf_apply _ _ _).trans (congrArg₂ (· - ·) (centered_apply x hr hc hb hφ hmax r n) ?_)
  refine (broadcastTo_a1_ab_apply _ hb r n).trans ?_
  refine congrArg Ideal.log ?_
  refine (shapeCast_a_a1_apply _ hc r 0).trans ?_
  refine (rowSum_of_reduction _ hr hφ' hadd r).trans ?_
  exact Finset.sum_congr rfl fun n' _ => congrArg Ideal.exp (centered_apply x hr hc hb hφ hmax r n')

end Stages

/-! ## The kernel's payload -/

/-- The body's stored value at `(r, n)` is the log-softmax entry of its loaded block. -/
theorem pay4_apply (x : Vec Ideal S64x32000 .f32) (r : Fin 64) (n : Fin 32000) :
    k4_pay1 (F := Ideal) x (ix2 r n) = Cert.Spec.lsmAt (x : Cert.Spec.Mat 64 32000) r n := by
  unfold k4_pay1
  dsimp only
  simp only [shapeCast_self]
  exact logSoftmax_apply x _ _ _ _ _ _ _ r n

/-- So the stored block is the row-wise log-softmax of the loaded block. -/
theorem pay4_eq (x : Vec Ideal S64x32000 .f32) : k4_pay1 (F := Ideal) x = Cert.Spec.lsm (x : Cert.Spec.Mat 64 32000) :=
  funext fun j => by
    obtain ⟨p, q, rfl⟩ : ∃ (p : Fin 64) (q : Fin 32000), j = ix2 p q := ⟨j 0, j 1, eq_ix2 j⟩
    exact pay4_apply x p q

end Cert.KernelIdeal.Hand
end
-- ==== Proof.KI.R4Value.lean ====
import proofs.«131467_j38792144618188_2_alg».proof.Proof.KI.R4Body
import proofs.«131467_j38792144618188_2_alg».proof.Proof.KI.R4Pay
import proofs.«131467_j38792144618188_2_alg».proof.Proof.Spec
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-!
# What the log-softmax launch leaves in its result array

Point `t` writes back rows `64 t … 64 t + 63`; what it writes is the log-softmax of the same rows of the logits, and a
row's log-softmax reads that row only, so the block written is the block of the log-softmax of the whole array.  The 32
blocks cover the array: row `r` is in point `r / 64`'s block.
-/

variable (V : (c : Dev nD) → (b : Ref sig .tc) → Buf (Elt Ideal) ((c : Thread nD τ).loc b))

theorem zero_offsets : (![0, 0] : Fin 2 → Nat) = fun _ => 0 := funext fun a => by fin_cases a <;> rfl

/-- The two windows' block indices at point `t`: block row `t`, block column `0`. -/
theorem index_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- A log-softmax entry reads its own row only. -/
theorem lsmAt_congr {M M' N : ℕ} (z : Cert.Spec.Mat M N) (z' : Cert.Spec.Mat M' N) (m : Fin M) (m' : Fin M')
    (h : ∀ n, z (ix2 m n) = z' (ix2 m' n)) (n : Fin N) : Cert.Spec.lsmAt z m n = Cert.Spec.lsmAt z' m' n := by
  unfold Cert.Spec.lsmAt Cert.Spec.rowMax
  simp only [h]

/-- What point `t` writes back is block `t` of the log-softmax of the logits as the launch finds them. -/
theorem flushed4_eq (c : Dev nD) (t : Fin cfg4.N) :
    (dat4 (F := Ideal) V c).flushed 1 t = ((cfg4.win 1).blk t).view.read (Elt Ideal) (Cert.Spec.lsm (V c main_v32)) := by
  show (cfg4.win 1).cut (grid4.coords t) ((dat4 V c).after 1 t) = _
  rw [after4_1]
  unfold out4_1
  rw [View.canon_unit_zero zero_offsets]
  simp only [View.ld_unit_zero (S := S64x32000) zero_offsets]
  obtain ⟨e0, e1, e2, e3⟩ := index_facts4 t
  have hN : cfg4.N = 32 := N_4
  funext j
  obtain ⟨p, q, rfl⟩ : ∃ (p : Fin 64) (q : Fin 32000), j = ix2 p q := ⟨j 0, j 1, eq_ix2 j⟩
  have hrow : t.val * 64 + p.val < 2048 := by have := t.isLt; have := p.isLt; omega
  show k4_pay1 (F := Ideal) (iblk4 V c 0 t) (ix2 p q) = Cert.Spec.lsm (V c main_v32) (((cfg4.win 1).blk t).view.emb (ix2 p q))
  have hi : ((cfg4.win 1).blk t).view.emb (ix2 p q) = ix2 (⟨t.val * 64 + p.val, hrow⟩ : Fin 2048) q := by
    funext a; apply Fin.ext
    match a with
    | ⟨0, _⟩ => show win4_1.index t (0 : Fin 2) * 64 + 1 * p.val = t.val * 64 + p.val; rw [e2]; omega
    | ⟨1, _⟩ => show win4_1.index t (1 : Fin 2) * 32000 + 1 * q.val = q.val; rw [e3]; omega
  rw [hi]
  refine (pay4_apply _ p q).trans ?_
  show Cert.Spec.lsmAt _ p q = Cert.Spec.lsmAt (V c main_v32) (⟨t.val * 64 + p.val, hrow⟩ : Fin 2048) q
  refine lsmAt_congr _ _ _ _ (fun n => ?_) q
  show V c main_v32 (((cfg4.win 0).blk t).view.emb (ix2 p n)) = V c main_v32 (ix2 (⟨t.val * 64 + p.val, hrow⟩ : Fin 2048) n)
  refine congrArg _ ?_
  funext a; apply Fin.ext
  match a with
  | ⟨0, _⟩ => show win4_0.index t (0 : Fin 2) * 64 + 1 * p.val = t.val * 64 + p.val; rw [e0]; omega
  | ⟨1, _⟩ => show win4_0.index t (1 : Fin 2) * 32000 + 1 * n.val = n.val; rw [e1]; omega

/-- An index of the result array is in point `t`'s block iff each coordinate is in the block's range on its axis. -/
theorem mem_blk4 (t : Fin cfg4.N) (i : S2048x32000.Idx) :
    i ∈ ((cfg4.win 1).blk t).view.set ↔ ∀ a : Fin 2, win4_1.index t a * S64x32000.size a ≤ (i a).val ∧ (i a).val < win4_1.index t a * S64x32000.size a + S64x32000.size a := by
  show i ∈ ((View.whole main_v33).slice (win4_1.rect t)).set ↔ _
  rw [View.set_slice_whole, Rect.mem_set_unit]
  exact Iff.rfl

/-- The result array after the launch: the row-wise log-softmax of the logits. -/
theorem final4 (c : Dev nD) : (dat4 (F := Ideal) V c).arrAt 1 cfg4.N = Cert.Spec.lsm (V c main_v32) :=
  (dat4 V c).arrAt_eq_of_cover 1 (Cert.Spec.lsm (V c main_v32)) (fun t _ => flushed4_eq V c t) fun i => by
    have hN : cfg4.N = 32 := N_4
    have hi0 : (i 0).val < 2048 := (i 0).isLt
    have hi1 : (i 1).val < 32000 := (i 1).isLt
    have ht : (i 0).val / 64 < cfg4.N := by rw [hN]; omega
    obtain ⟨-, -, e2, e3⟩ := index_facts4 ⟨(i 0).val / 64, ht⟩
    have e2' : win4_1.index ⟨(i 0).val / 64, ht⟩ (0 : Fin 2) = (i 0).val / 64 := e2
    refine ⟨⟨(i 0).val / 64, ht⟩, flush4_1 _, ?_⟩
    rw [mem_blk4]
    intro a
    match a with
    | ⟨0, _⟩ =>
      show win4_1.index ⟨(i 0).val / 64, ht⟩ (0 : Fin 2) * 64 ≤ (i 0).val ∧ (i 0).val < win4_1.index ⟨(i 0).val / 64, ht⟩ (0 : Fin 2) * 64 + 64
      rw [e2']; omega
    | ⟨1, _⟩ =>
      show win4_1.index ⟨(i 0).val / 64, ht⟩ (1 : Fin 2) * 32000 ≤ (i 1).val ∧ (i 1).val < win4_1.index ⟨(i 0).val / 64, ht⟩ (1 : Fin 2) * 32000 + 32000
      rw [e3]; omega

end Cert.KernelIdeal.Hand

end
-- ==== Proof.Math.KernelHost.lean ====
/-
  The host operations of the kernel's program, read at an index, on extended reals.

  Before the first launch the program squares each weight matrix entrywise, sums every row, takes the square root,
  divides the gains by these row lengths, converts the input and the four weight matrices to a narrower float format
  and lays the first scale vector and the first bias out as one-row matrices.  On extended reals the conversions are
  the identity, a row sum is the finite sum over the row's entries, and the quotient and the root are the extended
  reals' own: the vector the program leaves for layer `l` is, at `n`, the scale `g n / ‖v n‖` of weight row `n`.
  Before each later launch two more vectors are laid out as one-row matrices; entry `(0, n)` of such a matrix is
  entry `n` of the vector.
-/
import proofs.«131467_j38792144618188_2_alg».proof.Proof.Gen.KernelIdeal.Launch
import proofs.«131467_j38792144618188_2_alg».proof.Proof.Spec
import Idealize.ShloMosaic.Lib.StableHlo.Run
import Idealize.ShloMosaic.Lib.ValueLayout

noncomputable section

namespace Cert.Proof.KernelHost

open Idealize.ShloMosaic Idealize.ShloMosaic.ValueIdx Idealize.ShloMosaic.TcCoe Cert.KernelIdeal Cert.Spec

/-! ## Row sums of squares and the scale, for a matrix of any extents -/

/-- The row sums of the entrywise square, from the zero word, at `n`: the squared length of row `n`. -/
theorem rowSumSq_apply {N K : Nat} (v : Mat N K) (h' : (⟨2, ![N, K]⟩ : Shape).ReducesTo [1] ⟨1, ![N]⟩)
    (h : (⟨2, ![N, K]⟩ : Shape).Reduces [1] ⟨1, ![N]⟩) (hu : 0 < S_.numel) (n : Fin N) :
    Host.reduceAdd (F := Ideal) (φ := .f32) (mulf (F := Ideal) (s := ⟨2, ![N, K]⟩) (φ := .f32) v v)
      (constant (F := Ideal) S_ .f32 0x00000000#32) h' hu (ix1 n) = normSq v n := by
  show Ideal.hostReduceAdd h' (mulf (F := Ideal) (s := ⟨2, ![N, K]⟩) (φ := .f32) v v) (Ideal.ofBits .f32 0x00000000#32) (ix1 n) = _
  rw [Ideal.hostReduceAdd_single h' h, Ideal.ofBits_zero_f32, zero_add]
  unfold normSq
  refine Finset.sum_congr rfl fun k _ => ?_
  have e : h.lift (ix1 n) k = ix2 n k := by
    funext c; match c with | ⟨0, _⟩ => rfl | ⟨1, _⟩ => rfl
  rw [e]; rfl

/-- The gains divided by the square roots of those row sums, at `n`: the scale of row `n`. -/
theorem scale_host {N K : Nat} (g : Row N) (v : Mat N K) (h' : (⟨2, ![N, K]⟩ : Shape).ReducesTo [1] ⟨1, ![N]⟩)
    (h : (⟨2, ![N, K]⟩ : Shape).Reduces [1] ⟨1, ![N]⟩) (hu : 0 < S_.numel) (n : Fin N) :
    Host.divf (F := Ideal) (s := ⟨1, ![N]⟩) (φ := .f32) g
      (Host.sqrt (Host.reduceAdd (F := Ideal) (φ := .f32) (mulf (F := Ideal) (s := ⟨2, ![N, K]⟩) (φ := .f32) v v)
        (constant (F := Ideal) S_ .f32 0x00000000#32) h' hu)) (ix1 n) = scale g v n := by
  show Ideal.div (g (ix1 n)) (Ideal.sqrt (Host.reduceAdd (F := Ideal) (φ := .f32)
    (mulf (F := Ideal) (s := ⟨2, ![N, K]⟩) (φ := .f32) v v) (constant (F := Ideal) S_ .f32 0x00000000#32) h' hu (ix1 n))) = _
  rw [rowSumSq_apply v h' h hu n]; rfl

/-! ## The operations before the first launch -/

/-- The cast of `main_arg0` to the narrower format is `main_arg0` itself: a change of format is the identity on extended reals. -/
theorem after0_v20 (W : Valuation τ sig (Elt Ideal)) :
    (StableHlo.after (Gen.hostOps0 (F := Ideal)) W (Proc.devRef .tc main_v20) : S2048x2048.Idx → EReal) = W (Proc.devRef .tc main_arg0) := by
  dsimp only [Gen.hostOps0]
  after_results_simp
  rfl

/-- The cast of `main_arg1` to the narrower format is `main_arg1` itself: a change of format is the identity on extended reals. -/
theorem after0_v16 (W : Valuation τ sig (Elt Ideal)) :
    (StableHlo.after (Gen.hostOps0 (F := Ideal)) W (Proc.devRef .tc main_v16) : S4096x2048.Idx → EReal) = W (Proc.devRef .tc main_arg1) := by
  dsimp only [Gen.hostOps0]
  after_results_simp
  rfl

/-- The cast of `main_arg4` to the narrower format is `main_arg4` itself: a change of format is the identity on extended reals. -/
theorem after0_v17 (W : Valuation τ sig (Elt Ideal)) :
    (StableHlo.after (Gen.hostOps0 (F := Ideal)) W (Proc.devRef .tc main_v17) : S4096x4096.Idx → EReal) = W (Proc.devRef .tc main_arg4) := by
  dsimp only [Gen.hostOps0]
  after_results_simp
  rfl

/-- The cast of `main_arg7` to the narrower format is `main_arg7` itself: a change of format is the identity on extended reals. -/
theorem after0_v18 (W : Valuation τ sig (Elt Ideal)) :
    (StableHlo.after (Gen.hostOps0 (F := Ideal)) W (Proc.devRef .tc main_v18) : S4096x4096.Idx → EReal) = W (Proc.devRef .tc main_arg7) := by
  dsimp only [Gen.hostOps0]
  after_results_simp
  rfl

/-- The cast of `main_arg10` to the narrower format is `main_arg10` itself: a change of format is the identity on extended reals. -/
theorem after0_v19 (W : Valuation τ sig (Elt Ideal)) :
    (StableHlo.after (Gen.hostOps0 (F := Ideal)) W (Proc.devRef .tc main_v19) : S32000x4096.Idx → EReal) = W (Proc.devRef .tc main_arg10) := by
  dsimp only [Gen.hostOps0]
  after_results_simp
  rfl

/-- The first layer's scale vector laid out as a one-row matrix: entry `(0, n)` is the scale of weight row `n`. -/
theorem after0_v21 (W : Valuation τ sig (Elt Ideal)) :
    (StableHlo.after (Gen.hostOps0 (F := Ideal)) W (Proc.devRef .tc main_v21) : S1x4096.Idx → EReal)
      = fun j => scale (W (Proc.devRef .tc main_arg2)) (W (Proc.devRef .tc main_arg1)) (j 1) := by
  dsimp only [Gen.hostOps0]
  after_results_simp
  funext j
  obtain ⟨u, n, rfl⟩ : ∃ (u : Fin 1) (n : Fin 4096), j = ix2 u n := ⟨j 0, j 1, eq_ix2 j⟩
  refine (shapeCast_a_1a_apply _ _ u n).trans ?_
  exact scale_host (W (Proc.devRef .tc main_arg2)) (W (Proc.devRef .tc main_arg1)) Gen.reducesTo_S4096x2048_S4096_d1 (by decide) Gen.h_S_ n

/-- The first layer's bias laid out as a one-row matrix: entry `(0, n)` is entry `n` of the bias. -/
theorem after0_v22 (W : Valuation τ sig (Elt Ideal)) :
    (StableHlo.after (Gen.hostOps0 (F := Ideal)) W (Proc.devRef .tc main_v22) : S1x4096.Idx → EReal)
      = fun j => W (Proc.devRef .tc main_arg3) (ix1 (j 1)) := by
  dsimp only [Gen.hostOps0]
  after_results_simp
  funext j
  obtain ⟨u, n, rfl⟩ : ∃ (u : Fin 1) (n : Fin 4096), j = ix2 u n := ⟨j 0, j 1, eq_ix2 j⟩
  exact shapeCast_a_1a_apply (W (Proc.devRef .tc main_arg3)) _ u n

/-- The quotient of `main_arg5` by the row lengths of `main_arg4`, entry `n`: the scale of weight row `n`. -/
theorem after0_v7 (W : Valuation τ sig (Elt Ideal)) :
    (StableHlo.after (Gen.hostOps0 (F := Ideal)) W (Proc.devRef .tc main_v7) : S4096.Idx → EReal)
      = fun j => scale (W (Proc.devRef .tc main_arg5)) (W (Proc.devRef .tc main_arg4)) (j 0) := by
  dsimp only [Gen.hostOps0]
  after_results_simp
  funext j
  obtain ⟨n, rfl⟩ : ∃ n : Fin 4096, j = ix1 n := ⟨j 0, eq_ix1 j⟩
  exact scale_host (W (Proc.devRef .tc main_arg5)) (W (Proc.devRef .tc main_arg4)) Gen.reducesTo_S4096x4096_S4096_d1 (by decide) Gen.h_S_ n

/-- The quotient of `main_arg8` by the row lengths of `main_arg7`, entry `n`: the scale of weight row `n`. -/
theorem after0_v11 (W : Valuation τ sig (Elt Ideal)) :
    (StableHlo.after (Gen.hostOps0 (F := Ideal)) W (Proc.devRef .tc main_v11) : S4096.Idx → EReal)
      = fun j => scale (W (Proc.devRef .tc main_arg8)) (W (Proc.devRef .tc main_arg7)) (j 0) := by
  dsimp only [Gen.hostOps0]
  after_results_simp
  funext j
  obtain ⟨n, rfl⟩ : ∃ n : Fin 4096, j = ix1 n := ⟨j 0, eq_ix1 j⟩
  exact scale_host (W (Proc.devRef .tc main_arg8)) (W (Proc.devRef .tc main_arg7)) Gen.reducesTo_S4096x4096_S4096_d1 (by decide) Gen.h_S_ n

/-- The quotient of `main_arg11` by the row lengths of `main_arg10`, entry `n`: the scale of weight row `n`. -/
theorem after0_v15 (W : Valuation τ sig (Elt Ideal)) :
    (StableHlo.after (Gen.hostOps0 (F := Ideal)) W (Proc.devRef .tc main_v15) : S32000.Idx → EReal)
      = fun j => scale (W (Proc.devRef .tc main_arg11)) (W (Proc.devRef .tc main_arg10)) (j 0) := by
  dsimp only [Gen.hostOps0]
  after_results_simp
  funext j
  obtain ⟨n, rfl⟩ : ∃ n : Fin 32000, j = ix1 n := ⟨j 0, eq_ix1 j⟩
  exact scale_host (W (Proc.devRef .tc main_arg11)) (W (Proc.devRef .tc main_arg10)) Gen.reducesTo_S32000x4096_S32000_d1 (by decide) Gen.h_S_ n

/-! ## The two layouts before each later launch -/

/-- The second layer's scale vector laid out as a one-row matrix. -/
theorem after1_v24 (W : Valuation τ sig (Elt Ideal)) :
    (StableHlo.after (Gen.hostOps1 (F := Ideal)) W (Proc.devRef .tc main_v24) : S1x4096.Idx → EReal)
      = fun j => W (Proc.devRef .tc main_v7) (ix1 (j 1)) := by
  dsimp only [Gen.hostOps1]
  after_results_simp
  funext j
  obtain ⟨u, n, rfl⟩ : ∃ (u : Fin 1) (n : Fin 4096), j = ix2 u n := ⟨j 0, j 1, eq_ix2 j⟩
  exact shapeCast_a_1a_apply (W (Proc.devRef .tc main_v7)) _ u n

/-- The second layer's bias laid out as a one-row matrix. -/
theorem after1_v25 (W : Valuation τ sig (Elt Ideal)) :
    (StableHlo.after (Gen.hostOps1 (F := Ideal)) W (Proc.devRef .tc main_v25) : S1x4096.Idx → EReal)
      = fun j => W (Proc.devRef .tc main_arg6) (ix1 (j 1)) := by
  dsimp only [Gen.hostOps1]
  after_results_simp
  funext j
  obtain ⟨u, n, rfl⟩ : ∃ (u : Fin 1) (n : Fin 4096), j = ix2 u n := ⟨j 0, j 1, eq_ix2 j⟩
  exact shapeCast_a_1a_apply (W (Proc.devRef .tc main_arg6)) _ u n

/-- The third layer's scale vector laid out as a one-row matrix. -/
theorem after2_v27 (W : Valuation τ sig (Elt Ideal)) :
    (StableHlo.after (Gen.hostOps2 (F := Ideal)) W (Proc.devRef .tc main_v27) : S1x4096.Idx → EReal)
      = fun j => W (Proc.devRef .tc main_v11) (ix1 (j 1)) := by
  dsimp only [Gen.hostOps2]
  after_results_simp
  funext j
  obtain ⟨u, n, rfl⟩ : ∃ (u : Fin 1) (n : Fin 4096), j = ix2 u n := ⟨j 0, j 1, eq_ix2 j⟩
  exact shapeCast_a_1a_apply (W (Proc.devRef .tc main_v11)) _ u n

/-- The third layer's bias laid out as a one-row matrix. -/
theorem after2_v28 (W : Valuation τ sig (Elt Ideal)) :
    (StableHlo.after (Gen.hostOps2 (F := Ideal)) W (Proc.devRef .tc main_v28) : S1x4096.Idx → EReal)
      = fun j => W (Proc.devRef .tc main_arg9) (ix1 (j 1)) := by
  dsimp only [Gen.hostOps2]
  after_results_simp
  funext j
  obtain ⟨u, n, rfl⟩ : ∃ (u : Fin 1) (n : Fin 4096), j = ix2 u n := ⟨j 0, j 1, eq_ix2 j⟩
  exact shapeCast_a_1a_apply (W (Proc.devRef .tc main_arg9)) _ u n

/-- The last layer's scale vector laid out as a one-row matrix. -/
theorem after3_v30 (W : Valuation τ sig (Elt Ideal)) :
    (StableHlo.after (Gen.hostOps3 (F := Ideal)) W (Proc.devRef .tc main_v30) : S1x32000.Idx → EReal)
      = fun j => W (Proc.devRef .tc main_v15) (ix1 (j 1)) := by
  dsimp only [Gen.hostOps3]
  after_results_simp
  funext j
  obtain ⟨u, n, rfl⟩ : ∃ (u : Fin 1) (n : Fin 32000), j = ix2 u n := ⟨j 0, j 1, eq_ix2 j⟩
  exact shapeCast_a_1a_apply (W (Proc.devRef .tc main_v15)) _ u n

/-- The last layer's bias laid out as a one-row matrix. -/
theorem after3_v31 (W : Valuation τ sig (Elt Ideal)) :
    (StableHlo.after (Gen.hostOps3 (F := Ideal)) W (Proc.devRef .tc main_v31) : S1x32000.Idx → EReal)
      = fun j => W (Proc.devRef .tc main_arg12) (ix1 (j 1)) := by
  dsimp only [Gen.hostOps3]
  after_results_simp
  funext j
  obtain ⟨u, n, rfl⟩ : ∃ (u : Fin 1) (n : Fin 32000), j = ix2 u n := ⟨j 0, j 1, eq_ix2 j⟩
  exact shapeCast_a_1a_apply (W (Proc.devRef .tc main_arg12)) _ u n

end Cert.Proof.KernelHost

end
-- ==== Proof.Math.MmLaw.lean ====
/-
  A matrix-product launch fed the scale and the bias as one-row matrices computes the layer with the inner product
  scaled once.

  A launch multiplies the inner product of input row `m` and weight row `n` by entry `(0, n)` of its scale operand and
  adds entry `(0, n)` of its bias operand.  When the scale operand is the row `n ↦ g n / ‖w n‖` and the bias operand the
  row `n ↦ b n`, those entries are the scale of weight row `n` and `b n`, and the launch's entry `(m, n)` is the
  layer's, term for term.
-/
import proofs.«131467_j38792144618188_2_alg».proof.Proof.Spec

noncomputable section

namespace Cert.Spec

open Idealize.ShloMosaic Idealize.ShloMosaic.ValueIdx

/-- One entry of the launch, with the scale row and the bias row as operands, is the layer's entry. -/
theorem mmAt_rows {M N K : Nat} (x : Mat M K) (w : Mat N K) (g b : Row N) (m : Fin M) (n : Fin N) :
    mmAt x w (fun j => scale g w (j 1)) (fun j => b (ix1 (j 1))) m n = linKAt x w g b m n := rfl

/-- A launch with the rectifier is the rectified layer. -/
theorem mmAct_rows {M N K : Nat} (x : Mat M K) (w : Mat N K) (g b : Row N) :
    mmAct x w (fun j => scale g w (j 1)) (fun j => b (ix1 (j 1))) = act (linK x w g b) :=
  funext fun j => congrArg leaky (mmAt_rows x w g b (j 0) (j 1))

/-- A launch without the rectifier is the layer. -/
theorem mmLin_rows {M N K : Nat} (x : Mat M K) (w : Mat N K) (g b : Row N) :
    mmLin x w (fun j => scale g w (j 1)) (fun j => b (ix1 (j 1))) = linK x w g b :=
  funext fun j => mmAt_rows x w g b (j 0) (j 1)

/-- Equal operands, equal launches. -/
theorem mmAct_congr {M N K : Nat} {x x' : Mat M K} {w w' : Mat N K} {s s' b b' : Mat 1 N}
    (hx : x = x') (hw : w = w') (hs : s = s') (hb : b = b') : mmAct x w s b = mmAct x' w' s' b' := by
  subst hx hw hs hb; rfl

theorem mmLin_congr {M N K : Nat} {x x' : Mat M K} {w w' : Mat N K} {s s' b b' : Mat 1 N}
    (hx : x = x') (hw : w = w') (hs : s = s') (hb : b = b') : mmLin x w s b = mmLin x' w' s' b' := by
  subst hx hw hs hb; rfl

end Cert.Spec

end
-- ==== Proof.KI.KValue.lean ====
/-
  What the kernel program computes: the network with each layer's inner product scaled once.

  The program's buffers are followed from boundary to boundary.  Before the first launch the host operations leave
  the input, the four weight matrices (their casts are the identity on extended reals), and for each layer the vector
  of scales `g n / ‖v n‖`; the first scale vector and the first bias are laid out as one-row matrices.  A launch
  rewrites only its own output array, and the two layout operations before each later launch write only the two
  one-row matrices that launch reads; so every operand a launch reads is either the previous launch's output or goes
  back, unchanged, to the host operations before the first launch or to the arguments.  With the scale row and the
  bias row as operands a launch computes the layer (rectified for the three hidden layers), so the four launches
  compose to the four layers and the last launch applies the row-wise log-softmax.
-/
import proofs.«131467_j38792144618188_2_alg».proof.Proof.KI.Assembly
import proofs.«131467_j38792144618188_2_alg».proof.Proof.KI.R0Value
import proofs.«131467_j38792144618188_2_alg».proof.Proof.KI.R1Value
import proofs.«131467_j38792144618188_2_alg».proof.Proof.KI.R2Value
import proofs.«131467_j38792144618188_2_alg».proof.Proof.KI.R3Value
import proofs.«131467_j38792144618188_2_alg».proof.Proof.KI.R4Value
import proofs.«131467_j38792144618188_2_alg».proof.Proof.Math.KernelHost
import proofs.«131467_j38792144618188_2_alg».proof.Proof.Math.MmLaw
import proofs.«131467_j38792144618188_2_alg».proof.Proof.Spec

noncomputable section

namespace Cert.KernelIdeal.Hand

open Cert.KernelIdeal Cert.KernelIdeal.Gen Cert.Spec Cert.Proof.KernelHost
open Idealize.ShloMosaic Idealize.ShloMosaic.TcCoe Idealize.ShloMosaic.ValueIdx Idealize.SL.Sem

variable (m : (ℓ : Loc nD τ sig) → Buf (Elt Ideal) ℓ) (c : Dev nD)

/-! ## The arguments, typed as the matrices and vectors they are -/

abbrev ax : Mat 2048 2048 := (m ((c.tc : Thread nD τ).loc main_arg0))
abbrev av0 : Mat 4096 2048 := (m ((c.tc : Thread nD τ).loc main_arg1))
abbrev ag0 : Row 4096 := (m ((c.tc : Thread nD τ).loc main_arg2))
abbrev ab0 : Row 4096 := (m ((c.tc : Thread nD τ).loc main_arg3))
abbrev av1 : Mat 4096 4096 := (m ((c.tc : Thread nD τ).loc main_arg4))
abbrev ag1 : Row 4096 := (m ((c.tc : Thread nD τ).loc main_arg5))
abbrev ab1 : Row 4096 := (m ((c.tc : Thread nD τ).loc main_arg6))
abbrev av2 : Mat 4096 4096 := (m ((c.tc : Thread nD τ).loc main_arg7))
abbrev ag2 : Row 4096 := (m ((c.tc : Thread nD τ).loc main_arg8))
abbrev ab2 : Row 4096 := (m ((c.tc : Thread nD τ).loc main_arg9))
abbrev av3 : Mat 32000 4096 := (m ((c.tc : Thread nD τ).loc main_arg10))
abbrev ag3 : Row 32000 := (m ((c.tc : Thread nD τ).loc main_arg11))
abbrev ab3 : Row 32000 := (m ((c.tc : Thread nD τ).loc main_arg12))

/-! ## A buffer a stretch of host operations does not write, or that is no array of a launch, keeps its contents -/

theorem keep1 (b : Ref sig .tc) (h : b ∉ hostOps0_W) : W1 m c (Proc.devRef .tc b) = W0 m c (Proc.devRef .tc b) :=
  StableHlo.after_of_writes_sub hostOps0 _ hostOps0_writes h
theorem keep3 (b : Ref sig .tc) (h : b ∉ hostOps1_W) : W3 m c (Proc.devRef .tc b) = W2 m c (Proc.devRef .tc b) :=
  StableHlo.after_of_writes_sub hostOps1 _ hostOps1_writes h
theorem keep5 (b : Ref sig .tc) (h : b ∉ hostOps2_W) : W5 m c (Proc.devRef .tc b) = W4 m c (Proc.devRef .tc b) :=
  StableHlo.after_of_writes_sub hostOps2 _ hostOps2_writes h
theorem keep7 (b : Ref sig .tc) (h : b ∉ hostOps3_W) : W7 m c (Proc.devRef .tc b) = W6 m c (Proc.devRef .tc b) :=
  StableHlo.after_of_writes_sub hostOps3 _ hostOps3_writes h

/-- From the second launch's exit back to the first launch's entry. -/
theorem W4_back (b : Ref sig .tc) (a0 : ∀ w, Pipeline.arrRef spec0 w ≠ b) (h1 : b ∉ hostOps1_W)
    (a1 : ∀ w, Pipeline.arrRef spec1 w ≠ b) : W4 m c (Proc.devRef .tc b) = W1 m c (Proc.devRef .tc b) :=
  (W4_of_ne m c b a1).trans ((keep3 m c b h1).trans (W2_of_ne m c b a0))
/-- From the third launch's exit back to the first launch's entry. -/
theorem W6_back (b : Ref sig .tc) (a0 : ∀ w, Pipeline.arrRef spec0 w ≠ b) (h1 : b ∉ hostOps1_W)
    (a1 : ∀ w, Pipeline.arrRef spec1 w ≠ b) (h2 : b ∉ hostOps2_W) (a2 : ∀ w, Pipeline.arrRef spec2 w ≠ b) :
    W6 m c (Proc.devRef .tc b) = W1 m c (Proc.devRef .tc b) :=
  (W6_of_ne m c b a2).trans ((keep5 m c b h2).trans (W4_back m c b a0 h1 a1))

/-! ## The first launch -/

/-- The first launch leaves the first layer, rectified. -/
theorem out0 : (W2 m c (Proc.devRef .tc main_v23) : Mat 2048 4096) = act (linK (ax m c) (av0 m c) (ag0 m c) (ab0 m c)) := by
  refine ((W2_arr m c 4).trans (final0 (E1 m) c)).trans ?_
  exact (mmAct_congr (after0_v20 (W0 m c)) (after0_v16 (W0 m c)) (after0_v21 (W0 m c)) (after0_v22 (W0 m c))).trans
    (mmAct_rows _ _ _ _)

/-! ## The second launch -/

theorem in1_x : (E3 m c main_v23 : Mat 2048 4096) = W2 m c (Proc.devRef .tc main_v23) := keep3 m c main_v23 (by decide)
theorem in1_w : (E3 m c main_v17 : Mat 4096 4096) = av1 m c :=
  ((keep3 m c main_v17 (by decide)).trans (W2_of_ne m c main_v17 (by decide))).trans (after0_v17 (W0 m c))
theorem in1_s : (E3 m c main_v24 : Mat 1 4096) = fun j => scale (ag1 m c) (av1 m c) (j 1) := by
  have e : (W2 m c (Proc.devRef .tc main_v7) : S4096.Idx → EReal) = fun i => scale (ag1 m c) (av1 m c) (i 0) :=
    (W2_of_ne m c main_v7 (by decide)).trans (after0_v7 (W0 m c))
  exact (after1_v24 (W2 m c)).trans (funext fun j => congrFun e (ix1 (j 1)))
theorem in1_b : (E3 m c main_v25 : Mat 1 4096) = fun j => ab1 m c (ix1 (j 1)) := by
  have e : (W2 m c (Proc.devRef .tc main_arg6) : S4096.Idx → EReal) = ab1 m c :=
    (W2_of_ne m c main_arg6 (by decide)).trans (keep1 m c main_arg6 (by decide))
  exact (after1_v25 (W2 m c)).trans (funext fun j => congrFun e (ix1 (j 1)))

/-- The second launch leaves the second layer of what the first left, rectified. -/
theorem out1 {h0 : Mat 2048 4096} (e0 : (W2 m c (Proc.devRef .tc main_v23) : Mat 2048 4096) = h0) :
    (W4 m c (Proc.devRef .tc main_v26) : Mat 2048 4096) = act (linK h0 (av1 m c) (ag1 m c) (ab1 m c)) := by
  refine ((W4_arr m c 4).trans (final1 (E3 m) c)).trans ?_
  exact (mmAct_congr ((in1_x m c).trans e0) (in1_w m c) (in1_s m c) (in1_b m c)).trans (mmAct_rows _ _ _ _)

/-! ## The third launch -/

theorem in2_x : (E5 m c main_v26 : Mat 2048 4096) = W4 m c (Proc.devRef .tc main_v26) := keep5 m c main_v26 (by decide)
theorem in2_w : (E5 m c main_v18 : Mat 4096 4096) = av2 m c :=
  ((keep5 m c main_v18 (by decide)).trans (W4_back m c main_v18 (by decide) (by decide) (by decide))).trans
    (after0_v18 (W0 m c))
theorem in2_s : (E5 m c main_v27 : Mat 1 4096) = fun j => scale (ag2 m c) (av2 m c) (j 1) := by
  have e : (W4 m c (Proc.devRef .tc main_v11) : S4096.Idx → EReal) = fun i => scale (ag2 m c) (av2 m c) (i 0) :=
    (W4_back m c main_v11 (by decide) (by decide) (by decide)).trans (after0_v11 (W0 m c))
  exact (after2_v27 (W4 m c)).trans (funext fun j => congrFun e (ix1 (j 1)))
theorem in2_b : (E5 m c main_v28 : Mat 1 4096) = fun j => ab2 m c (ix1 (j 1)) := by
  have e : (W4 m c (Proc.devRef .tc main_arg9) : S4096.Idx → EReal) = ab2 m c :=
    (W4_back m c main_arg9 (by decide) (by decide) (by decide)).trans (keep1 m c main_arg9 (by decide))
  exact (after2_v28 (W4 m c)).trans (funext fun j => congrFun e (ix1 (j 1)))

/-- The third launch leaves the third layer of what the second left, rectified. -/
theorem out2 {h1 : Mat 2048 4096} (e1 : (W4 m c (Proc.devRef .tc main_v26) : Mat 2048 4096) = h1) :
    (W6 m c (Proc.devRef .tc main_v29) : Mat 2048 4096) = act (linK h1 (av2 m c) (ag2 m c) (ab2 m c)) := by
  refine ((W6_arr m c 4).trans (final2 (E5 m) c)).trans ?_
  exact (mmAct_congr ((in2_x m c).trans e1) (in2_w m c) (in2_s m c) (in2_b m c)).trans (mmAct_rows _ _ _ _)

/-! ## The fourth launch -/

theorem in3_x : (E7 m c main_v29 : Mat 2048 4096) = W6 m c (Proc.devRef .tc main_v29) := keep7 m c main_v29 (by decide)
theorem in3_w : (E7 m c main_v19 : Mat 32000 4096) = av3 m c :=
  ((keep7 m c main_v19 (by decide)).trans
    (W6_back m c main_v19 (by decide) (by decide) (by decide) (by decide) (by decide))).trans (after0_v19 (W0 m c))
theorem in3_s : (E7 m c main_v30 : Mat 1 32000) = fun j => scale (ag3 m c) (av3 m c) (j 1) := by
  have e : (W6 m c (Proc.devRef .tc main_v15) : S32000.Idx → EReal) = fun i => scale (ag3 m c) (av3 m c) (i 0) :=
    (W6_back m c main_v15 (by decide) (by decide) (by decide) (by decide) (by decide)).trans (after0_v15 (W0 m c))
  exact (after3_v30 (W6 m c)).trans (funext fun j => congrFun e (ix1 (j 1)))
theorem in3_b : (E7 m c main_v31 : Mat 1 32000) = fun j => ab3 m c (ix1 (j 1)) := by
  have e : (W6 m c (Proc.devRef .tc main_arg12) : S32000.Idx → EReal) = ab3 m c :=
    (W6_back m c main_arg12 (by decide) (by decide) (by decide) (by decide) (by decide)).trans
      (keep1 m c main_arg12 (by decide))
  exact (after3_v31 (W6 m c)).trans (funext fun j => congrFun e (ix1 (j 1)))

/-- The fourth launch leaves the last layer of what the third left (no rectifier). -/
theorem out3 {h2 : Mat 2048 4096} (e2 : (W6 m c (Proc.devRef .tc main_v29) : Mat 2048 4096) = h2) :
    (W8 m c (Proc.devRef .tc main_v32) : Mat 2048 32000) = linK h2 (av3 m c) (ag3 m c) (ab3 m c) := by
  refine ((W8_arr m c 4).trans (final3 (E7 m) c)).trans ?_
  exact (mmLin_congr ((in3_x m c).trans e2) (in3_w m c) (in3_s m c) (in3_b m c)).trans (mmLin_rows _ _ _ _)

/-! ## The last launch, and the whole program -/

/-- The last launch leaves the row-wise log-softmax of what the fourth left. -/
theorem out4 {z : Mat 2048 32000} (e3 : (W8 m c (Proc.devRef .tc main_v32) : Mat 2048 32000) = z) :
    (W9 m c (Proc.devRef .tc main_v33) : Mat 2048 32000) = lsm z := by
  refine ((W9_arr m c 1).trans (final4 (E8 m) c)).trans ?_
  exact congrArg lsm e3

/-- The result array at the end of the program: the network with each layer's inner product scaled once. -/
theorem value (m : (ℓ : Loc nD τ sig) → Buf (Elt Ideal) ℓ) (c : Dev nD) :
    (W9 m c (Proc.devRef .tc main_v33) : S2048x32000.Idx → EReal)
      = Cert.Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  out4 m c (out3 m c (out2 m c (out1 m c (out0 m c))))

end Cert.KernelIdeal.Hand

end
-- ==== Proof.Ref.Ops.lean ====
/-
  The reference program as a straight line of operations.

  The reference's entry function is two windows of host operations with four calls in them: the rectifier after each
  of the three hidden layers (itself calling the select) and the log-softmax at the end.  A call executes the callee's
  body on the operands, each value of the body in the buffer the call's record names for it, so the whole function is
  one line of ninety-five operations.  They are listed here in eight consecutive stretches — layer, rectifier, layer,
  rectifier, layer, rectifier, layer, log-softmax — and `main_eq` says the entry function is that line run in order.
  Each stretch comes with the two side conditions the run theorem asks of a line: every operation touches
  TensorCore buffers only, and none allocates.
-/
import proofs.«131467_j38792144618188_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer: the squares of the weight entries, their row sums from zero, the square roots, the gains over them, the scaled weight, its transpose, the product with the input, the bias laid along the rows and added. -/
abbrev opsL1 : List (HloOp τ sig (Elt F)) :=
  [ StableHlo.binary main_arg1 main_arg1 main_v0 (mulf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x00000000#32),
    StableHlo.binary main_v0 main_cst main_v1 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v2 main_v3 (Host.sqrt : (⟨S4096x1, .f32⟩ : BufTy).Contents (Elt F) → (⟨S4096x1, .f32⟩ : BufTy).Contents (Elt F)),
    StableHlo.unary main_arg2 main_v4 (broadcastInDim S4096x1 ![0] bcast_S4096_S4096x1_0 : (⟨S4096, .f32⟩ : BufTy).Contents (Elt F) → (⟨S4096x1, .f32⟩ : BufTy).Contents (Elt F)),
    StableHlo.binary main_v4 main_v3 main_v5 (Host.divf : (⟨S4096x1, .f32⟩ : BufTy).Contents (Elt F) → (⟨S4096x1, .f32⟩ : BufTy).Contents (Elt F) → (⟨S4096x1, .f32⟩ : BufTy).Contents (Elt F)),
    StableHlo.unary main_v5 main_v6 (broadcastInDim S4096x2048 ![0, 1] bcast_S4096x1_S4096x2048_0_1 : (⟨S4096x1, .f32⟩ : BufTy).Contents (Elt F) → (⟨S4096x2048, .f32⟩ : BufTy).Contents (Elt F)),
    StableHlo.binary main_arg1 main_v6 main_v7 (mulf : (⟨S4096x2048, .f32⟩ : BufTy).Contents (Elt F) → (⟨S4096x2048, .f32⟩ : BufTy).Contents (Elt F) → (⟨S4096x2048, .f32⟩ : BufTy).Contents (Elt F)),
    StableHlo.unary main_v7 main_v8 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v8 main_v9 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    StableHlo.unary main_arg3 main_v10 (broadcastInDim S1x4096 ![1] bcast_S4096_S1x4096_1 : (⟨S4096, .f32⟩ : BufTy).Contents (Elt F) → (⟨S1x4096, .f32⟩ : BufTy).Contents (Elt F)),
    StableHlo.unary main_v10 main_v11 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v9 main_v11 main_v12 (addf : (⟨S2048x4096, .f32⟩ : BufTy).Contents (Elt F) → (⟨S2048x4096, .f32⟩ : BufTy).Contents (Elt F) → (⟨S2048x4096, .f32⟩ : BufTy).Contents (Elt F)) ]

/-- The slope constant and the rectifier after the first layer: the zero laid over the shape, the comparison, the slope laid over the shape and multiplied in, the select. -/
abbrev opsA1 : List (HloOp τ sig (Elt F)) :=
  [ StableHlo.nullary main_cst_0 (constant S_ .f32 0x3C23D70A#32),
    StableHlo.TRef.nullary main_call0.cst (constant S_ .f32 0x00000000#32),
    StableHlo.TRef.unary main_call0.cst main_call0.v0 (broadcastInDim S2048x4096 ![] bcast_S_S2048x4096),
    StableHlo.TRef.binary (.of main_v12 : TRef sig ⟨S2048x4096, .f32⟩) main_call0.v0 main_call0.v1 (cmpf .oge),
    StableHlo.TRef.unary (.of main_cst_0 : TRef sig ⟨S_, .f32⟩) main_call0.v2 id,
    StableHlo.TRef.unary main_call0.v2 main_call0.v3 (broadcastInDim S2048x4096 ![] bcast_S_S2048x4096),
    StableHlo.TRef.binary main_call0.v3 (.of main_v12 : TRef sig ⟨S2048x4096, .f32⟩) main_call0.v4 mulf,
    StableHlo.TRef.ternary main_call0.v1 (.of main_v12 : TRef sig ⟨S2048x4096, .f32⟩) main_call0.v4 main_call0.call0.v0 select ]

/-- The second layer, the same fourteen operations on its own buffers. -/
abbrev opsL2 : List (HloOp τ sig (Elt F)) :=
  [ StableHlo.binary main_arg4 main_arg4 main_v14 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x00000000#32),
    StableHlo.binary main_v14 main_cst_1 main_v15 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v15 main_v16 (broadcastInDim S4096x1 ![0] bcast_S4096_S4096x1_0 : (⟨S4096, .f32⟩ : BufTy).Contents (Elt F) → (⟨S4096x1, .f32⟩ : BufTy).Contents (Elt F)),
    StableHlo.unary main_v16 main_v17 (Host.sqrt : (⟨S4096x1, .f32⟩ : BufTy).Contents (Elt F) → (⟨S4096x1, .f32⟩ : BufTy).Contents (Elt F)),
    StableHlo.unary main_arg5 main_v18 (broadcastInDim S4096x1 ![0] bcast_S4096_S4096x1_0 : (⟨S4096, .f32⟩ : BufTy).Contents (Elt F) → (⟨S4096x1, .f32⟩ : BufTy).Contents (Elt F)),
    StableHlo.binary main_v18 main_v17 main_v19 (Host.divf : (⟨S4096x1, .f32⟩ : BufTy).Contents (Elt F) → (⟨S4096x1, .f32⟩ : BufTy).Contents (Elt F) → (⟨S4096x1, .f32⟩ : BufTy).Contents (Elt F)),
    StableHlo.unary main_v19 main_v20 (broadcastInDim S4096x4096 ![0, 1] bcast_S4096x1_S4096x4096_0_1 : (⟨S4096x1, .f32⟩ : BufTy).Contents (Elt F) → (⟨S4096x4096, .f32⟩ : BufTy).Contents (Elt F)),
    StableHlo.binary main_arg4 main_v20 main_v21 (mulf : (⟨S4096x4096, .f32⟩ : BufTy).Contents (Elt F) → (⟨S4096x4096, .f32⟩ : BufTy).Contents (Elt F) → (⟨S4096x4096, .f32⟩ : BufTy).Contents (Elt F)),
    StableHlo.unary main_v21 main_v22 ((transpose S4096x4096 [1, 0] · transposes_S4096x4096_S4096x4096_1_0) : (⟨S4096x4096, .f32⟩ : BufTy).Contents (Elt F) → (⟨S4096x4096, .f32⟩ : BufTy).Contents (Elt F)),
    StableHlo.binary main_v13 main_v22 main_v23 ((fun l r => Host.dotGeneral dot_S2048x4096_S4096x4096_S2048x4096_1_0_0_1_n_n none l r) : (⟨S2048x4096, .f32⟩ : BufTy).Contents (Elt F) → (⟨S4096x4096, .f32⟩ : BufTy).Contents (Elt F) → (⟨S2048x4096, .f32⟩ : BufTy).Contents (Elt F)),
    StableHlo.unary main_arg6 main_v24 (broadcastInDim S1x4096 ![1] bcast_S4096_S1x4096_1 : (⟨S4096, .f32⟩ : BufTy).Contents (Elt F) → (⟨S1x4096, .f32⟩ : BufTy).Contents (Elt F)),
    StableHlo.unary main_v24 main_v25 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v23 main_v25 main_v26 (addf : (⟨S2048x4096, .f32⟩ : BufTy).Contents (Elt F) → (⟨S2048x4096, .f32⟩ : BufTy).Contents (Elt F) → (⟨S2048x4096, .f32⟩ : BufTy).Contents (Elt F)) ]

/-- The slope constant and the rectifier after the second layer. -/
abbrev opsA2 : List (HloOp τ sig (Elt F)) :=
  [ StableHlo.nullary main_cst_2 (constant S_ .f32 0x3C23D70A#32),
    StableHlo.TRef.nullary main_call1.cst (constant S_ .f32 0x00000000#32),
    StableHlo.TRef.unary main_call1.cst main_call1.v0 (broadcastInDim S2048x4096 ![] bcast_S_S2048x4096),
    StableHlo.TRef.binary (.of main_v26 : TRef sig ⟨S2048x4096, .f32⟩) main_call1.v0 main_call1.v1 (cmpf .oge),
    StableHlo.TRef.unary (.of main_cst_2 : TRef sig ⟨S_, .f32⟩) main_call1.v2 id,
    StableHlo.TRef.unary main_call1.v2 main_call1.v3 (broadcastInDim S2048x4096 ![] bcast_S_S2048x4096),
    StableHlo.TRef.binary main_call1.v3 (.of main_v26 : TRef sig ⟨S2048x4096, .f32⟩) main_call1.v4 mulf,
    StableHlo.TRef.ternary main_call1.v1 (.of main_v26 : TRef sig ⟨S2048x4096, .f32⟩) main_call1.v4 main_call1.call0.v0 select ]

/-- The third layer. -/
abbrev opsL3 : List (HloOp τ sig (Elt F)) :=
  [ StableHlo.binary main_arg7 main_arg7 main_v28 (mulf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x00000000#32),
    StableHlo.binary main_v28 main_cst_3 main_v29 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v29 main_v30 (broadcastInDim S4096x1 ![0] bcast_S4096_S4096x1_0 : (⟨S4096, .f32⟩ : BufTy).Contents (Elt F) → (⟨S4096x1, .f32⟩ : BufTy).Contents (Elt F)),
    StableHlo.unary main_v30 main_v31 (Host.sqrt : (⟨S4096x1, .f32⟩ : BufTy).Contents (Elt F) → (⟨S4096x1, .f32⟩ : BufTy).Contents (Elt F)),
    StableHlo.unary main_arg8 main_v32 (broadcastInDim S4096x1 ![0] bcast_S4096_S4096x1_0 : (⟨S4096, .f32⟩ : BufTy).Contents (Elt F) → (⟨S4096x1, .f32⟩ : BufTy).Contents (Elt F)),
    StableHlo.binary main_v32 main_v31 main_v33 (Host.divf : (⟨S4096x1, .f32⟩ : BufTy).Contents (Elt F) → (⟨S4096x1, .f32⟩ : BufTy).Contents (Elt F) → (⟨S4096x1, .f32⟩ : BufTy).Contents (Elt F)),
    StableHlo.unary main_v33 main_v34 (broadcastInDim S4096x4096 ![0, 1] bcast_S4096x1_S4096x4096_0_1 : (⟨S4096x1, .f32⟩ : BufTy).Contents (Elt F) → (⟨S4096x4096, .f32⟩ : BufTy).Contents (Elt F)),
    StableHlo.binary main_arg7 main_v34 main_v35 (mulf : (⟨S4096x4096, .f32⟩ : BufTy).Contents (Elt F) → (⟨S4096x4096, .f32⟩ : BufTy).Contents (Elt F) → (⟨S4096x4096, .f32⟩ : BufTy).Contents (Elt F)),
    StableHlo.unary main_v35 main_v36 ((transpose S4096x4096 [1, 0] · transposes_S4096x4096_S4096x4096_1_0) : (⟨S4096x4096, .f32⟩ : BufTy).Contents (Elt F) → (⟨S4096x4096, .f32⟩ : BufTy).Contents (Elt F)),
    StableHlo.binary main_v27 main_v36 main_v37 ((fun l r => Host.dotGeneral dot_S2048x4096_S4096x4096_S2048x4096_1_0_0_1_n_n none l r) : (⟨S2048x4096, .f32⟩ : BufTy).Contents (Elt F) → (⟨S4096x4096, .f32⟩ : BufTy).Contents (Elt F) → (⟨S2048x4096, .f32⟩ : BufTy).Contents (Elt F)),
    StableHlo.unary main_arg9 main_v38 (broadcastInDim S1x4096 ![1] bcast_S4096_S1x4096_1 : (⟨S4096, .f32⟩ : BufTy).Contents (Elt F) → (⟨S1x4096, .f32⟩ : BufTy).Contents (Elt F)),
    StableHlo.unary main_v38 main_v39 (broadcastInDim S2048x4096 ![0, 1] bcast_S1x4096_S2048x4096_0_1 : (⟨S1x4096, .f32⟩ : BufTy).Contents (Elt F) → (⟨S2048x4096, .f32⟩ : BufTy).Contents (Elt F)),
    StableHlo.binary main_v37 main_v39 main_v40 (addf : (⟨S2048x4096, .f32⟩ : BufTy).Contents (Elt F) → (⟨S2048x4096, .f32⟩ : BufTy).Contents (Elt F) → (⟨S2048x4096, .f32⟩ : BufTy).Contents (Elt F)) ]

/-- The slope constant and the rectifier after the third layer. -/
abbrev opsA3 : List (HloOp τ sig (Elt F)) :=
  [ StableHlo.nullary main_cst_4 (constant S_ .f32 0x3C23D70A#32),
    StableHlo.TRef.nullary main_call2.cst (constant S_ .f32 0x00000000#32),
    StableHlo.TRef.unary main_call2.cst main_call2.v0 (broadcastInDim S2048x4096 ![] bcast_S_S2048x4096),
    StableHlo.TRef.binary (.of main_v40 : TRef sig ⟨S2048x4096, .f32⟩) main_call2.v0 main_call2.v1 (cmpf .oge),
    StableHlo.TRef.unary (.of main_cst_4 : TRef sig ⟨S_, .f32⟩) main_call2.v2 id,
    StableHlo.TRef.unary main_call2.v2 main_call2.v3 (broadcastInDim S2048x4096 ![] bcast_S_S2048x4096),
    StableHlo.TRef.binary main_call2.v3 (.of main_v40 : TRef sig ⟨S2048x4096, .f32⟩) main_call2.v4 mulf,
    StableHlo.TRef.ternary main_call2.v1 (.of main_v40 : TRef sig ⟨S2048x4096, .f32⟩) main_call2.v4 main_call2.call0.v0 select ]

/-- The last layer. -/
abbrev opsL4 : List (HloOp τ sig (Elt F)) :=
  [ StableHlo.binary main_arg10 main_arg10 main_v42 (mulf : (⟨S32000x4096, .f32⟩ : BufTy).Contents (Elt F) → (⟨S32000x4096, .f32⟩ : BufTy).Contents (Elt F) → (⟨S32000x4096, .f32⟩ : BufTy).Contents (Elt F)),
    StableHlo.nullary main_cst_5 (constant S_ .f32 0x00000000#32),
    StableHlo.binary main_v42 main_cst_5 main_v43 ((fun x v => Host.reduceAdd x v reducesTo_S32000x4096_S32000_d1 h_S_) : (⟨S32000x4096, .f32⟩ : BufTy).Contents (Elt F) → (⟨S_, .f32⟩ : BufTy).Contents (Elt F) → (⟨S32000, .f32⟩ : BufTy).Contents (Elt F)),
    StableHlo.unary main_v43 main_v44 (broadcastInDim S32000x1 ![0] bcast_S32000_S32000x1_0 : (⟨S32000, .f32⟩ : BufTy).Contents (Elt F) → (⟨S32000x1, .f32⟩ : BufTy).Contents (Elt F)),
    StableHlo.unary main_v44 main_v45 (Host.sqrt : (⟨S32000x1, .f32⟩ : BufTy).Contents (Elt F) → (⟨S32000x1, .f32⟩ : BufTy).Contents (Elt F)),
    StableHlo.unary main_arg11 main_v46 (broadcastInDim S32000x1 ![0] bcast_S32000_S32000x1_0 : (⟨S32000, .f32⟩ : BufTy).Contents (Elt F) → (⟨S32000x1, .f32⟩ : BufTy).Contents (Elt F)),
    StableHlo.binary main_v46 main_v45 main_v47 (Host.divf : (⟨S32000x1, .f32⟩ : BufTy).Contents (Elt F) → (⟨S32000x1, .f32⟩ : BufTy).Contents (Elt F) → (⟨S32000x1, .f32⟩ : BufTy).Contents (Elt F)),
    StableHlo.unary main_v47 main_v48 (broadcastInDim S32000x4096 ![0, 1] bcast_S32000x1_S32000x4096_0_1 : (⟨S32000x1, .f32⟩ : BufTy).Contents (Elt F) → (⟨S32000x4096, .f32⟩ : BufTy).Contents (Elt F)),
    StableHlo.binary main_arg10 main_v48 main_v49 (mulf : (⟨S32000x4096, .f32⟩ : BufTy).Contents (Elt F) → (⟨S32000x4096, .f32⟩ : BufTy).Contents (Elt F) → (⟨S32000x4096, .f32⟩ : BufTy).Contents (Elt F)),
    StableHlo.unary main_v49 main_v50 ((transpose S4096x32000 [1, 0] · transposes_S32000x4096_S4096x32000_1_0) : (⟨S32000x4096, .f32⟩ : BufTy).Contents (Elt F) → (⟨S4096x32000, .f32⟩ : BufTy).Contents (Elt F)),
    StableHlo.binary main_v41 main_v50 main_v51 ((fun l r => Host.dotGeneral dot_S2048x4096_S4096x32000_S2048x32000_1_0_0_1_n_n none l r) : (⟨S2048x4096, .f32⟩ : BufTy).Contents (Elt F) → (⟨S4096x32000, .f32⟩ : BufTy).Contents (Elt F) → (⟨S2048x32000, .f32⟩ : BufTy).Contents (Elt F)),
    StableHlo.unary main_arg12 main_v52 (broadcastInDim S1x32000 ![1] bcast_S32000_S1x32000_1 : (⟨S32000, .f32⟩ : BufTy).Contents (Elt F) → (⟨S1x32000, .f32⟩ : BufTy).Contents (Elt F)),
    StableHlo.unary main_v52 main_v53 (broadcastInDim S2048x32000 ![0, 1] bcast_S1x32000_S2048x32000_0_1 : (⟨S1x32000, .f32⟩ : BufTy).Contents (Elt F) → (⟨S2048x32000, .f32⟩ : BufTy).Contents (Elt F)),
    StableHlo.binary main_v51 main_v53 main_v54 (addf : (⟨S2048x32000, .f32⟩ : BufTy).Contents (Elt F) → (⟨S2048x32000, .f32⟩ : BufTy).Contents (Elt F) → (⟨S2048x32000, .f32⟩ : BufTy).Contents (Elt F)) ]

/-- The row-wise log-softmax: the row maxima from minus infinity, the maxima subtracted, the exponentials, their row sums, the logarithms of the sums subtracted. -/
abbrev opsS : List (HloOp τ sig (Elt F)) :=
  [ StableHlo.TRef.nullary main_call3.cst (constant S_ .f32 0xFF800000#32),
    StableHlo.TRef.binary (.of main_v54 : TRef sig ⟨S2048x32000, .f32⟩) main_call3.cst main_call3.v0 (fun x v => Host.reduce FloatOps.maximumf x v reducesTo_S2048x32000_S2048_d1 h_S_),
    StableHlo.TRef.nullary main_call3.cst_0 (constant S_ .f32 0xFF800000#32),
    StableHlo.TRef.unary main_call3.cst_0 main_call3.v1 (broadcastInDim S2048 ![] bcast_S_S2048),
    StableHlo.TRef.binary main_call3.v1 main_call3.v0 main_call3.v2 maximumf,
    StableHlo.TRef.unary main_call3.v2 main_call3.v3 (broadcastInDim S2048x1 ![0] bcast_S2048_S2048x1_0),
    StableHlo.TRef.unary main_call3.v3 main_call3.v4 (broadcastInDim S2048x32000 ![0, 1] bcast_S2048x1_S2048x32000_0_1),
    StableHlo.TRef.binary (.of main_v54 : TRef sig ⟨S2048x32000, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S2048x32000_S2048_d1 h_S_),
    StableHlo.TRef.unary main_call3.v7 main_call3.v8 (broadcastInDim S2048x1 ![0] bcast_S2048_S2048x1_0),
    StableHlo.TRef.unary main_call3.v8 main_call3.v9 Host.log,
    StableHlo.TRef.unary main_call3.v9 main_call3.v10 (broadcastInDim S2048x32000 ![0, 1] bcast_S2048x1_S2048x32000_0_1),
    StableHlo.TRef.binary main_call3.v5 main_call3.v10 main_call3.v11 subf ]

/-- The whole line: the eight stretches in order. -/
abbrev ops : List (HloOp τ sig (Elt F)) :=
  opsL1 ++ (opsA1 ++ (opsL2 ++ (opsA2 ++ (opsL3 ++ (opsA3 ++ (opsL4 ++ opsS))))))

-- ninety-five binds re-associated: the rewriting recurses once per statement
set_option maxRecDepth 8192 in
set_option maxHeartbeats 4000000 in
/-- The entry function is that line: the two windows and the callees unfolded at their calls, both sides are one chain
    of steps once sequencing is re-associated. -/
theorem main_eq (c : Dev nD) : main (F := F) c = seq ops := by
  simp only [main, main_part0, main_part1, fn_leaky_relu.body, fn_where.body, fn_log_softmax.body, ops,
    opsL1, opsA1, opsL2, opsA2, opsL3, opsA3, opsL4, opsS, List.cons_append, List.nil_append, seq, bind_assoc, pure_bind]
  try rfl

theorem scopedRefs_eq : (Finset.univ.filter fun b : Ref sig .tc => b.isScoped) = ∅ := by decide
theorem scopedSems_eq : (Finset.univ.filter fun sm : SemLoc sig => sm.isScoped .tc) = ∅ := by decide

theorem opsL1_sub : (opsL1 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub ..⟩
theorem opsL1_fresh : ∀ op ∈ (opsL1 : List (HloOp τ sig (Elt F))), op.fresh = ∅ := by
  intro _ h; (repeat (cases h with | head => rfl | tail _ h => ?_)); exact nomatch h

theorem opsA1_sub : (opsA1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem opsA1_fresh : ∀ op ∈ (opsA1 : List (HloOp τ sig (Elt F))), op.fresh = ∅ := by
  intro _ h; (repeat (cases h with | head => rfl | tail _ h => ?_)); exact nomatch h

theorem opsL2_sub : (opsL2 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub ..⟩
theorem opsL2_fresh : ∀ op ∈ (opsL2 : List (HloOp τ sig (Elt F))), op.fresh = ∅ := by
  intro _ h; (repeat (cases h with | head => rfl | tail _ h => ?_)); exact nomatch h

theorem opsA2_sub : (opsA2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem opsA2_fresh : ∀ op ∈ (opsA2 : List (HloOp τ sig (Elt F))), op.fresh = ∅ := by
  intro _ h; (repeat (cases h with | head => rfl | tail _ h => ?_)); exact nomatch h

theorem opsL3_sub : (opsL3 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub ..⟩
theorem opsL3_fresh : ∀ op ∈ (opsL3 : List (HloOp τ sig (Elt F))), op.fresh = ∅ := by
  intro _ h; (repeat (cases h with | head => rfl | tail _ h => ?_)); exact nomatch h

theorem opsA3_sub : (opsA3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
theorem opsA3_fresh : ∀ op ∈ (opsA3 : List (HloOp τ sig (Elt F))), op.fresh = ∅ := by
  intro _ h; (repeat (cases h with | head => rfl | tail _ h => ?_)); exact nomatch h

theorem opsL4_sub : (opsL4 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub ..⟩
theorem opsL4_fresh : ∀ op ∈ (opsL4 : List (HloOp τ sig (Elt F))), op.fresh = ∅ := by
  intro _ h; (repeat (cases h with | head => rfl | tail _ h => ?_)); exact nomatch h

theorem opsS_sub : (opsS : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsS_fresh : ∀ op ∈ (opsS : List (HloOp τ sig (Elt F))), op.fresh = ∅ := by
  intro _ h; (repeat (cases h with | head => rfl | tail _ h => ?_)); exact nomatch h

/-- Every operation of the line touches TensorCore buffers only. -/
theorem ops_sub : (ops : List (HloOp τ sig (Elt F))).Forall fun op => op.bufs ⊆ tcRefs τ sig :=
  List.forall_append.mpr ⟨opsL1_sub, List.forall_append.mpr ⟨opsA1_sub, List.forall_append.mpr ⟨opsL2_sub,
    List.forall_append.mpr ⟨opsA2_sub, List.forall_append.mpr ⟨opsL3_sub, List.forall_append.mpr ⟨opsA3_sub,
      List.forall_append.mpr ⟨opsL4_sub, opsS_sub⟩⟩⟩⟩⟩⟩⟩

/-- No operation of the line allocates. -/
theorem ops_fresh : ∀ op ∈ (ops : List (HloOp τ sig (Elt F))), op.fresh = ∅ := by
  intro op h
  simp only [ops, List.mem_append] at h
  rcases h with h | h | h | h | h | h | h | h
  · exact opsL1_fresh op h
  · exact opsA1_fresh op h
  · exact opsL2_fresh op h
  · exact opsA2_fresh op h
  · exact opsL3_fresh op h
  · exact opsA3_fresh op h
  · exact opsL4_fresh op h
  · exact opsS_fresh op h

/-- The contents after two lines run one after the other: the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.Hand

end
-- ==== Proof.Ref.Layer.lean ====
/-
  One weight-normalised linear layer of the reference, read index by index.

  The reference computes a layer from an input `x` (rows of length `K`), weight rows `v n`, gains `g` and bias `b`
  as a chain of whole-array operations: the squares of the weight entries summed along each row, the square root of
  that sum, the gain divided by it (a column of `N` scales), the column laid along the `K` entries of each weight row,
  the weight multiplied entry by entry by it, the product transposed, the matrix product of `x` with the transpose,
  and the bias laid along every row of the result and added.  Read at entry `(m, n)` this is
  `(∑ k, x m k * (v n k * scale n)) + b n` with `scale n = g n / sqrt (∑ k, v n k * v n k)`: the specification's
  `linR`.  Nothing here is particular to one size: the lemma is stated for any `M`, `N`, `K`.
-/
import proofs.«131467_j38792144618188_2_alg».proof.Proof.Spec
import Idealize.ShloMosaic.Lib.IdealHost
import Idealize.ShloMosaic.Lib.ValueLayout
import Idealize.ShloMosaic.Lib.KernelVsHost
import Idealize.ShloMosaic.Lib.StackMember

noncomputable section

namespace Cert.ReferenceIdeal.Hand

open Idealize.ShloMosaic Idealize.ShloMosaic.ValueIdx Cert.Spec

variable {α : Type}

/-! ## The three broadcasts of the chain, read at an index -/

/-- A vector laid down as a one-column matrix reads, at `(n, u)`, the vector at `n`. -/
theorem bcast_col_apply {N : Nat} (h : (⟨1, ![N]⟩ : Shape).BroadcastsInDim ⟨2, ![N, 1]⟩ ![0])
    (y : (⟨1, ![N]⟩ : Shape).Idx → α) (n : Fin N) (u : Fin 1) :
    broadcastInDim ⟨2, ![N, 1]⟩ ![0] h y (ix2 n u) = y (ix1 n) := by
  refine broadcastInDim_apply ![0] h y (ix2 n u) (ix1 n) ?_
  intro a
  match a with
  | ⟨0, _⟩ =>
    show n.val = if N = 1 then 0 else n.val
    split
    · have := n.isLt; omega
    · rfl

/-- A one-column matrix laid along `K` columns reads, at `(n, k)`, the column at `(n, 0)`. -/
theorem bcast_cols_apply {N K : Nat} (h : (⟨2, ![N, 1]⟩ : Shape).BroadcastsInDim ⟨2, ![N, K]⟩ ![0, 1])
    (y : (⟨2, ![N, 1]⟩ : Shape).Idx → α) (n : Fin N) (k : Fin K) :
    broadcastInDim ⟨2, ![N, K]⟩ ![0, 1] h y (ix2 n k) = y (ix2 n (0 : Fin 1)) := by
  refine broadcastInDim_apply ![0, 1] h y (ix2 n k) (ix2 n (0 : Fin 1)) ?_
  intro a
  match a with
  | ⟨0, _⟩ =>
    show n.val = if N = 1 then 0 else n.val
    split
    · have := n.isLt; omega
    · rfl
  | ⟨1, _⟩ =>
    show (0 : ℕ) = if (1 : ℕ) = 1 then 0 else k.val
    rw [if_pos rfl]

/-- A vector laid down as a one-row matrix reads, at `(u, n)`, the vector at `n`. -/
theorem bcast_row_apply {N : Nat} (h : (⟨1, ![N]⟩ : Shape).BroadcastsInDim ⟨2, ![1, N]⟩ ![1])
    (y : (⟨1, ![N]⟩ : Shape).Idx → α) (u : Fin 1) (n : Fin N) :
    broadcastInDim ⟨2, ![1, N]⟩ ![1] h y (ix2 u n) = y (ix1 n) := by
  refine broadcastInDim_apply ![1] h y (ix2 u n) (ix1 n) ?_
  intro a
  match a with
  | ⟨0, _⟩ =>
    show n.val = if N = 1 then 0 else n.val
    split
    · have := n.isLt; omega
    · rfl

/-- The host's square root at an index is the extended reals' square root of the element. -/
theorem hostSqrt_apply {s : Shape} {φ : FTy} (a : FVec Ideal s φ) (i : s.Idx) : Host.sqrt a i = Ideal.sqrt (a i) := rfl

/-! ## The squared length of a weight row -/

/-- The row sums of the entrywise square, from the initial value zero: at `n` the squared length of row `n`. -/
theorem rowSumSq_apply {N K : Nat} (hred : (⟨2, ![N, K]⟩ : Shape).ReducesTo [1] ⟨1, ![N]⟩)
    (h0 : 0 < (⟨0, ![]⟩ : Shape).numel) (v : FVec Ideal ⟨2, ![N, K]⟩ .f32) (n : Fin N) :
    Host.reduceAdd (F := Ideal) (mulf v v) (constant (F := Ideal) ⟨0, ![]⟩ .f32 0x00000000#32) hred h0 (ix1 n) = normSq v n := by
  have hR : (⟨2, ![N, K]⟩ : Shape).Reduces [1] ⟨1, ![N]⟩ := ⟨hred.1, Nat.one_pos, hred.2⟩
  rw [hostReduceAdd_apply, Ideal.hostReduceAdd_single hred hR]
  show Ideal.ofBits .f32 0x00000000#32 + _ = _
  rw [Ideal.ofBits_zero_f32, zero_add]
  unfold normSq
  refine Finset.sum_congr rfl fun k _ => ?_
  have e : hR.lift (ix1 n) k = ix2 n k := by
    funext c; apply Fin.ext
    match c with
    | ⟨0, _⟩ => rfl
    | ⟨1, _⟩ => rfl
  rw [e]; rfl

/-! ## The layer -/

/-- The reference's chain for one layer is the specification's `linR`. -/
theorem layer_eq {M N K : Nat}
    (hred : (⟨2, ![N, K]⟩ : Shape).ReducesTo [1] ⟨1, ![N]⟩) (h0 : 0 < (⟨0, ![]⟩ : Shape).numel)
    (hcol : (⟨1, ![N]⟩ : Shape).BroadcastsInDim ⟨2, ![N, 1]⟩ ![0])
    (hcols : (⟨2, ![N, 1]⟩ : Shape).BroadcastsInDim ⟨2, ![N, K]⟩ ![0, 1])
    (htr : (⟨2, ![N, K]⟩ : Shape).Transposes [1, 0] ⟨2, ![K, N]⟩)
    (hrow : (⟨1, ![N]⟩ : Shape).BroadcastsInDim ⟨2, ![1, N]⟩ ![1])
    (hrows : (⟨2, ![1, N]⟩ : Shape).BroadcastsInDim ⟨2, ![M, N]⟩ ![0, 1])
    (wf : DotDims.WF ⟨2, ![M, K]⟩ ⟨2, ![K, N]⟩ ⟨2, ![M, N]⟩ [1] [0] [0] [1] [] [])
    (x : FVec Ideal ⟨2, ![M, K]⟩ .f32) (v : FVec Ideal ⟨2, ![N, K]⟩ .f32) (g b : FVec Ideal ⟨1, ![N]⟩ .f32) :
    addf (F := Ideal)
        (Host.dotGeneral (F := Ideal) (⟨[1], [0], [0], [1], [], [], wf⟩ : DotDims ⟨2, ![M, K]⟩ ⟨2, ![K, N]⟩ ⟨2, ![M, N]⟩) none x
          (transpose ⟨2, ![K, N]⟩ [1, 0]
            (mulf (F := Ideal) v (broadcastInDim ⟨2, ![N, K]⟩ ![0, 1] hcols
              (Host.divf (F := Ideal) (broadcastInDim ⟨2, ![N, 1]⟩ ![0] hcol g)
                (Host.sqrt (F := Ideal) (broadcastInDim ⟨2, ![N, 1]⟩ ![0] hcol
                  (Host.reduceAdd (F := Ideal) (mulf v v) (constant (F := Ideal) ⟨0, ![]⟩ .f32 0x00000000#32) hred h0))))))
            htr))
        (broadcastInDim ⟨2, ![M, N]⟩ ![0, 1] hrows (broadcastInDim ⟨2, ![1, N]⟩ ![1] hrow b))
      = linR x v g b := by
  funext j
  obtain ⟨m, n, rfl⟩ : ∃ (m : Fin M) (n : Fin N), j = ix2 m n := ⟨j 0, j 1, eq_ix2 j⟩
  rw [addf_apply, broadcastInDim_oneRow_apply, bcast_row_apply]
  show Host.dotGeneral (F := Ideal) (DotDims.plain M K N) none x _ (ix2 m n) + _ = linRAt x v g b m n
  rw [StackMember.dotGeneral_plain_apply]
  unfold linRAt
  refine congrArg (· + b (ix1 n)) (Finset.sum_congr rfl fun k _ => ?_)
  rw [transpose_ix2_apply, mulf_apply, bcast_cols_apply, hostDivf_apply, bcast_col_apply, hostSqrt_apply, bcast_col_apply,
    rowSumSq_apply]
  rfl

end Cert.ReferenceIdeal.Hand

end
-- ==== Proof.Ref.Softmax.lean ====
/-
  The leaky rectifier and the row-wise log-softmax of the reference, read index by index.

  The rectifier is printed as a comparison of the array with a zero laid over its shape, the slope laid over the same
  shape and multiplied in, and a select between the array and that product: at each entry the specification's `leaky`.

  The log-softmax of `z` (rows of length `N`) is printed as: the row maxima by a fold of `max` from `-∞`, taken once
  more against `-∞`; the maxima laid along the rows and subtracted; the exponentials; their row sums from zero; the
  logarithms of the sums laid along the rows and subtracted.  The fold of `max` from the bottom element over a whole
  row is the row's supremum, and `max ⊥` of it changes nothing, so entry `(m, n)` is
  `(z m n - rowMax z m) - log (∑ n', exp (z m n' - rowMax z m))`: the specification's `lsm`.
-/
import proofs.«131467_j38792144618188_2_alg».proof.Proof.Ref.Layer

noncomputable section

namespace Cert.ReferenceIdeal.Hand

open Idealize.ShloMosaic Idealize.ShloMosaic.ValueIdx Cert.Spec

/-! ## The rectifier -/

/-- The printed rectifier is the specification's `act`. -/
theorem act_eq {a b : Nat} (hb : (⟨0, ![]⟩ : Shape).BroadcastsInDim ⟨2, ![a, b]⟩ ![])
    (y : FVec Ideal ⟨2, ![a, b]⟩ .f32) :
    select (cmpf (F := Ideal) .oge y (broadcastInDim ⟨2, ![a, b]⟩ ![] hb (constant (F := Ideal) ⟨0, ![]⟩ .f32 0x00000000#32)))
        y (mulf (F := Ideal) (broadcastInDim ⟨2, ![a, b]⟩ ![] hb (id (constant (F := Ideal) ⟨0, ![]⟩ .f32 0x3C23D70A#32))) y)
      = act y := by
  funext j
  rw [select_apply, cmpf_apply, broadcastInDim_scalar_apply, mulf_apply, broadcastInDim_scalar_apply]
  show Scalar.select (Ideal.cmp .oge (y j) (Ideal.ofBits .f32 0x00000000#32)) (y j) (Ideal.ofBits .f32 0x3C23D70A#32 * y j) = leaky (y j)
  rw [Ideal.ofBits_zero_f32]
  rfl

/-! ## The row maximum -/

/-- The binary32 word of `-∞` is the bottom element of the extended reals. -/
theorem ofBits_negInf_f32 : Ideal.ofBits .f32 0xFF800000#32 = (⊥ : EReal) := by
  simp [Ideal.ofBits, Ideal.ieee]

/-- A fold of `max` from the bottom element is the supremum. -/
theorem fold_max_bot_eq_sup {ι : Type} [DecidableEq ι] (s : Finset ι) (f : ι → EReal) :
    s.fold max (⊥ : EReal) f = s.sup f := by
  induction s using Finset.induction_on with
  | empty => rfl
  | insert i s hi ih => rw [Finset.fold_insert hi, Finset.sup_insert, ih]

/-- Over a row index `m`, the matrix index with column `n` inserted is `(m, n)`. -/
theorem lift_ix1 {M N : Nat} (hR : (⟨2, ![M, N]⟩ : Shape).Reduces [1] ⟨1, ![M]⟩) (m : Fin M) (n : Fin N) :
    hR.lift (ix1 m) n = ix2 m n := by
  funext c; apply Fin.ext
  match c with
  | ⟨0, _⟩ => rfl
  | ⟨1, _⟩ => rfl

/-- The host's exponential and logarithm at an index are the extended reals' of the element. -/
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- The printed row maximum — the fold from `-∞`, then `max` with `-∞` once more — is the row's supremum. -/
theorem rowMax_apply {M N : Nat} (hred : (⟨2, ![M, N]⟩ : Shape).ReducesTo [1] ⟨1, ![M]⟩)
    (h0 : 0 < (⟨0, ![]⟩ : Shape).numel) (hb : (⟨0, ![]⟩ : Shape).BroadcastsInDim ⟨1, ![M]⟩ ![])
    (z : FVec Ideal ⟨2, ![M, N]⟩ .f32) (m : Fin M) :
    maximumf (F := Ideal) (broadcastInDim ⟨1, ![M]⟩ ![] hb (constant (F := Ideal) ⟨0, ![]⟩ .f32 0xFF800000#32))
        (Host.reduce (FloatOps.maximumf (F := Ideal) (φ := .f32)) z (constant (F := Ideal) ⟨0, ![]⟩ .f32 0xFF800000#32) hred h0) (ix1 m)
      = rowMax z m := by
  have hR : (⟨2, ![M, N]⟩ : Shape).Reduces [1] ⟨1, ![M]⟩ := ⟨hred.1, Nat.one_pos, hred.2⟩
  rw [maximumf_apply, broadcastInDim_scalar_apply, Host.reduce_eq_fold_single _ z _ hred hR h0 (ix1 m)]
  show max (Ideal.ofBits .f32 0xFF800000#32) (Finset.univ.fold max (Ideal.ofBits .f32 0xFF800000#32) (z ∘ hR.lift (ix1 m))) = _
  rw [ofBits_negInf_f32, fold_max_bot_eq_sup, max_bot_left]
  show (Finset.univ : Finset (Fin N)).sup (fun n => z (hR.lift (ix1 m) n)) = (Finset.univ : Finset (Fin N)).sup fun n => z (ix2 m n)
  exact congrArg _ (funext fun n => congrArg z (lift_ix1 hR m n))

/-- The row sums from the initial value zero, at `m`: the sum of row `m`. -/
theorem rowSum_apply {M N : Nat} (hred : (⟨2, ![M, N]⟩ : Shape).ReducesTo [1] ⟨1, ![M]⟩)
    (h0 : 0 < (⟨0, ![]⟩ : Shape).numel) (w : FVec Ideal ⟨2, ![M, N]⟩ .f32) (m : Fin M) :
    Host.reduceAdd (F := Ideal) w (constant (F := Ideal) ⟨0, ![]⟩ .f32 0x00000000#32) hred h0 (ix1 m) = ∑ n : Fin N, w (ix2 m n) := by
  have hR : (⟨2, ![M, N]⟩ : Shape).Reduces [1] ⟨1, ![M]⟩ := ⟨hred.1, Nat.one_pos, hred.2⟩
  rw [hostReduceAdd_apply, Ideal.hostReduceAdd_single hred hR]
  show Ideal.ofBits .f32 0x00000000#32 + _ = _
  rw [Ideal.ofBits_zero_f32, zero_add]
  exact Finset.sum_congr rfl fun n _ => congrArg w (lift_ix1 hR m n)

/-! ## The log-softmax -/

/-- The printed log-softmax is the specification's `lsm`. -/
theorem lsm_eq {M N : Nat} (hred : (⟨2, ![M, N]⟩ : Shape).ReducesTo [1] ⟨1, ![M]⟩)
    (h0 : 0 < (⟨0, ![]⟩ : Shape).numel) (hb : (⟨0, ![]⟩ : Shape).BroadcastsInDim ⟨1, ![M]⟩ ![])
    (hcol : (⟨1, ![M]⟩ : Shape).BroadcastsInDim ⟨2, ![M, 1]⟩ ![0])
    (hcols : (⟨2, ![M, 1]⟩ : Shape).BroadcastsInDim ⟨2, ![M, N]⟩ ![0, 1])
    (z : FVec Ideal ⟨2, ![M, N]⟩ .f32) :
    subf (F := Ideal)
        (subf (F := Ideal) z (broadcastInDim ⟨2, ![M, N]⟩ ![0, 1] hcols (broadcastInDim ⟨2, ![M, 1]⟩ ![0] hcol
          (maximumf (F := Ideal) (broadcastInDim ⟨1, ![M]⟩ ![] hb (constant (F := Ideal) ⟨0, ![]⟩ .f32 0xFF800000#32))
            (Host.reduce (FloatOps.maximumf (F := Ideal) (φ := .f32)) z (constant (F := Ideal) ⟨0, ![]⟩ .f32 0xFF800000#32) hred h0)))))
        (broadcastInDim ⟨2, ![M, N]⟩ ![0, 1] hcols (Host.log (F := Ideal) (broadcastInDim ⟨2, ![M, 1]⟩ ![0] hcol
          (Host.reduceAdd (F := Ideal)
            (Host.exp (F := Ideal) (subf (F := Ideal) z (broadcastInDim ⟨2, ![M, N]⟩ ![0, 1] hcols (broadcastInDim ⟨2, ![M, 1]⟩ ![0] hcol
              (maximumf (F := Ideal) (broadcastInDim ⟨1, ![M]⟩ ![] hb (constant (F := Ideal) ⟨0, ![]⟩ .f32 0xFF800000#32))
                (Host.reduce (FloatOps.maximumf (F := Ideal) (φ := .f32)) z (constant (F := Ideal) ⟨0, ![]⟩ .f32 0xFF800000#32) hred h0))))))
            (constant (F := Ideal) ⟨0, ![]⟩ .f32 0x00000000#32) hred h0))))
      = lsm z := by
  funext j
  obtain ⟨m, n, rfl⟩ : ∃ (m : Fin M) (n : Fin N), j = ix2 m n := ⟨j 0, j 1, eq_ix2 j⟩
  rw [subf_apply, subf_apply, bcast_cols_apply, bcast_col_apply, rowMax_apply, bcast_cols_apply, hostLog_apply,
    bcast_col_apply, rowSum_apply]
  show _ = lsmAt z m n
  unfold lsmAt
  refine congrArg (fun t => (z (ix2 m n) - rowMax z m) - Ideal.log t) (Finset.sum_congr rfl fun n' _ => ?_)
  rw [hostExp_apply, subf_apply, bcast_cols_apply, bcast_col_apply, rowMax_apply]

end Cert.ReferenceIdeal.Hand

end
-- ==== Proof.Ref.Run.lean ====
/-
  The reference's run read back: what each stretch of the line leaves in its result buffer, and what the whole line
  leaves in the result and in the arguments.

  Each stretch's fold at its own result buffer is the composed term of its operations over the contents it started
  from; by the layer, rectifier and log-softmax lemmas that term is the specification's `linR`, `act` or `lsm` of the
  stretch's inputs.  A stretch writes only its own values' buffers, never an argument, so every argument buffer is
  the same after it.  Folding the eight stretches in order, the result buffer holds the specification's `netR` of the
  thirteen argument arrays, and the arguments are unchanged.
-/
import proofs.«131467_j38792144618188_2_alg».proof.Proof.Ref.Ops
import proofs.«131467_j38792144618188_2_alg».proof.Proof.Ref.Softmax

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## What each stretch writes -/

/-- An operation whose one written buffer is in a list writes inside the list. -/
theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers the stretch `opsL1` writes. -/
abbrev wL1 : List (Ref sig .tc) :=
  [main_v0, main_cst, main_v1, main_v2, main_v3, main_v4, main_v5, main_v6, main_v7, main_v8, main_v9, main_v10, main_v11, main_v12]
theorem opsL1_writes : (opsL1 : List (HloOp τ sig (Elt Ideal))).Forall fun op => op.writes ⊆ (wL1.map (Proc.devRef (τ := τ) .tc)).toFinset :=
  ⟨writes_sub_of_mem (y := main_v0) (by decide),
   writes_sub_of_mem (y := main_cst) (by decide),
   writes_sub_of_mem (y := main_v1) (by decide),
   writes_sub_of_mem (y := main_v2) (by decide),
   writes_sub_of_mem (y := main_v3) (by decide),
   writes_sub_of_mem (y := main_v4) (by decide),
   writes_sub_of_mem (y := main_v5) (by decide),
   writes_sub_of_mem (y := main_v6) (by decide),
   writes_sub_of_mem (y := main_v7) (by decide),
   writes_sub_of_mem (y := main_v8) (by decide),
   writes_sub_of_mem (y := main_v9) (by decide),
   writes_sub_of_mem (y := main_v10) (by decide),
   writes_sub_of_mem (y := main_v11) (by decide),
   writes_sub_of_mem (y := main_v12) (by decide)⟩
/-- A buffer the stretch does not write keeps its contents. -/
theorem opsL1_frame (V : Valuation τ sig (Elt Ideal)) {r : Ref sig .tc} (hr : r ∉ wL1) :
    after opsL1 V (no_index (Proc.devRef .tc r)) = V (Proc.devRef .tc r) :=
  after_of_writes_sub opsL1 V opsL1_writes hr

/-- The buffers the stretch `opsA1` writes. -/
abbrev wA1 : List (Ref sig .tc) :=
  [main_cst_0, main_call0.cst.ref, main_call0.v0.ref, main_call0.v1.ref, main_call0.v2.ref, main_call0.v3.ref, main_call0.v4.ref, main_call0.call0.v0.ref]
theorem opsA1_writes : (opsA1 : List (HloOp τ sig (Elt Ideal))).Forall fun op => op.writes ⊆ (wA1.map (Proc.devRef (τ := τ) .tc)).toFinset :=
  ⟨writes_sub_of_mem (y := main_cst_0) (by decide),
   writes_sub_of_mem (y := main_call0.cst.ref) (by decide),
   writes_sub_of_mem (y := main_call0.v0.ref) (by decide),
   writes_sub_of_mem (y := main_call0.v1.ref) (by decide),
   writes_sub_of_mem (y := main_call0.v2.ref) (by decide),
   writes_sub_of_mem (y := main_call0.v3.ref) (by decide),
   writes_sub_of_mem (y := main_call0.v4.ref) (by decide),
   writes_sub_of_mem (y := main_call0.call0.v0.ref) (by decide)⟩
/-- A buffer the stretch does not write keeps its contents. -/
theorem opsA1_frame (V : Valuation τ sig (Elt Ideal)) {r : Ref sig .tc} (hr : r ∉ wA1) :
    after opsA1 V (no_index (Proc.devRef .tc r)) = V (Proc.devRef .tc r) :=
  after_of_writes_sub opsA1 V opsA1_writes hr

/-- The buffers the stretch `opsL2` writes. -/
abbrev wL2 : List (Ref sig .tc) :=
  [main_v14, main_cst_1, main_v15, main_v16, main_v17, main_v18, main_v19, main_v20, main_v21, main_v22, main_v23, main_v24, main_v25, main_v26]
theorem opsL2_writes : (opsL2 : List (HloOp τ sig (Elt Ideal))).Forall fun op => op.writes ⊆ (wL2.map (Proc.devRef (τ := τ) .tc)).toFinset :=
  ⟨writes_sub_of_mem (y := main_v14) (by decide),
   writes_sub_of_mem (y := main_cst_1) (by decide),
   writes_sub_of_mem (y := main_v15) (by decide),
   writes_sub_of_mem (y := main_v16) (by decide),
   writes_sub_of_mem (y := main_v17) (by decide),
   writes_sub_of_mem (y := main_v18) (by decide),
   writes_sub_of_mem (y := main_v19) (by decide),
   writes_sub_of_mem (y := main_v20) (by decide),
   writes_sub_of_mem (y := main_v21) (by decide),
   writes_sub_of_mem (y := main_v22) (by decide),
   writes_sub_of_mem (y := main_v23) (by decide),
   writes_sub_of_mem (y := main_v24) (by decide),
   writes_sub_of_mem (y := main_v25) (by decide),
   writes_sub_of_mem (y := main_v26) (by decide)⟩
/-- A buffer the stretch does not write keeps its contents. -/
theorem opsL2_frame (V : Valuation τ sig (Elt Ideal)) {r : Ref sig .tc} (hr : r ∉ wL2) :
    after opsL2 V (no_index (Proc.devRef .tc r)) = V (Proc.devRef .tc r) :=
  after_of_writes_sub opsL2 V opsL2_writes hr

/-- The buffers the stretch `opsA2` writes. -/
abbrev wA2 : List (Ref sig .tc) :=
  [main_cst_2, main_call1.cst.ref, main_call1.v0.ref, main_call1.v1.ref, main_call1.v2.ref, main_call1.v3.ref, main_call1.v4.ref, main_call1.call0.v0.ref]
theorem opsA2_writes : (opsA2 : List (HloOp τ sig (Elt Ideal))).Forall fun op => op.writes ⊆ (wA2.map (Proc.devRef (τ := τ) .tc)).toFinset :=
  ⟨writes_sub_of_mem (y := main_cst_2) (by decide),
   writes_sub_of_mem (y := main_call1.cst.ref) (by decide),
   writes_sub_of_mem (y := main_call1.v0.ref) (by decide),
   writes_sub_of_mem (y := main_call1.v1.ref) (by decide),
   writes_sub_of_mem (y := main_call1.v2.ref) (by decide),
   writes_sub_of_mem (y := main_call1.v3.ref) (by decide),
   writes_sub_of_mem (y := main_call1.v4.ref) (by decide),
   writes_sub_of_mem (y := main_call1.call0.v0.ref) (by decide)⟩
/-- A buffer the stretch does not write keeps its contents. -/
theorem opsA2_frame (V : Valuation τ sig (Elt Ideal)) {r : Ref sig .tc} (hr : r ∉ wA2) :
    after opsA2 V (no_index (Proc.devRef .tc r)) = V (Proc.devRef .tc r) :=
  after_of_writes_sub opsA2 V opsA2_writes hr

/-- The buffers the stretch `opsL3` writes. -/
abbrev wL3 : List (Ref sig .tc) :=
  [main_v28, main_cst_3, main_v29, main_v30, main_v31, main_v32, main_v33, main_v34, main_v35, main_v36, main_v37, main_v38, main_v39, main_v40]
theorem opsL3_writes : (opsL3 : List (HloOp τ sig (Elt Ideal))).Forall fun op => op.writes ⊆ (wL3.map (Proc.devRef (τ := τ) .tc)).toFinset :=
  ⟨writes_sub_of_mem (y := main_v28) (by decide),
   writes_sub_of_mem (y := main_cst_3) (by decide),
   writes_sub_of_mem (y := main_v29) (by decide),
   writes_sub_of_mem (y := main_v30) (by decide),
   writes_sub_of_mem (y := main_v31) (by decide),
   writes_sub_of_mem (y := main_v32) (by decide),
   writes_sub_of_mem (y := main_v33) (by decide),
   writes_sub_of_mem (y := main_v34) (by decide),
   writes_sub_of_mem (y := main_v35) (by decide),
   writes_sub_of_mem (y := main_v36) (by decide),
   writes_sub_of_mem (y := main_v37) (by decide),
   writes_sub_of_mem (y := main_v38) (by decide),
   writes_sub_of_mem (y := main_v39) (by decide),
   writes_sub_of_mem (y := main_v40) (by decide)⟩
/-- A buffer the stretch does not write keeps its contents. -/
theorem opsL3_frame (V : Valuation τ sig (Elt Ideal)) {r : Ref sig .tc} (hr : r ∉ wL3) :
    after opsL3 V (no_index (Proc.devRef .tc r)) = V (Proc.devRef .tc r) :=
  after_of_writes_sub opsL3 V opsL3_writes hr

/-- The buffers the stretch `opsA3` writes. -/
abbrev wA3 : List (Ref sig .tc) :=
  [main_cst_4, main_call2.cst.ref, main_call2.v0.ref, main_call2.v1.ref, main_call2.v2.ref, main_call2.v3.ref, main_call2.v4.ref, main_call2.call0.v0.ref]
theorem opsA3_writes : (opsA3 : List (HloOp τ sig (Elt Ideal))).Forall fun op => op.writes ⊆ (wA3.map (Proc.devRef (τ := τ) .tc)).toFinset :=
  ⟨writes_sub_of_mem (y := main_cst_4) (by decide),
   writes_sub_of_mem (y := main_call2.cst.ref) (by decide),
   writes_sub_of_mem (y := main_call2.v0.ref) (by decide),
   writes_sub_of_mem (y := main_call2.v1.ref) (by decide),
   writes_sub_of_mem (y := main_call2.v2.ref) (by decide),
   writes_sub_of_mem (y := main_call2.v3.ref) (by decide),
   writes_sub_of_mem (y := main_call2.v4.ref) (by decide),
   writes_sub_of_mem (y := main_call2.call0.v0.ref) (by decide)⟩
/-- A buffer the stretch does not write keeps its contents. -/
theorem opsA3_frame (V : Valuation τ sig (Elt Ideal)) {r : Ref sig .tc} (hr : r ∉ wA3) :
    after opsA3 V (no_index (Proc.devRef .tc r)) = V (Proc.devRef .tc r) :=
  after_of_writes_sub opsA3 V opsA3_writes hr

/-- The buffers the stretch `opsL4` writes. -/
abbrev wL4 : List (Ref sig .tc) :=
  [main_v42, main_cst_5, main_v43, main_v44, main_v45, main_v46, main_v47, main_v48, main_v49, main_v50, main_v51, main_v52, main_v53, main_v54]
theorem opsL4_writes : (opsL4 : List (HloOp τ sig (Elt Ideal))).Forall fun op => op.writes ⊆ (wL4.map (Proc.devRef (τ := τ) .tc)).toFinset :=
  ⟨writes_sub_of_mem (y := main_v42) (by decide),
   writes_sub_of_mem (y := main_cst_5) (by decide),
   writes_sub_of_mem (y := main_v43) (by decide),
   writes_sub_of_mem (y := main_v44) (by decide),
   writes_sub_of_mem (y := main_v45) (by decide),
   writes_sub_of_mem (y := main_v46) (by decide),
   writes_sub_of_mem (y := main_v47) (by decide),
   writes_sub_of_mem (y := main_v48) (by decide),
   writes_sub_of_mem (y := main_v49) (by decide),
   writes_sub_of_mem (y := main_v50) (by decide),
   writes_sub_of_mem (y := main_v51) (by decide),
   writes_sub_of_mem (y := main_v52) (by decide),
   writes_sub_of_mem (y := main_v53) (by decide),
   writes_sub_of_mem (y := main_v54) (by decide)⟩
/-- A buffer the stretch does not write keeps its contents. -/
theorem opsL4_frame (V : Valuation τ sig (Elt Ideal)) {r : Ref sig .tc} (hr : r ∉ wL4) :
    after opsL4 V (no_index (Proc.devRef .tc r)) = V (Proc.devRef .tc r) :=
  after_of_writes_sub opsL4 V opsL4_writes hr

/-- The buffers the stretch `opsS` writes. -/
abbrev wS : List (Ref sig .tc) :=
  [main_call3.cst.ref, main_call3.v0.ref, main_call3.cst_0.ref, main_call3.v1.ref, main_call3.v2.ref, main_call3.v3.ref, main_call3.v4.ref, main_call3.v5.ref, main_call3.v6.ref, main_call3.cst_1.ref, main_call3.v7.ref, main_call3.v8.ref, main_call3.v9.ref, main_call3.v10.ref, main_call3.v11.ref]
theorem opsS_writes : (opsS : List (HloOp τ sig (Elt Ideal))).Forall fun op => op.writes ⊆ (wS.map (Proc.devRef (τ := τ) .tc)).toFinset :=
  ⟨writes_sub_of_mem (y := main_call3.cst.ref) (by decide),
   writes_sub_of_mem (y := main_call3.v0.ref) (by decide),
   writes_sub_of_mem (y := main_call3.cst_0.ref) (by decide),
   writes_sub_of_mem (y := main_call3.v1.ref) (by decide),
   writes_sub_of_mem (y := main_call3.v2.ref) (by decide),
   writes_sub_of_mem (y := main_call3.v3.ref) (by decide),
   writes_sub_of_mem (y := main_call3.v4.ref) (by decide),
   writes_sub_of_mem (y := main_call3.v5.ref) (by decide),
   writes_sub_of_mem (y := main_call3.v6.ref) (by decide),
   writes_sub_of_mem (y := main_call3.cst_1.ref) (by decide),
   writes_sub_of_mem (y := main_call3.v7.ref) (by decide),
   writes_sub_of_mem (y := main_call3.v8.ref) (by decide),
   writes_sub_of_mem (y := main_call3.v9.ref) (by decide),
   writes_sub_of_mem (y := main_call3.v10.ref) (by decide),
   writes_sub_of_mem (y := main_call3.v11.ref) (by decide)⟩
/-- A buffer the stretch does not write keeps its contents. -/
theorem opsS_frame (V : Valuation τ sig (Elt Ideal)) {r : Ref sig .tc} (hr : r ∉ wS) :
    after opsS V (no_index (Proc.devRef .tc r)) = V (Proc.devRef .tc r) :=
  after_of_writes_sub opsS V opsS_writes hr

/-! ## What each stretch leaves in its result -/

-- the buffer types along the fold are table lookups by index, recomputed at every step
set_option maxHeartbeats 4000000 in
theorem opsL1_out (V : Valuation τ sig (Elt Ideal)) :
    after opsL1 V (Proc.devRef .tc main_v12 : DevRef τ sig)
      = Cert.Spec.linR (M := 2048) (N := 4096) (K := 2048) (V (Proc.devRef .tc main_arg0 : DevRef τ sig)) (V (Proc.devRef .tc main_arg1 : DevRef τ sig)) (V (Proc.devRef .tc main_arg2 : DevRef τ sig)) (V (Proc.devRef .tc main_arg3 : DevRef τ sig)) := by
  after_results_simp
  exact layer_eq _ _ _ _ _ _ _ _ _ _ _ _

-- the buffer types along the fold are table lookups by index, recomputed at every step
set_option maxHeartbeats 4000000 in
theorem opsA1_out (V : Valuation τ sig (Elt Ideal)) :
    after opsA1 V (Proc.devRef .tc main_v13 : DevRef τ sig) = Cert.Spec.act (a := 2048) (b := 4096) (V (Proc.devRef .tc main_v12 : DevRef τ sig)) := by
  after_results_simp
  exact act_eq bcast_S_S2048x4096 (V (Proc.devRef .tc main_v12 : DevRef τ sig))

-- the buffer types along the fold are table lookups by index, recomputed at every step
set_option maxHeartbeats 4000000 in
theorem opsL2_out (V : Valuation τ sig (Elt Ideal)) :
    after opsL2 V (Proc.devRef .tc main_v26 : DevRef τ sig)
      = Cert.Spec.linR (M := 2048) (N := 4096) (K := 4096) (V (Proc.devRef .tc main_v13 : DevRef τ sig)) (V (Proc.devRef .tc main_arg4 : DevRef τ sig)) (V (Proc.devRef .tc main_arg5 : DevRef τ sig)) (V (Proc.devRef .tc main_arg6 : DevRef τ sig)) := by
  after_results_simp
  exact layer_eq _ _ _ _ _ _ _ _ _ _ _ _

-- the buffer types along the fold are table lookups by index, recomputed at every step
set_option maxHeartbeats 4000000 in
theorem opsA2_out (V : Valuation τ sig (Elt Ideal)) :
    after opsA2 V (Proc.devRef .tc main_v27 : DevRef τ sig) = Cert.Spec.act (a := 2048) (b := 4096) (V (Proc.devRef .tc main_v26 : DevRef τ sig)) := by
  after_results_simp
  exact act_eq bcast_S_S2048x4096 (V (Proc.devRef .tc main_v26 : DevRef τ sig))

-- the buffer types along the fold are table lookups by index, recomputed at every step
set_option maxHeartbeats 4000000 in
theorem opsL3_out (V : Valuation τ sig (Elt Ideal)) :
    after opsL3 V (Proc.devRef .tc main_v40 : DevRef τ sig)
      = Cert.Spec.linR (M := 2048) (N := 4096) (K := 4096) (V (Proc.devRef .tc main_v27 : DevRef τ sig)) (V (Proc.devRef .tc main_arg7 : DevRef τ sig)) (V (Proc.devRef .tc main_arg8 : DevRef τ sig)) (V (Proc.devRef .tc main_arg9 : DevRef τ sig)) := by
  after_results_simp
  exact layer_eq _ _ _ _ _ _ _ _ _ _ _ _

-- the buffer types along the fold are table lookups by index, recomputed at every step
set_option maxHeartbeats 4000000 in
theorem opsA3_out (V : Valuation τ sig (Elt Ideal)) :
    after opsA3 V (Proc.devRef .tc main_v41 : DevRef τ sig) = Cert.Spec.act (a := 2048) (b := 4096) (V (Proc.devRef .tc main_v40 : DevRef τ sig)) := by
  after_results_simp
  exact act_eq bcast_S_S2048x4096 (V (Proc.devRef .tc main_v40 : DevRef τ sig))

-- the buffer types along the fold are table lookups by index, recomputed at every step
set_option maxHeartbeats 4000000 in
theorem opsL4_out (V : Valuation τ sig (Elt Ideal)) :
    after opsL4 V (Proc.devRef .tc main_v54 : DevRef τ sig)
      = Cert.Spec.linR (M := 2048) (N := 32000) (K := 4096) (V (Proc.devRef .tc main_v41 : DevRef τ sig)) (V (Proc.devRef .tc main_arg10 : DevRef τ sig)) (V (Proc.devRef .tc main_arg11 : DevRef τ sig)) (V (Proc.devRef .tc main_arg12 : DevRef τ sig)) := by
  after_results_simp
  exact layer_eq _ _ _ _ _ _ _ _ _ _ _ _

/-! ## The whole line -/

/-- After the whole line the result buffer holds the specification's network function of the argument arrays, given
    what the last stretch leaves in it: the log-softmax of what it finds in its input buffer (`hS`, proved in its own
    module). -/
theorem out_eq
    (hS : ∀ W : Valuation τ sig (Elt Ideal), after opsS W (Proc.devRef .tc main_v55 : DevRef τ sig)
      = Cert.Spec.lsm (M := 2048) (N := 32000) (W (Proc.devRef .tc main_v54 : DevRef τ sig)))
    (V : Valuation τ sig (Elt Ideal)) :
    after ops V (Proc.devRef .tc main_v55 : DevRef τ sig)
      = Cert.Spec.netR (V (Proc.devRef .tc main_arg0 : DevRef τ sig))
          (V (Proc.devRef .tc main_arg1 : DevRef τ sig))
          (V (Proc.devRef .tc main_arg2 : DevRef τ sig))
          (V (Proc.devRef .tc main_arg3 : DevRef τ sig))
          (V (Proc.devRef .tc main_arg4 : DevRef τ sig))
          (V (Proc.devRef .tc main_arg5 : DevRef τ sig))
          (V (Proc.devRef .tc main_arg6 : DevRef τ sig))
          (V (Proc.devRef .tc main_arg7 : DevRef τ sig))
          (V (Proc.devRef .tc main_arg8 : DevRef τ sig))
          (V (Proc.devRef .tc main_arg9 : DevRef τ sig))
          (V (Proc.devRef .tc main_arg10 : DevRef τ sig))
          (V (Proc.devRef .tc main_arg11 : DevRef τ sig))
          (V (Proc.devRef .tc main_arg12 : DevRef τ sig)) := by
  simp only [ops, after_append]
  rw [hS, opsL4_out, opsA3_out, opsL3_out, opsA2_out, opsL2_out, opsA1_out, opsL1_out]
  simp (disch := decide) only [opsA3_frame, opsL3_frame, opsA2_frame, opsL2_frame, opsA1_frame, opsL1_frame]
  rfl

/-- Every buffer the line writes. -/
abbrev wAll : List (Ref sig .tc) := wL1 ++ (wA1 ++ (wL2 ++ (wA2 ++ (wL3 ++ (wA3 ++ (wL4 ++ wS))))))

/-- After the whole line a buffer no stretch writes — each argument — keeps its contents. -/
theorem arg_eq (V : Valuation τ sig (Elt Ideal)) {r : Ref sig .tc} (hr : r ∉ wAll) :
    after ops V (Proc.devRef .tc r : DevRef τ sig) = V (Proc.devRef .tc r) := by
  simp only [wAll, List.mem_append, not_or] at hr
  obtain ⟨h1, h2, h3, h4, h5, h6, h7, h8⟩ := hr
  simp only [ops, after_append]
  exact (opsS_frame _ h8).trans ((opsL4_frame _ h7).trans ((opsA3_frame _ h6).trans ((opsL3_frame _ h5).trans
    ((opsA2_frame _ h4).trans ((opsL2_frame _ h3).trans ((opsA1_frame _ h2).trans (opsL1_frame _ h1)))))))

end Cert.ReferenceIdeal.Hand

end
-- ==== Proof.Ref.RunS.lean ====
/-
  The reference's log-softmax stretch, read as one function of the logits.

  The fifteen operations of the outlined log-softmax form one chain over the array of logits: the row maxima, the
  logits shifted by them, the exponentials, their row sums, the logarithms, and the shifted logits minus these.  The
  chain is named once as a function of the logits; what the stretch leaves in its result buffer is that function of
  what the logits' buffer held (each operation writes one buffer and reads earlier ones, and contents are carried to and
  from a value's own type by the identity), and that function is the specification's row-wise log-softmax.
-/
import proofs.«131467_j38792144618188_2_alg».proof.Proof.Ref.Ops
import proofs.«131467_j38792144618188_2_alg».proof.Proof.Ref.Softmax

noncomputable section

namespace Cert.ReferenceIdeal.Hand

open Cert.ReferenceIdeal Cert.ReferenceIdeal.Gen Idealize.ShloMosaic Idealize.ShloMosaic.TcCoe Idealize.SL.Sem Idealize.ShloMosaic.StableHlo

/-- The stretch's chain as one function of the logits `z`: the shifted logits minus the logarithms of the row sums of
    their exponentials, the shift being the row maxima. -/
def lsmChain (z : FVec Ideal S2048x32000 .f32) : FVec Ideal S2048x32000 .f32 :=
  subf (F := Ideal)
    (subf (F := Ideal) z (broadcastInDim S2048x32000 ![0, 1] bcast_S2048x1_S2048x32000_0_1 (broadcastInDim S2048x1 ![0] bcast_S2048_S2048x1_0
        (maximumf (F := Ideal) (broadcastInDim S2048 ![] bcast_S_S2048 (constant (F := Ideal) S_ .f32 0xFF800000#32))
          (Host.reduce (FloatOps.maximumf (F := Ideal) (φ := .f32)) z (constant (F := Ideal) S_ .f32 0xFF800000#32) reducesTo_S2048x32000_S2048_d1 h_S_)))))
    (broadcastInDim S2048x32000 ![0, 1] bcast_S2048x1_S2048x32000_0_1 (Host.log (F := Ideal) (broadcastInDim S2048x1 ![0] bcast_S2048_S2048x1_0
      (Host.reduceAdd (F := Ideal)
        (Host.exp (F := Ideal) (subf (F := Ideal) z (broadcastInDim S2048x32000 ![0, 1] bcast_S2048x1_S2048x32000_0_1 (broadcastInDim S2048x1 ![0] bcast_S2048_S2048x1_0
        (maximumf (F := Ideal) (broadcastInDim S2048 ![] bcast_S_S2048 (constant (F := Ideal) S_ .f32 0xFF800000#32))
          (Host.reduce (FloatOps.maximumf (F := Ideal) (φ := .f32)) z (constant (F := Ideal) S_ .f32 0xFF800000#32) reducesTo_S2048x32000_S2048_d1 h_S_))))))
        (constant (F := Ideal) S_ .f32 0x00000000#32) reducesTo_S2048x32000_S2048_d1 h_S_))))

/-- The chain is the specification's log-softmax. -/
theorem lsmChain_eq (z : FVec Ideal S2048x32000 .f32) : lsmChain z = Cert.Spec.lsm (M := 2048) (N := 32000) z :=
  lsm_eq reducesTo_S2048x32000_S2048_d1 h_S_ bcast_S_S2048 bcast_S2048_S2048x1_0 bcast_S2048x1_S2048x32000_0_1 z

/-- Carrying contents to a buffer's type and back is the identity. -/
theorem ofBuf_toBuf {Val : EltTy → Type} {T : BufTy} (x : TRef sig T) (v : T.Contents Val) : x.ofBuf (x.toBuf v) = v := by
  obtain ⟨r, rfl, _, _⟩ := x
  rfl

/-- The logits' buffer read at the logits' type: the same contents. -/
theorem ofBuf_logits (u : (main_v54 : Ref sig .tc).ty.Contents (Elt Ideal)) :
    (TRef.of main_v54 : TRef sig ⟨S2048x32000, .f32⟩).ofBuf u = u := rfl

/-- The result carried to the result buffer's type: the same contents. -/
theorem toBuf_result (v : (⟨S2048x32000, .f32⟩ : BufTy).Contents (Elt Ideal)) :
    (TRef.of main_v55 : TRef sig ⟨S2048x32000, .f32⟩).toBuf v = v := rfl

attribute [local irreducible] Host.reduce Host.reduceAdd Host.exp Host.log broadcastInDim subf maximumf constant in
set_option maxRecDepth 8192 in
set_option maxHeartbeats 1000000 in
/-- What the stretch leaves in its result buffer: the chain applied to what the logits' buffer held. -/
theorem opsS_chain (V : Valuation τ sig (Elt Ideal)) :
    after opsS V (Proc.devRef .tc main_v55 : DevRef τ sig) = lsmChain (V (Proc.devRef .tc main_v54 : DevRef τ sig)) := by
  after_results_simp
  simp only [ofBuf_toBuf, ofBuf_logits, toBuf_result, lsmChain]

/-- What the log-softmax stretch leaves in its result buffer: the row-wise log-softmax of what the logits' buffer held. -/
theorem opsS_out (V : Valuation τ sig (Elt Ideal)) :
    after opsS V (Proc.devRef .tc main_v55 : DevRef τ sig)
      = Cert.Spec.lsm (M := 2048) (N := 32000) (V (Proc.devRef .tc main_v54 : DevRef τ sig)) :=
  (opsS_chain V).trans (lsmChain_eq _)

end Cert.ReferenceIdeal.Hand

end
-- ==== Proof.Ref.Value.lean ====
/-
  The reference's run, stated against the specification.

  The entry function is a straight line of host operations over tensor values only, so from any memory with zero
  counters every weakly fair execution of it terminates, and every TensorCore buffer ends at the line's fold over
  the launch contents.  At the result buffer that fold is the specification's `netR` — four weight-normalised
  layers with every weight entry scaled before the inner product, a leaky rectifier after the first three, the
  row-wise log-softmax last — of the thirteen argument arrays as the launch found them; at each argument buffer it is
  what was there.
-/
import proofs.«131467_j38792144618188_2_alg».proof.Proof.Ref.Run
import proofs.«131467_j38792144618188_2_alg».proof.Proof.Ref.RunS

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, from any memory with zero counters: every weakly fair execution of the reference terminates with
    the result buffer at the specification's network function of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
          = Cert.Spec.netR (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v55).trans (out_eq opsS_out (launchContents m c)),
      (h c main_arg0).trans (arg_eq (launchContents m c) (r := main_arg0) (by decide)),
      (h c main_arg1).trans (arg_eq (launchContents m c) (r := main_arg1) (by decide)),
      (h c main_arg2).trans (arg_eq (launchContents m c) (r := main_arg2) (by decide)),
      (h c main_arg3).trans (arg_eq (launchContents m c) (r := main_arg3) (by decide)),
      (h c main_arg4).trans (arg_eq (launchContents m c) (r := main_arg4) (by decide)),
      (h c main_arg5).trans (arg_eq (launchContents m c) (r := main_arg5) (by decide)),
      (h c main_arg6).trans (arg_eq (launchContents m c) (r := main_arg6) (by decide)),
      (h c main_arg7).trans (arg_eq (launchContents m c) (r := main_arg7) (by decide)),
      (h c main_arg8).trans (arg_eq (launchContents m c) (r := main_arg8) (by decide)),
      (h c main_arg9).trans (arg_eq (launchContents m c) (r := main_arg9) (by decide)),
      (h c main_arg10).trans (arg_eq (launchContents m c) (r := main_arg10) (by decide)),
      (h c main_arg11).trans (arg_eq (launchContents m c) (r := main_arg11) (by decide)),
      (h c main_arg12).trans (arg_eq (launchContents m c) (r := main_arg12) (by decide))⟩)
    (run_seq scopedRefs_eq scopedSems_eq defs main (fun _ => ops) main_eq (fun _ => ops_sub) m ρ (fun _ => ops_fresh))

end Cert.ReferenceIdeal.Hand

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.Math.LayerLaw.lean ====
/-
  The two arrangements of a weight-normalised linear layer agree when every entry is a real number.

  Fix a weight row `n`.  Its squared length is a sum of squares of reals, a real `r ≥ 0`, and its length the real
  `√r`.  If `r ≠ 0` the length is a positive real, the scale `g n / √r` is a real `s`, and
  `(∑ k, x k * v k) * s = ∑ k, x k * (v k * s)` is distributivity and associativity in ℝ.  If `r = 0` every entry
  of the row is `0` (a sum of squares of reals vanishes only if each does); the scale is then a quotient by zero,
  an infinity, but it only ever multiplies `0`: both arrangements give `0` for the inner product, since
  `0 * s = 0` for every extended real `s`.  In both cases every scaled weight entry `v k * s` is a real, so the
  layer's result is real again and the argument repeats layer by layer; the rectifier keeps reals real because its
  slope is a real.  The log-softmax is the same function on both sides.
-/
import proofs.«131467_j38792144618188_2_alg».proof.Proof.Spec
import proofs.«131467_j38792144618188_2_alg».proof.Proof.LibFinite

noncomputable section

namespace Cert.Spec

open Idealize.ShloMosaic Idealize.ShloMosaic.ValueIdx Cert.Fin

/-- A finite sum of images of reals is the image of the sum. -/
theorem coe_sum {ι : Type} (s : Finset ι) (f : ι → ℝ) : (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A real factor moves across a finite sum of products of reals. -/
theorem sum_mul_real {K : Nat} (x v : Fin K → EReal) (s : EReal) (hx : ∀ k, IsReal (x k)) (hv : ∀ k, IsReal (v k))
    (hs : IsReal s) : (∑ k, x k * v k) * s = ∑ k, x k * (v k * s) := by
  choose a ha using hx
  choose w hw using hv
  obtain ⟨t, rfl⟩ := hs
  simp only [ha, hw, ← EReal.coe_mul]
  rw [coe_sum, coe_sum, ← EReal.coe_mul, Finset.sum_mul]
  exact congrArg _ (Finset.sum_congr rfl fun k _ => mul_assoc _ _ _)

/-- Against a row of zeros the factor does not matter: both arrangements give `0`. -/
theorem sum_mul_zero {K : Nat} (x v : Fin K → EReal) (s : EReal) (hz : ∀ k, v k = 0) :
    (∑ k, x k * v k) * s = ∑ k, x k * (v k * s) := by
  simp only [hz, mul_zero, zero_mul, Finset.sum_const_zero]

/-- The squared length of a row of reals is a real `r ≥ 0`, and it is `0` only if every entry is. -/
theorem normSq_real {N K : Nat} (v : Mat N K) (hv : AllReal v) (n : Fin N) :
    ∃ r : ℝ, 0 ≤ r ∧ normSq v n = (r : EReal) ∧ (r = 0 → ∀ k : Fin K, v (ix2 n k) = 0) := by
  choose w hw using fun k : Fin K => hv (ix2 n k)
  refine ⟨∑ k, w k * w k, Finset.sum_nonneg fun k _ => mul_self_nonneg _, ?_, fun h0 k => ?_⟩
  · unfold normSq
    simp only [hw, ← EReal.coe_mul]
    exact coe_sum _ _
  · have h := (Finset.sum_eq_zero_iff_of_nonneg fun k _ => mul_self_nonneg (w k)).mp h0 k (Finset.mem_univ k)
    rw [hw k, mul_self_eq_zero.mp h, EReal.coe_zero]

/-- The scale of a row is a real, or the row is zero. -/
theorem scale_cases {N K : Nat} (g : Row N) (v : Mat N K) (hg : AllReal g) (hv : AllReal v) (n : Fin N) :
    IsReal (scale g v n) ∨ ∀ k : Fin K, v (ix2 n k) = 0 := by
  obtain ⟨r, hr, hn, hz⟩ := normSq_real v hv n
  by_cases h0 : r = 0
  · exact Or.inr (hz h0)
  · refine Or.inl ?_
    have hpos : 0 < r := lt_of_le_of_ne hr (Ne.symm h0)
    unfold scale
    rw [hn, Ideal.sqrt_coe, if_neg (not_lt.mpr hr)]
    exact isReal_div (hg _) ⟨Real.sqrt r, Real.sqrt_pos.mpr hpos, rfl⟩

/-- Every scaled weight entry is a real. -/
theorem isReal_mul_scale {N K : Nat} (g : Row N) (v : Mat N K) (hg : AllReal g) (hv : AllReal v) (n : Fin N) (k : Fin K) :
    IsReal (v (ix2 n k) * scale g v n) := by
  rcases scale_cases g v hg hv n with hs | hz
  · exact (hv _).mul hs
  · rw [hz k, zero_mul]; exact isReal_zero

theorem linKAt_eq_linRAt {M N K : Nat} (x : Mat M K) (v : Mat N K) (g b : Row N) (hx : AllReal x) (hv : AllReal v)
    (hg : AllReal g) (m : Fin M) (n : Fin N) : linKAt x v g b m n = linRAt x v g b m n := by
  unfold linKAt linRAt
  congr 1
  rcases scale_cases g v hg hv n with hs | hz
  · exact sum_mul_real (fun k => x (ix2 m k)) (fun k => v (ix2 n k)) _ (fun k => hx _) (fun k => hv _) hs
  · exact sum_mul_zero (fun k => x (ix2 m k)) (fun k => v (ix2 n k)) _ hz

theorem isReal_linRAt {M N K : Nat} (x : Mat M K) (v : Mat N K) (g b : Row N) (hx : AllReal x) (hv : AllReal v)
    (hg : AllReal g) (hb : AllReal b) (m : Fin M) (n : Fin N) : IsReal (linRAt x v g b m n) := by
  unfold linRAt
  exact (isReal_sum _ _ fun k _ => (hx _).mul (isReal_mul_scale g v hg hv n k)).add (hb _)

/-- The two arrangements of one layer agree on real entries. -/
theorem linK_eq_linR {M N K : Nat} (x : Mat M K) (v : Mat N K) (g b : Row N) (hx : AllReal x) (hv : AllReal v)
    (hg : AllReal g) (hb : AllReal b) : linK x v g b = linR x v g b :=
  funext fun j => linKAt_eq_linRAt x v g b hx hv hg (j 0) (j 1)

/-- A layer of real entries has real entries. -/
theorem allReal_linR {M N K : Nat} (x : Mat M K) (v : Mat N K) (g b : Row N) (hx : AllReal x) (hv : AllReal v)
    (hg : AllReal g) (hb : AllReal b) : AllReal (linR x v g b) :=
  fun j => isReal_linRAt x v g b hx hv hg hb (j 0) (j 1)

/-- The rectifier's slope is a real. -/
theorem isReal_slope : IsReal slope := by
  unfold slope
  refine isReal_of_ne ?_ ?_ <;> simp [Ideal.ofBits, Ideal.ieee] <;> rw [← EReal.coe_mul]
  · exact EReal.coe_ne_top _
  · exact EReal.coe_ne_bot _

theorem isReal_leaky {y : EReal} (hy : IsReal y) : IsReal (leaky y) := by
  unfold leaky
  split
  · exact hy
  · exact isReal_slope.mul hy

/-- The rectifier keeps real entries real. -/
theorem allReal_act {a b : Nat} (h : Mat a b) (hh : AllReal h) : AllReal (act h) := fun j => isReal_leaky (hh j)

/-- The two arrangements of the whole network agree on real inputs. -/
theorem netK_eq_netR (x : Mat 2048 2048) (v0 : Mat 4096 2048) (g0 b0 : Row 4096) (v1 : Mat 4096 4096) (g1 b1 : Row 4096)
    (v2 : Mat 4096 4096) (g2 b2 : Row 4096) (v3 : Mat 32000 4096) (g3 b3 : Row 32000)
    (hx : AllReal x) (hv0 : AllReal v0) (hg0 : AllReal g0) (hb0 : AllReal b0)
    (hv1 : AllReal v1) (hg1 : AllReal g1) (hb1 : AllReal b1)
    (hv2 : AllReal v2) (hg2 : AllReal g2) (hb2 : AllReal b2)
    (hv3 : AllReal v3) (hg3 : AllReal g3) (hb3 : AllReal b3) :
    netK x v0 g0 b0 v1 g1 b1 v2 g2 b2 v3 g3 b3 = netR x v0 g0 b0 v1 g1 b1 v2 g2 b2 v3 g3 b3 := by
  have h0 := allReal_act _ (allReal_linR x v0 g0 b0 hx hv0 hg0 hb0)
  have h1 := allReal_act _ (allReal_linR _ v1 g1 b1 h0 hv1 hg1 hb1)
  have h2 := allReal_act _ (allReal_linR _ v2 g2 b2 h1 hv2 hg2 hb2)
  unfold netK netR
  rw [linK_eq_linR x v0 g0 b0 hx hv0 hg0 hb0, linK_eq_linR _ v1 g1 b1 h0 hv1 hg1 hb1,
    linK_eq_linR _ v2 g2 b2 h1 hv2 hg2 hb2, linK_eq_linR _ v3 g3 b3 h2 hv3 hg3 hb3]

end Cert.Spec

end
-- ==== Proof.Math.PreFinite.lean ====
/-
  The precondition read back: every input entry is a real number.

  The precondition is a conjunction of thirteen tests, one per input array, each of the form "every entry `x` has
  `|x| < +∞`", printed as a reduction by `and` of the entrywise comparisons.  A reduction by `and` that comes out `1`
  met only `1`s, so every entry passes its comparison; and an extended real whose absolute value `max x (-x)` lies
  strictly below `⊤` is neither `⊤` nor `⊥` (for both the maximum is `⊤`), hence the image of a real.
-/
import proofs.«131467_j38792144618188_2_alg».proof.Defs
import proofs.«131467_j38792144618188_2_alg».proof.Proof.Gen.Pre_finite_inputs
import proofs.«131467_j38792144618188_2_alg».proof.Proof.LibFinite
import Idealize.ShloMosaic.Lib.ReduceAll
import Idealize.ShloMosaic.Lib.ValueIdx

noncomputable section

namespace Cert.Proof.Finite

open Idealize.ShloMosaic Idealize.ShloMosaic.ValueIdx Idealize.SL.Sem Cert.Fin

/-- The scalar shape has one index. -/
instance : Subsingleton Cert.Pre_finite_inputs.S_.Idx := ⟨fun a b => funext fun d => d.elim0⟩

/-- The word the tests compare against denotes `+∞`. -/
theorem inf_word : Ideal.ofBits .f32 0x7F800000#32 = ⊤ := by simp [Ideal.ofBits, Ideal.ieee]

/-- An extended real whose absolute value is strictly below `+∞` is a real. -/
theorem isReal_of_abs_lt (x : EReal) (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- One test, for an array of any shape: if "all entries have `|x| < +∞`" came out `1`, every entry is a real. -/
theorem allReal_of_all {s : Shape} {axes : List (Fin s.rank)} (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) h hu ix0 = 1#1) : AllReal x := by
  intro i
  have hi := Host.reduce_andi_all _ _ h hu ix0 e i
  exact isReal_of_abs_lt (x i) hi

/-- Under the precondition every entry of every input array is a real. -/
theorem of_pre [hF : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Fin.AllReal (m ((c.tc : Thread Cert.KernelIdeal.nD Cert.KernelIdeal.τ).loc Cert.KernelIdeal.main_arg0)) ∧
      Cert.Fin.AllReal (m ((c.tc : Thread Cert.KernelIdeal.nD Cert.KernelIdeal.τ).loc Cert.KernelIdeal.main_arg1)) ∧
      Cert.Fin.AllReal (m ((c.tc : Thread Cert.KernelIdeal.nD Cert.KernelIdeal.τ).loc Cert.KernelIdeal.main_arg2)) ∧
      Cert.Fin.AllReal (m ((c.tc : Thread Cert.KernelIdeal.nD Cert.KernelIdeal.τ).loc Cert.KernelIdeal.main_arg3)) ∧
      Cert.Fin.AllReal (m ((c.tc : Thread Cert.KernelIdeal.nD Cert.KernelIdeal.τ).loc Cert.KernelIdeal.main_arg4)) ∧
      Cert.Fin.AllReal (m ((c.tc : Thread Cert.KernelIdeal.nD Cert.KernelIdeal.τ).loc Cert.KernelIdeal.main_arg5)) ∧
      Cert.Fin.AllReal (m ((c.tc : Thread Cert.KernelIdeal.nD Cert.KernelIdeal.τ).loc Cert.KernelIdeal.main_arg6)) ∧
      Cert.Fin.AllReal (m ((c.tc : Thread Cert.KernelIdeal.nD Cert.KernelIdeal.τ).loc Cert.KernelIdeal.main_arg7)) ∧
      Cert.Fin.AllReal (m ((c.tc : Thread Cert.KernelIdeal.nD Cert.KernelIdeal.τ).loc Cert.KernelIdeal.main_arg8)) ∧
      Cert.Fin.AllReal (m ((c.tc : Thread Cert.KernelIdeal.nD Cert.KernelIdeal.τ).loc Cert.KernelIdeal.main_arg9)) ∧
      Cert.Fin.AllReal (m ((c.tc : Thread Cert.KernelIdeal.nD Cert.KernelIdeal.τ).loc Cert.KernelIdeal.main_arg10)) ∧
      Cert.Fin.AllReal (m ((c.tc : Thread Cert.KernelIdeal.nD Cert.KernelIdeal.τ).loc Cert.KernelIdeal.main_arg11)) ∧
      Cert.Fin.AllReal (m ((c.tc : Thread Cert.KernelIdeal.nD Cert.KernelIdeal.τ).loc Cert.KernelIdeal.main_arg12)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all _ _ _ _ e0, allReal_of_all _ _ _ _ e1, allReal_of_all _ _ _ _ e2, allReal_of_all _ _ _ _ e3,
    allReal_of_all _ _ _ _ e4, allReal_of_all _ _ _ _ e5, allReal_of_all _ _ _ _ e6, allReal_of_all _ _ _ _ e7,
    allReal_of_all _ _ _ _ e8, allReal_of_all _ _ _ _ e9, allReal_of_all _ _ _ _ e10, allReal_of_all _ _ _ _ e11,
    allReal_of_all _ _ _ _ e12⟩

end Cert.Proof.Finite

end
-- ==== Proof.lean ====
/-
  The certificate's five claims for a four-layer weight-normalised perceptron with a log-softmax head.

  Each layer multiplies its input (2048 rows) by a weight matrix whose row `n` is scaled by `g n / ‖v n‖`, adds a bias,
  and — in the first three layers — applies the leaky rectifier; the last layer's rows go through log-softmax.  The
  kernel program computes the scale vectors and narrows the operands on the host, then runs five launches: four
  blocked matrix products that accumulate `x_block · w_blockᵀ` over the column blocks of the contracted axis in a
  scratch accumulator and, at the last block, store `acc * scale + bias` (rectified in the first three), and one
  launch that takes the log-softmax of 64 rows at a time.  The reference scales every weight entry first and calls one
  whole matrix product per layer.

  Over the extended reals a narrowing is the identity and a blocked sum is the sum, so the kernel program's result is
  the network with each inner product scaled once (`Cert.Spec.netK`), the reference's the network with each weight
  entry scaled first (`Cert.Spec.netR`).  The two differ by moving a factor across a finite sum, which holds for real
  factors and, where a weight row is all zeros (its scale then infinite), because both sides reduce to the bias; the
  precondition makes every input entry real, and each layer keeps entries real (`Proof/Math/LayerLaw.lean`).

  The three frames: each program runs to the end, faults nowhere and leaves its argument arrays as launched — the kernel
  program's by the launch of its nine segments (`Proof/KI/Assembly.lean` over the extended reals, `Proof/K/Assembly.lean`
  for the word-level program, each launch's body and invariant in its own module), the reference's by its run of host
  operations (`Proof/Ref/`).  The idealisation rewrote no operation, so there is nothing to preserve.
-/
import proofs.«131467_j38792144618188_2_alg».proof.Defs
import proofs.«131467_j38792144618188_2_alg».proof.Proof.Gen.Kernel
import proofs.«131467_j38792144618188_2_alg».proof.Proof.Gen.KernelIdeal
import proofs.«131467_j38792144618188_2_alg».proof.Proof.Gen.ReferenceIdeal
import proofs.«131467_j38792144618188_2_alg».proof.Proof.Gen.Pre_finite_inputs
import proofs.«131467_j38792144618188_2_alg».proof.Proof.KI.Assembly
import proofs.«131467_j38792144618188_2_alg».proof.Proof.K.Assembly
import proofs.«131467_j38792144618188_2_alg».proof.Proof.KI.KValue
import proofs.«131467_j38792144618188_2_alg».proof.Proof.Ref.Value
import proofs.«131467_j38792144618188_2_alg».proof.Proof.Math.LayerLaw
import proofs.«131467_j38792144618188_2_alg».proof.Proof.Math.PreFinite
import Idealize.ShloMosaic.Adequacy
import Idealize.ShloMosaic.Init

noncomputable section

namespace Cert.Proof

open Idealize.ShloMosaic Idealize.ShloMosaic.TcCoe Idealize.SL.Sem

variable [hK : Cert.Kernel.Facts] [hKI : Cert.KernelIdeal.Facts] [hRI : Cert.ReferenceIdeal.Facts] [hP : Cert.Pre_finite_inputs.Facts]

/-- The word-level program runs to the end, faults nowhere, and leaves its arguments as launched. -/
theorem frame_k : Cert.frame_Kernel := fun m ρ _ =>
  (θ_run Cert.Kernel.defs _ _).mono (fun _ h c => (h c).2) (Cert.Kernel.Hand.run_result (F := Bits) m ρ)

/-- So does the same program read over the extended reals. -/
theorem frame_ki : Cert.frame_KernelIdeal := fun m ρ _ =>
  (θ_run Cert.KernelIdeal.defs _ _).mono (fun _ h c => (h c).2) (Cert.KernelIdeal.Hand.run_result (F := Ideal) m ρ)

/-- And the reference. -/
theorem frame_ri : Cert.frame_ReferenceIdeal := fun m ρ _ =>
  (θ_run Cert.ReferenceIdeal.defs _ _).mono (fun _ h c => (h c).2) (Cert.ReferenceIdeal.Hand.run m ρ)

/-- Over the extended reals, from memories that agree on the thirteen arguments, both programs end with the same
    result array: the kernel program's is the network with each layer's inner product scaled once, the reference's the
    network with each weight entry scaled first, and on finite inputs — which the precondition gives — the two are one
    function. -/
theorem algebraic : Cert.algebraic_KernelIdeal_ReferenceIdeal := by
  intro m ρ m' ρ' hpre hagree
  refine ⟨fun c => Cert.Spec.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.KernelIdeal.Hand.value m c), (h c).2⟩)
      (Cert.KernelIdeal.Hand.run_result (F := Ideal) m ρ)
  · refine (θ_run Cert.ReferenceIdeal.defs _ _).mono (fun _ h c => ⟨(h c).1.trans ?_, (h c).2⟩) (Cert.ReferenceIdeal.Hand.run m' ρ')
    obtain ⟨a0, a1, a2, a3, a4, a5, a6, a7, a8, a9, a10, a11, a12⟩ := hagree c
    obtain ⟨f0, f1, f2, f3, f4, f5, f6, f7, f8, f9, f10, f11, f12⟩ := Cert.Proof.Finite.of_pre m hpre c
    rw [a0, a1, a2, a3, a4, a5, a6, a7, a8, a9, a10, a11, a12]
    exact (Cert.Spec.netK_eq_netR _ _ _ _ _ _ _ _ _ _ _ _ _ f0 f1 f2 f3 f4 f5 f6 f7 f8 f9 f10 f11 f12).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
